-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S128x64x3x3 : Shape := ⟨4, ![128, 64, 3, 3]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel
  bcast_S_S128x64x3x3 : S_.BroadcastsInDim S128x64x3x3 (![] : Fin 0 → Fin S128x64x3x3.rank)
  reducesTo_S128x64x3x3_S_d0_1_2_3 : S128x64x3x3.ReducesTo [0, 1, 2, 3] S_

variable [Facts]

def fn {F : FTy → Type} [FloatOps F] (main_arg0 : FVec F S16x64x128x128 .f32) (main_arg1 : FVec F S128x64x3x3 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S128x64x3x3 .f32 := Host.absf main_arg1
  let main_cst_0 : FVec F S_ .f32 := constant S_ .f32 0x7F800000#32
  let main_v5 : FVec F S128x64x3x3 .f32 := broadcastInDim S128x64x3x3 ![] bcast_S_S128x64x3x3 main_cst_0
  let main_v6 : IVec S128x64x3x3 1 := cmpf .olt main_v4 main_v5
  let main_c_1 : IVec S_ 1 := constantI S_ 1 1#1
  let main_v7 : IVec S_ 1 := (fun x v => Host.reduce IntOp.andi x v reducesTo_S128x64x3x3_S_d0_1_2_3 h_S_) main_v6 main_c_1
  let main_v8 : IVec S_ 1 := andi main_v3 main_v7
  main_v8
-- ==== Kernel.lean ====
abbrev S16x64x128x128 : Shape := ⟨4, ![16, 64, 128, 128]⟩
abbrev S128x64x3x3 : Shape := ⟨4, ![128, 64, 3, 3]⟩
abbrev S_ : Shape := ⟨0, ![]⟩
abbrev S16x64x130x130 : Shape := ⟨4, ![16, 64, 130, 130]⟩
abbrev S16x64x1x128x128 : Shape := ⟨5, ![16, 64, 1, 128, 128]⟩
abbrev S16x64x9x128x128 : Shape := ⟨5, ![16, 64, 9, 128, 128]⟩
abbrev S16x576x16384 : Shape := ⟨3, ![16, 576, 16384]⟩
abbrev S128x576 : Shape := ⟨2, ![128, 576]⟩
abbrev S576 : Shape := ⟨1, ![576]⟩
abbrev S2x576x1 : Shape := ⟨3, ![2, 576, 1]⟩
abbrev S1x576x4096 : Shape := ⟨3, ![1, 576, 4096]⟩
abbrev S1x576x1 : Shape := ⟨3, ![1, 576, 1]⟩
abbrev S576x1 : Shape := ⟨2, ![576, 1]⟩
abbrev S576x4096 : Shape := ⟨2, ![576, 4096]⟩
abbrev S2x576 : Shape := ⟨2, ![2, 576]⟩
abbrev S1x1 : Shape := ⟨2, ![1, 1]⟩
abbrev S1x576 : Shape := ⟨2, ![1, 576]⟩
abbrev S16x128x16384 : Shape := ⟨3, ![16, 128, 16384]⟩
abbrev S1x576x2048 : Shape := ⟨3, ![1, 576, 2048]⟩
abbrev S1x128x2048 : Shape := ⟨3, ![1, 128, 2048]⟩
abbrev S576x2048 : Shape := ⟨2, ![576, 2048]⟩
abbrev S128x2048 : Shape := ⟨2, ![128, 2048]⟩
abbrev S16x128x128x128 : Shape := ⟨4, ![16, 128, 128, 128]⟩

abbrev nBuf : Space → Nat
  | .hbm => 88
  | .vmem => 11
  | .smem => 0
  | _ => 0

abbrev bufTy : (tb : Table) → Fin (tcTables nBuf tb) → BufTy
  | .hbm, ⟨0, _⟩ => ⟨S16x64x128x128, .f32⟩
  | .hbm, ⟨1, _⟩ => ⟨S128x64x3x3, .f32⟩
  | .hbm, ⟨2, _⟩ => ⟨S_, .i32⟩
  | .hbm, ⟨3, _⟩ => ⟨S_, .f32⟩
  | .hbm, ⟨4, _⟩ => ⟨S16x64x130x130, .f32⟩
  | .hbm, ⟨5, _⟩ => ⟨S16x64x128x128, .f32⟩
  | .hbm, ⟨6, _⟩ => ⟨S16x64x128x128, .f32⟩
  | .hbm, ⟨7, _⟩ => ⟨S16x64x128x128, .f32⟩
  | .hbm, ⟨8, _⟩ => ⟨S16x64x128x128, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S16x64x128x128, .f32⟩
  | .hbm, ⟨14, _⟩ => ⟨S16x64x1x128x128, .f32⟩
  | .hbm, ⟨15, _⟩ => ⟨S16x64x1x128x128, .f32⟩
  | .hbm, ⟨16, _⟩ => ⟨S16x64x1x128x128, .f32⟩
  | .hbm, ⟨17, _⟩ => ⟨S16x64x1x128x128, .f32⟩
  | .hbm, ⟨18, _⟩ => ⟨S16x64x1x128x128, .f32⟩
  | .hbm, ⟨19, _⟩ => ⟨S16x64x1x128x128, .f32⟩
  | .hbm, ⟨20, _⟩ => ⟨S16x64x1x128x128, .f32⟩
  | .hbm, ⟨21, _⟩ => ⟨S16x64x1x128x128, .f32⟩
  | .hbm, ⟨22, _⟩ => ⟨S16x64x1x128x128, .f32⟩
  | .hbm, ⟨23, _⟩ => ⟨S16x64x9x128x128, .f32⟩
  | .hbm, ⟨24, _⟩ => ⟨S16x576x16384, .f32⟩
  | .hbm, ⟨25, _⟩ => ⟨S128x576, .f32⟩
  | .hbm, ⟨26, _⟩ => ⟨S128x576, .f32⟩
  | .hbm, ⟨27, _⟩ => ⟨S_, .f32⟩
  | .hbm, ⟨28, _⟩ => ⟨S576, .f32⟩
  | .hbm, ⟨29, _⟩ => ⟨S2x576x1, .f32⟩
  | .hbm, ⟨30, _⟩ => ⟨S2x576, .f32⟩
  | .hbm, ⟨31, _⟩ => ⟨S_, .f32⟩
  | .hbm, ⟨32, _⟩ => ⟨S576, .f32⟩
  | .hbm, ⟨33, _⟩ => ⟨S_, .f32⟩
  | .hbm, ⟨34, _⟩ => ⟨S576, .f32⟩
  | .hbm, ⟨35, _⟩ => ⟨S576, .f32⟩
  | .hbm, ⟨36, _⟩ => ⟨S_, .f32⟩
  | .hbm, ⟨37, _⟩ => ⟨S576, .f32⟩
  | .hbm, ⟨38, _⟩ => ⟨S576, .f32⟩
  | .hbm, ⟨39, _⟩ => ⟨S576, .f32⟩
  | .hbm, ⟨40, _⟩ => ⟨S_, .f32⟩
  | .hbm, ⟨41, _⟩ => ⟨S576, .f32⟩
  | .hbm, ⟨42, _⟩ => ⟨S576, .i1⟩
  | .hbm, ⟨43, _⟩ => ⟨S_, .f32⟩
  | .hbm, ⟨44, _⟩ => ⟨S_, .f32⟩
  | .hbm, ⟨45, _⟩ => ⟨S576, .f32⟩
  | .hbm, ⟨46, _⟩ => ⟨S576, .f32⟩
  | .hbm, ⟨47, _⟩ => ⟨S576, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1x1, .f32⟩
  | .hbm, ⟨58, _⟩ => ⟨S576x1, .f32⟩
  | .hbm, ⟨59, _⟩ => ⟨S1x576, .f32⟩
  | .hbm, ⟨60, _⟩ => ⟨S128x576, .f32⟩
  | .hbm, ⟨61, _⟩ => ⟨S128x576, .f32⟩
  | .hbm, ⟨62, _⟩ => ⟨S128x576, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S128x576, .f32⟩
  | .hbm, ⟨73, _⟩ => ⟨S128x576, .f32⟩
  | .hbm, ⟨74, _⟩ => ⟨S128x576, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S128x576, .f32⟩
  | .hbm, ⟨79, _⟩ => ⟨S128x576, .f32⟩
  | .hbm, ⟨80, _⟩ => ⟨S_, .f32⟩
  | .hbm, ⟨81, _⟩ => ⟨S128x576, .f32⟩
  | .hbm, ⟨82, _⟩ => ⟨S128x576, .f32⟩
  | .hbm, ⟨83, _⟩ => ⟨S128x576, .f32⟩
  | .hbm, ⟨84, _⟩ => ⟨S128x576, .f32⟩
  | .hbm, ⟨85, _⟩ => ⟨S128x576, .bf16⟩
  | .hbm, ⟨86, _⟩ => ⟨S16x128x16384, .f32⟩
  | .hbm, ⟨87, _⟩ => ⟨S16x128x128x128, .f32⟩
  | .local _ .vmem, ⟨0, _⟩ => ⟨S1x576x4096, .f32⟩
  | .local _ .vmem, ⟨1, _⟩ => ⟨S1x576x4096, .f32⟩
  | .local _ .vmem, ⟨2, _⟩ => ⟨S1x576x1, .f32⟩
  | .local _ .vmem, ⟨3, _⟩ => ⟨S1x576x1, .f32⟩
  | .local _ .vmem, ⟨4, _⟩ => ⟨S1x576x2048, .f32⟩
  | .local _ .vmem, ⟨5, _⟩ => ⟨S1x576x2048, .f32⟩
  | .local _ .vmem, ⟨6, _⟩ => ⟨S576x1, .f32⟩
  | .local _ .vmem, ⟨7, _⟩ => ⟨S1x1, .f32⟩
  | .local _ .vmem, ⟨8, _⟩ => ⟨S128x576, .bf16⟩
  | .local _ .vmem, ⟨9, _⟩ => ⟨S1x128x2048, .f32⟩
  | .local _ .vmem, ⟨10, _⟩ => ⟨S1x128x2048, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_call2_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_cst_12 : Ref sig .tc := ⟨.hbm, 69, rfl⟩
abbrev main_call3_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_cst_14 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x576x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x576x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S576x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x576 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  pads_S16x64x128x128_S16x64x130x130_000_000_110_110 : S16x64x128x128.Pads (![0, 0, 1, 1] : Fin 4 → Nat) ![0, 0, 1, 1] ![0, 0, 0, 0] S16x64x130x130
  h_S_ : 0 < S_.numel
  slices_S16x64x130x130_S16x64x128x128_0_0_0_0 : S16x64x130x130.Slices ![0, 0, 0, 0] S16x64x128x128
  slices_S16x64x130x130_S16x64x128x128_0_0_0_1 : S16x64x130x130.Slices ![0, 0, 0, 1] S16x64x128x128
  slices_S16x64x130x130_S16x64x128x128_0_0_0_2 : S16x64x130x130.Slices ![0, 0, 0, 2] S16x64x128x128
  slices_S16x64x130x130_S16x64x128x128_0_0_1_0 : S16x64x130x130.Slices ![0, 0, 1, 0] S16x64x128x128
  slices_S16x64x130x130_S16x64x128x128_0_0_1_1 : S16x64x130x130.Slices ![0, 0, 1, 1] S16x64x128x128
  slices_S16x64x130x130_S16x64x128x128_0_0_1_2 : S16x64x130x130.Slices ![0, 0, 1, 2] S16x64x128x128
  slices_S16x64x130x130_S16x64x128x128_0_0_2_0 : S16x64x130x130.Slices ![0, 0, 2, 0] S16x64x128x128
  slices_S16x64x130x130_S16x64x128x128_0_0_2_1 : S16x64x130x130.Slices ![0, 0, 2, 1] S16x64x128x128
  slices_S16x64x130x130_S16x64x128x128_0_0_2_2 : S16x64x130x130.Slices ![0, 0, 2, 2] S16x64x128x128
  bcast_S16x64x128x128_S16x64x1x128x128_0_1_3_4 : S16x64x128x128.BroadcastsInDim S16x64x1x128x128 (![0, 1, 3, 4] : Fin 4 → Fin S16x64x1x128x128.rank)
  concatenates_S16x64x1x128x128_S16x64x1x128x128_S16x64x1x128x128_S16x64x1x128x128_S16x64x1x128x128_S16x64x1x128x128_S16x64x1x128x128_S16x64x1x128x128_S16x64x1x128x128_S16x64x9x128x128_d2 : Shape.Concatenates [S16x64x1x128x128, S16x64x1x128x128, S16x64x1x128x128, S16x64x1x128x128, S16x64x1x128x128, S16x64x1x128x128, S16x64x1x128x128, S16x64x1x128x128, S16x64x1x128x128] S16x64x9x128x128 2
  shapeCasts_S16x64x9x128x128_S16x576x16384 : S16x64x9x128x128.ShapeCasts S16x576x16384
  shapeCasts_S128x64x3x3_S128x576 : S128x64x3x3.ShapeCasts S128x576
  reducesTo_S128x576_S576_d0 : S128x576.ReducesTo [0] S576
  inb_S1x576x1_S1x576x1_0_0_0 : ∀ a, (![0, 0, 0] : Fin 3 → Nat) a + S1x576x1.size a ≤ S1x576x1.size a
  h_S1x576x1 : 0 < S1x576x1.numel
  shapeCasts_S1x576x1_S576x1 : S1x576x1.ShapeCasts S576x1
  shapeCasts_S576x1_S1x576x1 : S576x1.ShapeCasts S1x576x1
  inb_S1x576x4096_S1x576x4096_0_0_0 : ∀ a, (![0, 0, 0] : Fin 3 → Nat) a + S1x576x4096.size a ≤ S1x576x4096.size a
  h_S1x576x4096 : 0 < S1x576x4096.numel
  shapeCasts_S1x576x4096_S576x4096 : S1x576x4096.ShapeCasts S576x4096
  reduces_S576x4096_S576 : S576x4096.Reduces [1] S576
  shapeCasts_S576_S576x1 : S576.ShapeCasts S576x1
  shapeCasts_S2x576x1_S2x576 : S2x576x1.ShapeCasts S2x576
  reducesTo_S2x576_S576_d0 : S2x576.ReducesTo [0] S576
  bcast_S_S576 : S_.BroadcastsInDim S576 (![] : Fin 0 → Fin S576.rank)
  reducesTo_S576_S_d0 : S576.ReducesTo [0] S_
  shapeCasts_S_S1x1 : S_.ShapeCasts S1x1
  bcast_S576_S1x576_1 : S576.BroadcastsInDim S1x576 (![1] : Fin 1 → Fin S1x576.rank)
  bcast_S1x576_S128x576_0_1 : S1x576.BroadcastsInDim S128x576 (![0, 1] : Fin 2 → Fin S128x576.rank)
  reducesTo_S128x576_S_d0_1 : S128x576.ReducesTo [0, 1] S_
  bcast_S_S128x576 : S_.BroadcastsInDim S128x576 (![] : Fin 0 → Fin S128x576.rank)
  bitsLt_bf16_f32 : FTy.bits .bf16 < FTy.bits .f32
  inb_S1x576x2048_S1x576x2048_0_0_0 : ∀ a, (![0, 0, 0] : Fin 3 → Nat) a + S1x576x2048.size a ≤ S1x576x2048.size a
  h_S1x576x2048 : 0 < S1x576x2048.numel
  shapeCasts_S1x576x2048_S576x2048 : S1x576x2048.ShapeCasts S576x2048
  inb_S576x1_S576x1_0_0 : ∀ a, (![0, 0] : Fin 2 → Nat) a + S576x1.size a ≤ S576x1.size a
  h_S576x1 : 0 < S576x1.numel
  shapeCasts_S576x1_S576x1 : S576x1.ShapeCasts S576x1
  broadcasts_S576x1_S576x2048 : S576x1.Broadcasts S576x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S576x2048 : S1x1.Broadcasts S576x2048
  inb_S128x576_S128x576_0_0 : ∀ a, (![0, 0] : Fin 2 → Nat) a + S128x576.size a ≤ S128x576.size a
  h_S128x576 : 0 < S128x576.numel
  shapeCasts_S128x576_S128x576 : S128x576.ShapeCasts S128x576
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  shapeCasts_S16x128x16384_S16x128x128x128 : S16x128x16384.ShapeCasts S16x128x128x128
  dot_S128x576_S576x2048_S128x2048_1_0_0_1_n_n_wf : DotDims.WF S128x576 S576x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x576x4096.size a ≤ S16x576x16384.size a
  hwx0_0 : ∀ i : grid0.Coords, EltTy.bits .f32 = 32 ∨ (Rect.block (s := S16x576x16384) S1x576x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x576x1.size a ≤ S2x576x1.size a
  hwx0_1 : ∀ i : grid0.Coords, EltTy.bits .f32 = 32 ∨ (Rect.block (s := S2x576x1) S1x576x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x576x2048.size a ≤ S16x576x16384.size a
  hwx1_0 : ∀ i : grid1.Coords, EltTy.bits .f32 = 32 ∨ (Rect.block (s := S16x576x16384) S1x576x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x1.size a ≤ S576x1.size a
  hwx1_1 : ∀ i : grid1.Coords, EltTy.bits .f32 = 32 ∨ (Rect.block (s := S576x1) S576x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x576.size a ≤ S128x576.size a
  hwx1_3 : ∀ i : grid1.Coords, EltTy.bits .bf16 = 32 ∨ (Rect.block (s := S128x576) S128x576.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x2048.size a ≤ S16x128x16384.size a
  hwx1_4 : ∀ i : grid1.Coords, EltTy.bits .f32 = 32 ∨ (Rect.block (s := S16x128x16384) S1x128x2048.size (cc1_transform_4 i) (hinb1_4 i)).WholeWords (EltTy.packing .f32)

variable [Facts₀]

def dot_S128x576_S576x2048_S128x2048_1_0_0_1_n_n : DotDims S128x576 S576x2048 S128x2048 where
  lhsContracting := [1]
  rhsContracting := [0]
  lhsNonContracting := [0]
  rhsNonContracting := [1]
  lhsBatch := []
  rhsBatch := []
  wf := dot_S128x576_S576x2048_S128x2048_1_0_0_1_n_n_wf

abbrev win0_0 : Pipeline.Window sig grid0 :=
  Pipeline.Window.ofSpec (Memref.whole main_v20) S1x576x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x576x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v20) S1x576x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S576x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S128x576.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x128x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x64x128x128 : Shape := ⟨4, ![16, 64, 128, 128]⟩
abbrev S128x64x3x3 : Shape := ⟨4, ![128, 64, 3, 3]⟩
abbrev S_ : Shape := ⟨0, ![]⟩
abbrev S16x64x130x130 : Shape := ⟨4, ![16, 64, 130, 130]⟩
abbrev S16x64x1x128x128 : Shape := ⟨5, ![16, 64, 1, 128, 128]⟩
abbrev S16x64x9x128x128 : Shape := ⟨5, ![16, 64, 9, 128, 128]⟩
abbrev S16x576x16384 : Shape := ⟨3, ![16, 576, 16384]⟩
abbrev S16x16384x576 : Shape := ⟨3, ![16, 16384, 576]⟩
abbrev S262144x576 : Shape := ⟨2, ![262144, 576]⟩
abbrev S128x576 : Shape := ⟨2, ![128, 576]⟩
abbrev S576 : Shape := ⟨1, ![576]⟩
abbrev S1x576 : Shape := ⟨2, ![1, 576]⟩
abbrev S262144x128 : Shape := ⟨2, ![262144, 128]⟩
abbrev S16x16384x128 : Shape := ⟨3, ![16, 16384, 128]⟩
abbrev S16x128x16384 : Shape := ⟨3, ![16, 128, 16384]⟩
abbrev S16x128x128x128 : Shape := ⟨4, ![16, 128, 128, 128]⟩

abbrev nBuf : Space → Nat
  | .hbm => 108
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S128x64x3x3, .f32⟩
  | .hbm, ⟨2, _⟩ => ⟨S_, .i32⟩
  | .hbm, ⟨3, _⟩ => ⟨S_, .f32⟩
  | .hbm, ⟨4, _⟩ => ⟨S16x64x130x130, .f32⟩
  | .hbm, ⟨5, _⟩ => ⟨S16x64x128x128, .f32⟩
  | .hbm, ⟨6, _⟩ => ⟨S16x64x128x128, .f32⟩
  | .hbm, ⟨7, _⟩ => ⟨S16x64x128x128, .f32⟩
  | .hbm, ⟨8, _⟩ => ⟨S16x64x128x128, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S16x64x128x128, .f32⟩
  | .hbm, ⟨14, _⟩ => ⟨S16x64x1x128x128, .f32⟩
  | .hbm, ⟨15, _⟩ => ⟨S16x64x1x128x128, .f32⟩
  | .hbm, ⟨16, _⟩ => ⟨S16x64x1x128x128, .f32⟩
  | .hbm, ⟨17, _⟩ => ⟨S16x64x1x128x128, .f32⟩
  | .hbm, ⟨18, _⟩ => ⟨S16x64x1x128x128, .f32⟩
  | .hbm, ⟨19, _⟩ => ⟨S16x64x1x128x128, .f32⟩
  | .hbm, ⟨20, _⟩ => ⟨S16x64x1x128x128, .f32⟩
  | .hbm, ⟨21, _⟩ => ⟨S16x64x1x128x128, .f32⟩
  | .hbm, ⟨22, _⟩ => ⟨S16x64x1x128x128, .f32⟩
  | .hbm, ⟨23, _⟩ => ⟨S16x64x9x128x128, .f32⟩
  | .hbm, ⟨24, _⟩ => ⟨S16x576x16384, .f32⟩
  | .hbm, ⟨25, _⟩ => ⟨S16x16384x576, .f32⟩
  | .hbm, ⟨26, _⟩ => ⟨S262144x576, .f32⟩
  | .hbm, ⟨27, _⟩ => ⟨S128x576, .f32⟩
  | .hbm, ⟨28, _⟩ => ⟨S262144x576, .f32⟩
  | .hbm, ⟨29, _⟩ => ⟨S_, .f32⟩
  | .hbm, ⟨30, _⟩ => ⟨S576, .f32⟩
  | .hbm, ⟨31, _⟩ => ⟨S128x576, .f32⟩
  | .hbm, ⟨32, _⟩ => ⟨S_, .f32⟩
  | .hbm, ⟨33, _⟩ => ⟨S576, .f32⟩
  | .hbm, ⟨34, _⟩ => ⟨S_, .f32⟩
  | .hbm, ⟨35, _⟩ => ⟨S576, .f32⟩
  | .hbm, ⟨36, _⟩ => ⟨S576, .f32⟩
  | .hbm, ⟨37, _⟩ => ⟨S_, .f32⟩
  | .hbm, ⟨38, _⟩ => ⟨S576, .f32⟩
  | .hbm, ⟨39, _⟩ => ⟨S576, .f32⟩
  | .hbm, ⟨40, _⟩ => ⟨S576, .f32⟩
  | .hbm, ⟨41, _⟩ => ⟨S_, .f32⟩
  | .hbm, ⟨42, _⟩ => ⟨S576, .f32⟩
  | .hbm, ⟨43, _⟩ => ⟨S576, .i1⟩
  | .hbm, ⟨44, _⟩ => ⟨S_, .f32⟩
  | .hbm, ⟨45, _⟩ => ⟨S_, .f32⟩
  | .hbm, ⟨46, _⟩ => ⟨S576, .f32⟩
  | .hbm, ⟨47, _⟩ => ⟨S576, .f32⟩
  | .hbm, ⟨48, _⟩ => ⟨S1x576, .f32⟩
  | .hbm, ⟨49, _⟩ => ⟨S262144x576, .f32⟩
  | .hbm, ⟨50, _⟩ => ⟨S262144x576, .f32⟩
  | .hbm, ⟨51, _⟩ => ⟨S262144x576, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S262144x576, .f32⟩
  | .hbm, ⟨62, _⟩ => ⟨S262144x576, .f32⟩
  | .hbm, ⟨63, _⟩ => ⟨S262144x576, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S262144x576, .f32⟩
  | .hbm, ⟨68, _⟩ => ⟨S262144x576, .f32⟩
  | .hbm, ⟨69, _⟩ => ⟨S_, .f32⟩
  | .hbm, ⟨70, _⟩ => ⟨S262144x576, .f32⟩
  | .hbm, ⟨71, _⟩ => ⟨S262144x576, .f32⟩
  | .hbm, ⟨72, _⟩ => ⟨S262144x576, .f32⟩
  | .hbm, ⟨73, _⟩ => ⟨S262144x576, .f32⟩
  | .hbm, ⟨74, _⟩ => ⟨S262144x576, .f32⟩
  | .hbm, ⟨75, _⟩ => ⟨S262144x576, .f32⟩
  | .hbm, ⟨76, _⟩ => ⟨S1x576, .f32⟩
  | .hbm, ⟨77, _⟩ => ⟨S128x576, .f32⟩
  | .hbm, ⟨78, _⟩ => ⟨S128x576, .f32⟩
  | .hbm, ⟨79, _⟩ => ⟨S128x576, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S128x576, .f32⟩
  | .hbm, ⟨90, _⟩ => ⟨S128x576, .f32⟩
  | .hbm, ⟨91, _⟩ => ⟨S128x576, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S128x576, .f32⟩
  | .hbm, ⟨96, _⟩ => ⟨S128x576, .f32⟩
  | .hbm, ⟨97, _⟩ => ⟨S_, .f32⟩
  | .hbm, ⟨98, _⟩ => ⟨S128x576, .f32⟩
  | .hbm, ⟨99, _⟩ => ⟨S128x576, .f32⟩
  | .hbm, ⟨100, _⟩ => ⟨S128x576, .f32⟩
  | .hbm, ⟨101, _⟩ => ⟨S128x576, .f32⟩
  | .hbm, ⟨102, _⟩ => ⟨S128x576, .f32⟩
  | .hbm, ⟨103, _⟩ => ⟨S128x576, .f32⟩
  | .hbm, ⟨104, _⟩ => ⟨S262144x128, .f32⟩
  | .hbm, ⟨105, _⟩ => ⟨S16x16384x128, .f32⟩
  | .hbm, ⟨106, _⟩ => ⟨S16x128x16384, .f32⟩
  | .hbm, ⟨107, _⟩ => ⟨S16x128x128x128, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_cst_8 : Ref sig .tc := ⟨.hbm, 58, rfl⟩
abbrev main_call2_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_cst_10 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_cst_14 : Ref sig .tc := ⟨.hbm, 86, rfl⟩
abbrev main_call5_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_cst_16 : Ref sig .tc := ⟨.hbm, 93, rfl⟩
abbrev main_call7_v0 : Ref sig .tc := ⟨.hbm, 94, rfl⟩
abbrev main_call7_v1 : Ref sig .tc := ⟨.hbm, 95, rfl⟩
abbrev main_call7_v2 : Ref sig .tc := ⟨.hbm, 96, rfl⟩
abbrev main_call7_v3 : Ref sig .tc := ⟨.hbm, 97, rfl⟩
abbrev main_call7_v4 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]

class Facts₀ : Prop where
  pads_S16x64x128x128_S16x64x130x130_000_000_110_110 : S16x64x128x128.Pads (![0, 0, 1, 1] : Fin 4 → Nat) ![0, 0, 1, 1] ![0, 0, 0, 0] S16x64x130x130
  h_S_ : 0 < S_.numel
  slices_S16x64x130x130_S16x64x128x128_0_0_0_0 : S16x64x130x130.Slices ![0, 0, 0, 0] S16x64x128x128
  slices_S16x64x130x130_S16x64x128x128_0_0_0_1 : S16x64x130x130.Slices ![0, 0, 0, 1] S16x64x128x128
  slices_S16x64x130x130_S16x64x128x128_0_0_0_2 : S16x64x130x130.Slices ![0, 0, 0, 2] S16x64x128x128
  slices_S16x64x130x130_S16x64x128x128_0_0_1_0 : S16x64x130x130.Slices ![0, 0, 1, 0] S16x64x128x128
  slices_S16x64x130x130_S16x64x128x128_0_0_1_1 : S16x64x130x130.Slices ![0, 0, 1, 1] S16x64x128x128
  slices_S16x64x130x130_S16x64x128x128_0_0_1_2 : S16x64x130x130.Slices ![0, 0, 1, 2] S16x64x128x128
  slices_S16x64x130x130_S16x64x128x128_0_0_2_0 : S16x64x130x130.Slices ![0, 0, 2, 0] S16x64x128x128
  slices_S16x64x130x130_S16x64x128x128_0_0_2_1 : S16x64x130x130.Slices ![0, 0, 2, 1] S16x64x128x128
  slices_S16x64x130x130_S16x64x128x128_0_0_2_2 : S16x64x130x130.Slices ![0, 0, 2, 2] S16x64x128x128
  bcast_S16x64x128x128_S16x64x1x128x128_0_1_3_4 : S16x64x128x128.BroadcastsInDim S16x64x1x128x128 (![0, 1, 3, 4] : Fin 4 → Fin S16x64x1x128x128.rank)
  concatenates_S16x64x1x128x128_S16x64x1x128x128_S16x64x1x128x128_S16x64x1x128x128_S16x64x1x128x128_S16x64x1x128x128_S16x64x1x128x128_S16x64x1x128x128_S16x64x1x128x128_S16x64x9x128x128_d2 : Shape.Concatenates [S16x64x1x128x128, S16x64x1x128x128, S16x64x1x128x128, S16x64x1x128x128, S16x64x1x128x128, S16x64x1x128x128, S16x64x1x128x128, S16x64x1x128x128, S16x64x1x128x128] S16x64x9x128x128 2
  shapeCasts_S16x64x9x128x128_S16x576x16384 : S16x64x9x128x128.ShapeCasts S16x576x16384
  transposes_S16x576x16384_S16x16384x576_0_2_1 : S16x576x16384.Transposes [0, 2, 1] S16x16384x576
  shapeCasts_S16x16384x576_S262144x576 : S16x16384x576.ShapeCasts S262144x576
  shapeCasts_S128x64x3x3_S128x576 : S128x64x3x3.ShapeCasts S128x576
  reducesTo_S262144x576_S576_d0 : S262144x576.ReducesTo [0] S576
  reducesTo_S128x576_S576_d0 : S128x576.ReducesTo [0] S576
  bcast_S_S576 : S_.BroadcastsInDim S576 (![] : Fin 0 → Fin S576.rank)
  bcast_S576_S1x576_1 : S576.BroadcastsInDim S1x576 (![1] : Fin 1 → Fin S1x576.rank)
  bcast_S1x576_S262144x576_0_1 : S1x576.BroadcastsInDim S262144x576 (![0, 1] : Fin 2 → Fin S262144x576.rank)
  reducesTo_S262144x576_S_d0_1 : S262144x576.ReducesTo [0, 1] S_
  bcast_S_S262144x576 : S_.BroadcastsInDim S262144x576 (![] : Fin 0 → Fin S262144x576.rank)
  bcast_S1x576_S128x576_0_1 : S1x576.BroadcastsInDim S128x576 (![0, 1] : Fin 2 → Fin S128x576.rank)
  reducesTo_S128x576_S_d0_1 : S128x576.ReducesTo [0, 1] S_
  bcast_S_S128x576 : S_.BroadcastsInDim S128x576 (![] : Fin 0 → Fin S128x576.rank)
  shapeCasts_S262144x128_S16x16384x128 : S262144x128.ShapeCasts S16x16384x128
  transposes_S16x16384x128_S16x128x16384_0_2_1 : S16x16384x128.Transposes [0, 2, 1] S16x128x16384
  shapeCasts_S16x128x16384_S16x128x128x128 : S16x128x16384.ShapeCasts S16x128x128x128
  dot_S262144x576_S128x576_S262144x128_1_1_0_0_n_n_wf : DotDims.WF S262144x576 S128x576 S262144x128 [1] [1] [0] [0] [] []

variable [Facts₀]

def dot_S262144x576_S128x576_S262144x128_1_1_0_0_n_n : DotDims S262144x576 S128x576 S262144x128 where
  lhsContracting := [1]
  rhsContracting := [1]
  lhsNonContracting := [0]
  rhsNonContracting := [0]
  lhsBatch := []
  rhsBatch := []
  wf := dot_S262144x576_S128x576_S262144x128_1_1_0_0_n_n_wf

class Facts : Prop extends Facts₀ where

variable [Facts]
-- ==== Proof.Bits.ColMax.lean ====
/- Region 0 of the program: the per-column running maximum of |x| (the activation scale's numerator).

   The region is a pipeline over a 2 x 8 x 4 grid.  Its input window walks the blocks of the activation array;
   its output window is indexed by the leading coordinate alone, so one output block stays in place for the 32
   points that share that coordinate and is written back after the last of them.  The body has one conditional:
   at the first of those 32 points it fills the output block with -inf, and at every point it then replaces the
   output block by the elementwise maximum of the block and the row maxima of |input block|.

   This module states, for an arbitrary content V of the core's buffers at entry to the region and an arbitrary
   float model, what the output block holds after each point (defined by recursion on the point), packages it as
   the pipeline's proof data, and proves that the body meets the pipeline's obligation at every point. -/
import proofs.«122551_j65360812311363_2_alg».proof.Proof.Gen.Kernel.Launch
import proofs.«122551_j65360812311363_2_alg».proof.Proof.Gen.Kernel.Skeleton
import proofs.«122551_j65360812311363_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.ColMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditional of the body -/

/-- The guard of the body's one conditional, as a function of the grid coordinates: coordinates 1 and 2 are
    both zero. -/
abbrev atStart (i : grid0.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

/-- In the linear order of the 64 points the guard holds exactly at the multiples of 32: the first point of
    each value of the leading coordinate. -/
theorem atStart_iff : ∀ t : Fin cfg0.N, atStart (grid0.coords t) ↔ t.val % 32 = 0 :=
  (by decide +kernel : ∀ t : Fin grid0.N, atStart (grid0.coords t) ↔ t.val % 32 = 0)

/-! ## The staging memrefs the body is called with -/

/-- The input window's and the output window's staging memref at point `t`, with their wholeness. -/
abbrev inRef (t : Fin cfg0.N) : Memref sig .tc .vmem S1x576x4096 .f32 := win0_0.stage (cfg0.slots t 0)
abbrev inRef_whole (t : Fin cfg0.N) : (inRef t).IsWhole := hstage0_0 ((cfg0.slots t 0).cast nbuf0_0)
abbrev outRef (t : Fin cfg0.N) : Memref sig .tc .vmem S1x576x1 .f32 := win0_1.stage (cfg0.slots t 1)
abbrev outRef_whole (t : Fin cfg0.N) : (outRef t).IsWhole := hstage0_1 ((cfg0.slots t 1).cast nbuf0_1)

/-- A fixed whole view of the output block's shape, through which the contents of the output block are
    expressed (reading back a list of covering stores does not depend on which whole view is used). -/
abbrev outView : View sig .tc .vmem S1x576x1 .f32 := (Memref.whole cc0_stg1_0 : Memref sig .tc .vmem S1x576x1 .f32).view

/-! ## The body run once, in each of the two cases -/

set_option maxHeartbeats 1000000 in
/-- THE FIRST CASE (guard true).  On whole memrefs, the input's holding `x` and the output's holding anything,
    the body runs to a state where the input's memref still holds `x` and the output's memref holds some
    contents overwritten by a list of stores; the list (last store first) is the first component, found by
    running the body symbolically: the -inf fill, then the maximum of what was just filled in with the row
    maxima of `|x|`. -/
noncomputable def runStart (c : Dev nD) (i : grid0.Coords)
    (a : Memref sig .tc .vmem S1x576x4096 .f32) (ha : a.IsWhole) (o : Memref sig .tc .vmem S1x576x1 .f32) (ho : o.IsWhole)
    (hi : atStart i) (x : Vec F S1x576x4096 .f32) :
    { L : List (View.Piece (Elt F) S1x576x1 .f32) //
      ∀ (E : Set ℕ) (K : PUnit → sProp 𝕄),
        iprop(owns (c : Thread nD τ) a fullShare x ∗ (∃ d, owns (c : Thread nD τ) o fullShare d)
            ∗ (iprop(owns (c : Thread nD τ) a fullShare x ∗ (∃ f, o.view.loc (c : Thread nD τ) ↦[o.view.set]{fullShare} o.view.writes (Elt F) f L)) -∗ K ⟨⟩))
          ⊢ wp frame (wpE (defs₀ (F := F)) Variants.none c none) E (cc0__act_scale_kernel i a ha o ho) K } := by
  refine ⟨?_, fun E K => ?run⟩
  case run =>
    simp only [cc0__act_scale_kernel_eq_skeleton]; unfold cc0__act_scale_kernel_skel
    unfold owns
    iintro ⟨⟨%fa, %hfa, Ha⟩, ⟨%d, %fo, -, Ho⟩, Hk⟩
    obtain rfl := ha.eq_unread hfa
    sl_exec (disch := first | exact hi)
    sl_step
    iapply Hk
    isplitl [Ha]
    · iexists _; isplitr; · ipureintro; exact ha.read_unread _
      iexact Ha
    iexists _; iexact Ho

set_option maxHeartbeats 1000000 in
/-- THE LATER CASE (guard false).  As before, but the output's memref is known to hold `y` (what the previous
    point left), and the one store is the maximum of `y` with the row maxima of `|x|`. -/
noncomputable def runLater (c : Dev nD) (i : grid0.Coords)
    (a : Memref sig .tc .vmem S1x576x4096 .f32) (ha : a.IsWhole) (o : Memref sig .tc .vmem S1x576x1 .f32) (ho : o.IsWhole)
    (hi : ¬atStart i) (x : Vec F S1x576x4096 .f32) (y : Vec F S1x576x1 .f32) :
    { L : List (View.Piece (Elt F) S1x576x1 .f32) //
      ∀ (E : Set ℕ) (K : PUnit → sProp 𝕄),
        iprop(owns (c : Thread nD τ) a fullShare x ∗ owns (c : Thread nD τ) o fullShare y
            ∗ (iprop(owns (c : Thread nD τ) a fullShare x ∗ (∃ f, o.view.loc (c : Thread nD τ) ↦[o.view.set]{fullShare} o.view.writes (Elt F) f L)) -∗ K ⟨⟩))
          ⊢ wp frame (wpE (defs₀ (F := F)) Variants.none c none) E (cc0__act_scale_kernel i a ha o ho) K } := by
  refine ⟨?_, fun E K => ?run⟩
  case run =>
    simp only [cc0__act_scale_kernel_eq_skeleton]; unfold cc0__act_scale_kernel_skel
    unfold owns
    iintro ⟨⟨%fa, %hfa, Ha⟩, ⟨%fo, %hfo, Ho⟩, Hk⟩
    obtain rfl := ha.eq_unread hfa; obtain rfl := ho.eq_unread hfo
    sl_exec (disch := first | exact hi)
    sl_step
    iapply Hk
    isplitl [Ha]
    · iexists _; isplitr; · ipureintro; exact ha.read_unread _
      iexact Ha
    iexists _; iexact Ho

/-! ## What each case leaves in the output block -/

/-- In the first case the stores tile the output block, hence cover it. -/
theorem runStart_covers (c : Dev nD) (i : grid0.Coords)
    (a : Memref sig .tc .vmem S1x576x4096 .f32) (ha : a.IsWhole) (o : Memref sig .tc .vmem S1x576x1 .f32) (ho : o.IsWhole)
    (hi : atStart i) (x : Vec F S1x576x4096 .f32) (j : S1x576x1.Idx) :
    ∃ pc ∈ (runStart c i a ha o ho hi x).1, j ∈ pc.1.set :=
  View.cover_of_tiledL (runStart c i a ha o ho hi x).1 S1x576x1.size (by sl_kernel_rfl) j

/-- The output block after a point of the first case: the case's stores read back (over arbitrary contents). -/
def leftStart (c : Dev nD) (i : grid0.Coords)
    (a : Memref sig .tc .vmem S1x576x4096 .f32) (ha : a.IsWhole) (o : Memref sig .tc .vmem S1x576x1 .f32) (ho : o.IsWhole)
    (hi : atStart i) (x : Vec F S1x576x4096 .f32) : Vec F S1x576x1 .f32 :=
  outView.read (Elt F) (outView.writes (Elt F) outView.junk (runStart c i a ha o ho hi x).1)

/-- In the later case the one store covers the output block. -/
theorem runLater_covers (c : Dev nD) (i : grid0.Coords)
    (a : Memref sig .tc .vmem S1x576x4096 .f32) (ha : a.IsWhole) (o : Memref sig .tc .vmem S1x576x1 .f32) (ho : o.IsWhole)
    (hi : ¬atStart i) (x : Vec F S1x576x4096 .f32) (y : Vec F S1x576x1 .f32) (j : S1x576x1.Idx) :
    ∃ pc ∈ (runLater c i a ha o ho hi x y).1, j ∈ pc.1.set :=
  View.cover_of_tiledL (runLater c i a ha o ho hi x y).1 S1x576x1.size (by sl_kernel_rfl) j

/-- The output block after a point of the later case, given that it held `y` before. -/
def leftLater (c : Dev nD) (i : grid0.Coords)
    (a : Memref sig .tc .vmem S1x576x4096 .f32) (ha : a.IsWhole) (o : Memref sig .tc .vmem S1x576x1 .f32) (ho : o.IsWhole)
    (hi : ¬atStart i) (x : Vec F S1x576x4096 .f32) (y : Vec F S1x576x1 .f32) : Vec F S1x576x1 .f32 :=
  outView.read (Elt F) (outView.writes (Elt F) outView.junk (runLater c i a ha o ho hi x y).1)

/-! ## The two cases in closed form -/

/-- The origin of a rank-3 block, as the constant-zero offset function. -/
theorem origin3 : (![0, 0, 0] : Fin 3 → Nat) = fun _ => 0 := funext fun k => by fin_cases k <;> rfl

/-- The later case leaves the body's accumulation step applied to the input block and the previous contents: its
    one store is to the whole block, and its two loads read the whole of the two memrefs. -/
theorem leftLater_eq (c : Dev nD) (i : grid0.Coords)
    (a : Memref sig .tc .vmem S1x576x4096 .f32) (ha : a.IsWhole) (o : Memref sig .tc .vmem S1x576x1 .f32) (ho : o.IsWhole)
    (hi : ¬atStart i) (x : Vec F S1x576x4096 .f32) (y : Vec F S1x576x1 .f32) :
    leftLater c i a ha o ho hi x y = k0_pay2 x y := by
  unfold leftLater
  rw [View.read_writes_eq_canon _ _ _ (runLater_covers c i a ha o ho hi x y)]
  unfold runLater
  dsimp only
  rw [View.canon_unit_zero origin3]
  simp only [View.readAt_eq_ld, ha.read_unread, ho.read_unread, View.ld_unit_zero (S := S1x576x4096) origin3,
    View.ld_unit_zero (S := S1x576x1) origin3]

/-- The first case leaves the accumulation step applied to the input block and the -inf fill: the second store is
    to the whole block, and the load between the two stores reads back the fill. -/
theorem leftStart_eq (c : Dev nD) (i : grid0.Coords)
    (a : Memref sig .tc .vmem S1x576x4096 .f32) (ha : a.IsWhole) (o : Memref sig .tc .vmem S1x576x1 .f32) (ho : o.IsWhole)
    (hi : atStart i) (x : Vec F S1x576x4096 .f32) :
    leftStart c i a ha o ho hi x = k0_pay2 x (k0_pay1 (F := F)) := by
  unfold leftStart
  rw [View.read_writes_eq_canon _ _ _ (runStart_covers c i a ha o ho hi x)]
  unfold runStart
  dsimp only
  sl_unfold_words
  rw [View.canon_cons_unit_zero (S := S1x576x1) origin3, View.readCov_unit_zero (S := S1x576x1) _ origin3]
  simp only [View.readAt_eq_ld, ha.read_unread, View.ld_unit_zero (S := S1x576x4096) origin3]
section Region

-- the contents of the core's buffers when the region is entered
variable (V : (c : Dev nD) → (b : Ref sig .tc) → Buf (Elt F) ((c : Thread nD τ).loc b))

/-! ## The windows' blocks and the running maximum -/

/-- The block window `w` selects at point `t`, read from the window's array as it is at entry. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- For any proof data over `V` whose body leaves the input block in place, the input window's staging memref
    holds the point's block when the body is called: the window is fetched at every point, is never idle and is
    never cut at the array's edge. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- THE RUNNING MAXIMUM: what the output block holds after the body at the `n`-th point.  At a multiple of 32 the
    first case, from the point's input block alone; elsewhere the later case, from the point's input block and
    what the previous point left (the output block is not written back in between). -/
def colMaxAt (c : Dev nD) : (n : ℕ) → n < cfg0.N → Vec F S1x576x1 .f32
  | 0, hn => leftStart c (grid0.coords ⟨0, hn⟩) (inRef ⟨0, hn⟩) (inRef_whole ⟨0, hn⟩) (outRef ⟨0, hn⟩) (outRef_whole ⟨0, hn⟩)
      ((atStart_iff ⟨0, hn⟩).mpr (Nat.zero_mod _)) (blk V c 0 ⟨0, hn⟩)
  | n + 1, hn =>
    if h : (n + 1) % 32 = 0 then
      leftStart c (grid0.coords ⟨n + 1, hn⟩) (inRef ⟨n + 1, hn⟩) (inRef_whole ⟨n + 1, hn⟩) (outRef ⟨n + 1, hn⟩) (outRef_whole ⟨n + 1, hn⟩)
        ((atStart_iff ⟨n + 1, hn⟩).mpr h) (blk V c 0 ⟨n + 1, hn⟩)
    else
      leftLater c (grid0.coords ⟨n + 1, hn⟩) (inRef ⟨n + 1, hn⟩) (inRef_whole ⟨n + 1, hn⟩) (outRef ⟨n + 1, hn⟩) (outRef_whole ⟨n + 1, hn⟩)
        (fun g => h ((atStart_iff ⟨n + 1, hn⟩).mp g)) (blk V c 0 ⟨n + 1, hn⟩) (colMaxAt c n (Nat.lt_of_succ_lt hn))

/-- The recursion at a multiple of 32. -/
theorem colMaxAt_start (c : Dev nD) (t : Fin cfg0.N) (h : t.val % 32 = 0) :
    colMaxAt V c t.val t.isLt = leftStart c (grid0.coords t) (inRef t) (inRef_whole t) (outRef t) (outRef_whole t)
      ((atStart_iff t).mpr h) (blk V c 0 t) := by
  obtain ⟨n, hn⟩ := t
  cases n with
  | zero => exact rfl
  | succ n => exact (dif_pos h).trans rfl

/-- The recursion elsewhere. -/
theorem colMaxAt_later (c : Dev nD) (t : Fin cfg0.N) (h : ¬t.val % 32 = 0) :
    colMaxAt V c t.val t.isLt = leftLater c (grid0.coords t) (inRef t) (inRef_whole t) (outRef t) (outRef_whole t)
      (fun g => h ((atStart_iff t).mp g)) (blk V c 0 t)
      (colMaxAt V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The running maximum in closed form -/

/-- At a multiple of 32 the output block holds the accumulation step of the point's input block over the -inf
    fill. -/
theorem colMaxAt_start_eq (c : Dev nD) (t : Fin cfg0.N) (h : t.val % 32 = 0) :
    colMaxAt V c t.val t.isLt = k0_pay2 (blk V c 0 t) (k0_pay1 (F := F)) :=
  (colMaxAt_start V c t h).trans (leftStart_eq ..)

/-- Elsewhere it holds the accumulation step of the point's input block over what the previous point left. -/
theorem colMaxAt_later_eq (c : Dev nD) (t : Fin cfg0.N) (h : ¬t.val % 32 = 0) :
    colMaxAt V c t.val t.isLt
      = k0_pay2 (blk V c 0 t) (colMaxAt V c (t.val - 1) (Nat.lt_of_le_of_lt (Nat.sub_le _ _) t.isLt)) :=
  (colMaxAt_later V c t h).trans (leftLater_eq ..)
/-! ## The proof data -/

/-- The pipeline's proof data on core `c`: the arrays as found at entry; after the body at point `t` the input's
    staging memref holds the point's block and the output's holds the running maximum; the invariant carried
    through is the untouched remainder of the core's state; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => colMaxAt V c t.val t.isLt
  Φ _ := Pipeline.ΦA spec0 c
  q _ := fullShare
  owed _ := 0

theorem dat_A (c : Dev nD) (w : Fin cfg0.W) : (dat V c).A w = V c (Pipeline.arrRef spec0 w) := by
  dsimp only [dat]

theorem dat_after_in (c : Dev nD) (t : Fin cfg0.N) : (dat V c).after 0 t = blk V c 0 t := by dsimp only [dat]
theorem dat_after_out (c : Dev nD) (t : Fin cfg0.N) : (dat V c).after 1 t = colMaxAt V c t.val t.isLt := by dsimp only [dat]

/-- The same two equations, read off the proof data. -/
theorem dat_after_out_start (c : Dev nD) (t : Fin cfg0.N) (h : t.val % 32 = 0) :
    (dat V c).after 1 t = k0_pay2 (blk V c 0 t) (k0_pay1 (F := F)) :=
  (dat_after_out V c t).trans (colMaxAt_start_eq V c t h)

theorem dat_after_out_later (c : Dev nD) (t : Fin cfg0.N) (h : ¬t.val % 32 = 0) :
    (dat V c).after 1 t
      = k0_pay2 (blk V c 0 t) ((dat V c).after 1 ⟨t.val - 1, Nat.lt_of_le_of_lt (Nat.sub_le _ _) t.isLt⟩) :=
  (dat_after_out V c t).trans ((colMaxAt_later_eq V c t h).trans (by rw [dat_after_out]))

/-- When the body is called, the input's staging memref holds the point's block. -/
theorem dat_before_in (c : Dev nD) (t : Fin cfg0.N) (d) : (dat V c).before 0 t d = blk V c 0 t :=
  before_in_of V (dat V c) (dat_A V c 0) (dat_after_in V c) t d

/-- Away from the multiples of 32 the output's staging memref holds, when the body is called, what the previous
    point left: the output block was not written back after the previous point (that happens only after points
    congruent to 31), and the window is never idle and never cut. -/
theorem dat_before_out_later (c : Dev nD) (t : Fin cfg0.N) (h : ¬t.val % 32 = 0) (d) :
    (dat V c).before 1 t d = colMaxAt V c (t.val - 1) (Nat.lt_of_le_of_lt (Nat.sub_le _ _) t.isLt) := by
  have hN : t.val < 64 := lt_of_lt_of_eq t.isLt (show cfg0.N = 64 from N_0)
  rw [Dat.before_out_kept _ 1 rfl t (by omega) (Bool.eq_false_iff.mpr fun g => by have := (flush0_1 _).mp g; dsimp only at this; omega)
    (fun _ => rfl) (fun _ _ => rfl)]
  dsimp only [dat]

/-! ## The body obligation -/

/-- What the pipeline hands the body at point `t`: the invariant, the core's debt, and the two staging memrefs. -/
def bodyPre (c : Dev nD) (t : Fin cfg0.N) : sProp 𝕄 :=
  iprop((dat V c).Φ t.castSucc ∗ (dat V c).owesAt () t.castSucc
    ∗ (∃ d, owns (c : Thread nD τ) (inRef t) fullShare ((dat V c).before 0 t d))
    ∗ (∃ d, owns (c : Thread nD τ) (outRef t) fullShare ((dat V c).before 1 t d)))

/-- What the body must hand back. -/
def bodyPost (c : Dev nD) (t : Fin cfg0.N) : sProp 𝕄 :=
  iprop((dat V c).Φ t.succ ∗ (dat V c).owesAt () t.succ
    ∗ owns (c : Thread nD τ) (inRef t) fullShare ((dat V c).after 0 t)
    ∗ owns (c : Thread nD τ) (outRef t) fullShare ((dat V c).after 1 t))

set_option maxHeartbeats 800000 in
/-- The body at an arbitrary point.  The input's memref holds the point's block.  Either the point is a multiple
    of 32, the first case applies whatever the output's memref holds, and its stores read back are the running
    maximum there by definition; or it is not, the output's memref holds the running maximum of the previous
    point, and the later case applies.  The invariant and the debt are not touched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_in]
  rw [show (dat V c).Φ t.succ = (dat V c).Φ t.castSucc from rfl,
    show (dat V c).owesAt () t.succ = (dat V c).owesAt () t.castSucc from rfl,
    dat_after_in, dat_after_out]
  have hN : t.val < 64 := lt_of_lt_of_eq t.isLt (show cfg0.N = 64 from N_0)
  by_cases h : t.val % 32 = 0
  · rw [colMaxAt_start V c t h]
    unfold leftStart
    iintro ⟨HΦ, Hd, ⟨%d0, Hin⟩, ⟨%d1, Hout⟩⟩
    iapply ((runStart c (grid0.coords t) _ _ _ _ ((atStart_iff t).mpr h) (blk V c 0 t)).2 Set.univ _)
    isplitl [Hin]; · iexact Hin
    isplitl [Hout]; · iexists _; iexact Hout
    iintro ⟨Hin, ⟨%e, Hout⟩⟩
    isplitl [HΦ]; · iexact HΦ
    isplitl [Hd]; · iexact Hd
    isplitl [Hin]; · iexact Hin
    unfold owns; iexists _; isplitr
    swap; · iexact Hout
    ipureintro; exact View.read_writes_of_cover _ _ _ _ _ (runStart_covers c _ _ _ _ _ _ _)
  · rw [colMaxAt_later V c t h]
    simp only [dat_before_out_later V c t h]
    unfold leftLater
    iintro ⟨HΦ, Hd, ⟨%d0, Hin⟩, ⟨%d1, Hout⟩⟩
    iapply ((runLater c (grid0.coords t) _ _ _ _ (fun g => h ((atStart_iff t).mp g)) (blk V c 0 t) _).2 Set.univ _)
    isplitl [Hin]; · iexact Hin
    isplitl [Hout]; · iexact Hout
    iintro ⟨Hin, ⟨%e, Hout⟩⟩
    isplitl [HΦ]; · iexact HΦ
    isplitl [Hd]; · iexact Hd
    isplitl [Hin]; · iexact Hin
    unfold owns; iexists _; isplitr
    swap; · iexact Hout
    ipureintro; exact View.read_writes_of_cover _ _ _ _ _ (runLater_covers c _ _ _ _ _ _ _ _)

/-- The pipeline's body obligation for region 0, at every point. -/
theorem body_obligation (c : Dev nD) : BodyObligation (dat (F := F) V c) (defs₀ (F := F)) Variants.none () Set.univ := fun t => by
  rw [bigSep_W0, bigSep_W0]
  exact sound_body V c t

end Region

end Cert.Kernel.ColMax

end
-- ==== Proof.Bits.QuantMul.lean ====
/-
  The quantized-matmul region, one grid point at a time.

  The region's body reads four input blocks — the activation block, the per-row scale column, the single
  quantization step, the quantized weight — and overwrites its whole output block with one value computed from
  them. This file says, for the TensorCore's buffer contents V at the moment the region is entered:

  * what each window's block is at each grid point (blk);
  * what the output block holds once the body has run (stored): the one store's payload, laid over the block;
  * that the body, run on buffers holding the four input blocks and an output buffer holding anything, leaves the
    inputs as they were and the output at stored of them (sound_kernel);
  * that stored is simply the payload of the four blocks, every access being of a whole buffer (stored_eq);
  * the proof data of the region's pipeline (dat) and the obligation the pipeline's soundness theorem asks of the
    body at every grid point (body_obligation).

  Three of the inputs (scale, step, weight) have a block index that never moves, so the pipeline brings them in
  once, at the first point; their buffers hold the same block at every later point because the body never writes
  them. The activation block is brought in afresh at every point. Both cases are one lemma of the library.
-/
import proofs.«122551_j65360812311363_2_alg».proof.Proof.Gen.Kernel.Launch
import proofs.«122551_j65360812311363_2_alg».proof.Proof.Gen.Kernel.Skeleton
import proofs.«122551_j65360812311363_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by structural recursion on the
-- coordinates
set_option maxRecDepth 16384

noncomputable section

namespace Cert.Kernel.QuantMul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- The block of window w at grid point t: the part of the window's array, as the region finds it, that the
    window's index map selects at t. -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

section Inputs
variable {c : Dev nD} (dat : Dat τ (Elt F) Unit ℕ (UR sig nD τ) ℕ cfg1 c)

/-- The activation window's buffer holds its block at every point: it is brought in at every point, and the body
    leaves it alone. Stated for any proof data over V's arrays whose body keeps the block. -/
theorem before_x_of (hA : dat.A 0 = V c (Pipeline.arrRef spec1 0)) (hafter : ∀ t, dat.after 0 t = blk V c 0 t)
    (t : Fin cfg1.N) (d) : dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- The scale window's buffer holds its block at every point: brought in once, its index never moves, and the body
    leaves it alone, so what the first point put there is still there. -/
theorem before_scale_of (hA : dat.A 1 = V c (Pipeline.arrRef spec1 1)) (hafter : ∀ t, dat.after 1 t = blk V c 1 t)
    (t : Fin cfg1.N) (d) : dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- The same of the quantization step. -/
theorem before_step_of (hA : dat.A 2 = V c (Pipeline.arrRef spec1 2)) (hafter : ∀ t, dat.after 2 t = blk V c 2 t)
    (t : Fin cfg1.N) (d) : dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- The same of the quantized weight. -/
theorem before_weight_of (hA : dat.A 3 = V c (Pipeline.arrRef spec1 3)) (hafter : ∀ t, dat.after 3 t = blk V c 3 t)
    (t : Fin cfg1.N) (d) : dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

end Inputs

/-! ## The body's accesses: each buffer whole -/

abbrev rX : Rect S1x576x2048 := Rect.unit (s := S1x576x2048) ![0, 0, 0] S1x576x2048.size inb_S1x576x2048_S1x576x2048_0_0_0
abbrev rScale : Rect S576x1 := Rect.unit (s := S576x1) ![0, 0] S576x1.size inb_S576x1_S576x1_0_0
abbrev rStep : Rect S1x1 := Rect.unit (s := S1x1) ![0, 0] S1x1.size inb_S1x1_S1x1_0_0
abbrev rWeight : Rect S128x576 := Rect.unit (s := S128x576) ![0, 0] S128x576.size inb_S128x576_S128x576_0_0
abbrev rOut : Rect S1x128x2048 := Rect.unit (s := S1x128x2048) ![0, 0, 0] S1x128x2048.size inb_S1x128x2048_S1x128x2048_0_0_0

/-! ## What the body leaves in the output block -/

/-- The output block after the body, from the four input blocks: the body's one store, whose payload is computed
    from what the four whole-buffer loads read, laid over the block. -/
def stored (x0 : Vec F S1x576x2048 .f32) (x1 : Vec F S576x1 .f32) (x2 : Vec F S1x1 .f32) (x3 : Vec F S128x576 .bf16) :
    Vec F S1x128x2048 .f32 :=
  View.canon [⟨rOut, k1_pay1 (View.ld x0 rX) (View.ld x1 rScale) (View.ld x2 rStep) (View.ld x3 rWeight)⟩]

/-- The one store writes the whole block: its rectangle, starting at the origin with the block's extents, contains
    every index. -/
theorem stored_covers (p : Vec F S1x128x2048 .f32) (y : S1x128x2048.Idx) :
    ∃ pc ∈ ([⟨rOut, p⟩] : List (View.Piece (Elt F) S1x128x2048 .f32)), y ∈ pc.1.set :=
  View.cover_of_tiled [⟨rOut, p⟩] S1x128x2048.size (by rfl) y

/-! ## The output block is the payload -/

/-- Every access of the body starts at the origin of its buffer. -/
theorem origin2 : (![0, 0] : Fin 2 → Nat) = fun _ => 0 := funext fun a => by fin_cases a <;> rfl
theorem origin3 : (![0, 0, 0] : Fin 3 → Nat) = fun _ => 0 := funext fun a => by fin_cases a <;> rfl

/-- Each load reads a whole buffer and the store writes the whole output block, so what the body leaves there is
    the payload of the four input blocks themselves, index for index. -/
theorem stored_eq (x0 : Vec F S1x576x2048 .f32) (x1 : Vec F S576x1 .f32) (x2 : Vec F S1x1 .f32) (x3 : Vec F S128x576 .bf16) :
    stored x0 x1 x2 x3 = k1_pay1 x0 x1 x2 x3 := by
  unfold stored
  rw [View.canon_unit_zero (S := S1x128x2048) origin3]
  simp only [View.ld_unit_zero (S := S1x576x2048) origin3, View.ld_unit_zero (S := S576x1) origin2,
    View.ld_unit_zero (S := S1x1) origin2, View.ld_unit_zero (S := S128x576) origin2]

/-! ## The body's triple -/

set_option maxHeartbeats 1000000 in
/-- The body on whole buffers — the four inputs' holding x0 … x3, the output's holding anything — runs to a state
    with the inputs' as they were and the output's at stored x0 x1 x2 x3. The body is four loads of the inputs, a
    load of the output whose value nothing reads, and one store. -/
theorem sound_kernel (c : Dev nD) (E : Set ℕ) (i : grid1.Coords)
    (a0 : Memref sig .tc .vmem S1x576x2048 .f32) (h0 : a0.IsWhole) (a1 : Memref sig .tc .vmem S576x1 .f32) (h1 : a1.IsWhole)
    (a2 : Memref sig .tc .vmem S1x1 .f32) (h2 : a2.IsWhole) (a3 : Memref sig .tc .vmem S128x576 .bf16) (h3 : a3.IsWhole)
    (a4 : Memref sig .tc .vmem S1x128x2048 .f32) (h4 : a4.IsWhole)
    (x0 : Vec F S1x576x2048 .f32) (x1 : Vec F S576x1 .f32) (x2 : Vec F S1x1 .f32) (x3 : Vec F S128x576 .bf16)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (stored x0 x1 x2 x3)) -∗ K ⟨⟩))
      ⊢ wp frame (wpE (defs₀ (F := F)) Variants.none c none) E (cc1__quant_matmul_kernel i a0 h0 a1 h1 a2 h2 a3 h3 a4 h4) K := by
  simp only [cc1__quant_matmul_kernel_eq_skeleton]; unfold cc1__quant_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The pipeline's proof data -/

/-- The proof data of the region's pipeline on core c. The arrays are as the region finds them. After the body at
    point t each input buffer holds its block, untouched, and the output buffer holds stored of the four input
    blocks. The invariant is the library's for bodies of this kind (everything the body does not name stays put);
    every share is whole; nothing is owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => stored (blk V c 0 t) (blk V c 1 t) (blk V c 2 t) (blk V c 3 t)
  Φ _ := Pipeline.ΦA spec1 c
  q _ := fullShare
  owed _ := 0

/-- The proof data's arrays are the contents at the region's entry. -/
theorem dat_A (c : Dev nD) (w : Fin cfg1.W) : (dat V c).A w = V c (Pipeline.arrRef spec1 w) := by
  dsimp only [dat]

/-- What the body leaves, window by window. -/
theorem dat_after_x (c : Dev nD) (t : Fin cfg1.N) : (dat V c).after 0 t = blk V c 0 t := by dsimp only [dat]
theorem dat_after_scale (c : Dev nD) (t : Fin cfg1.N) : (dat V c).after 1 t = blk V c 1 t := by dsimp only [dat]
theorem dat_after_step (c : Dev nD) (t : Fin cfg1.N) : (dat V c).after 2 t = blk V c 2 t := by dsimp only [dat]
theorem dat_after_weight (c : Dev nD) (t : Fin cfg1.N) : (dat V c).after 3 t = blk V c 3 t := by dsimp only [dat]
theorem dat_after_out (c : Dev nD) (t : Fin cfg1.N) :
    (dat V c).after 4 t = stored (blk V c 0 t) (blk V c 1 t) (blk V c 2 t) (blk V c 3 t) := by dsimp only [dat]

/-- So the output window after the body at point t is the payload of the four input blocks at t. -/
theorem dat_after_out_eq (c : Dev nD) (t : Fin cfg1.N) :
    (dat V c).after 4 t = k1_pay1 (blk V c 0 t) (blk V c 1 t) (blk V c 2 t) (blk V c 3 t) :=
  (dat_after_out V c t).trans (stored_eq _ _ _ _)

/-- Each input buffer holds its block when the body is called, at every point. -/
theorem before_x (c : Dev nD) (t : Fin cfg1.N) (d) : (dat V c).before 0 t d = blk V c 0 t :=
  before_x_of V (dat V c) (dat_A V c 0) (dat_after_x V c) t d
theorem before_scale (c : Dev nD) (t : Fin cfg1.N) (d) : (dat V c).before 1 t d = blk V c 1 t :=
  before_scale_of V (dat V c) (dat_A V c 1) (dat_after_scale V c) t d
theorem before_step (c : Dev nD) (t : Fin cfg1.N) (d) : (dat V c).before 2 t d = blk V c 2 t :=
  before_step_of V (dat V c) (dat_A V c 2) (dat_after_step V c) t d
theorem before_weight (c : Dev nD) (t : Fin cfg1.N) (d) : (dat V c).before 3 t d = blk V c 3 t :=
  before_weight_of V (dat V c) (dat_A V c 3) (dat_after_weight V c) t d

/-! ## The obligation at a grid point -/

/-- What the pipeline hands the body at point t: the invariant, what is owed, and each window's current buffer at
    what the proof data says it holds before the body. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What it must hand back: the same, each buffer at what the proof data says the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at point t takes the one to the other: the input buffers hold their blocks, so the body's triple
    applies; the invariant and what is owed do not depend on the point and pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_scale, before_step, before_weight]
  rw [show (dat V c).Φ t.succ = (dat V c).Φ t.castSucc from rfl,
    show (dat V c).owesAt () t.succ = (dat V c).owesAt () t.castSucc from rfl,
    dat_after_x, dat_after_scale, dat_after_step, dat_after_weight, dat_after_out]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline's soundness theorem asks of the body, at every grid point. -/
theorem body_obligation (c : Dev nD) :
    BodyObligation (dat (F := F) V c) (defs₀ (F := F)) Variants.none () Set.univ := fun t => by
  rw [bigSep_W1, bigSep_W1]
  exact sound_body V c t

end Cert.Kernel.QuantMul

end
-- ==== Proof.Bits.Run.lean ====
/-
  The kernel program as printed, run from start to end.

  @main is seventeen items: stretches of host operations and two kernel regions (the column maxima of |cols|, then the
  quantize-and-multiply). Between two items every unscoped buffer of a core holds a known valuation: the launch memory,
  then each stretch's operations applied in order, and after a region the region's arrays at what its write-backs
  leave. The run ends with every buffer at the last valuation; both arguments are never written.
-/
import proofs.«122551_j65360812311363_2_alg».proof.Proof.Gen.Kernel.Launch
import proofs.«122551_j65360812311363_2_alg».proof.Proof.Gen.Kernel.Skeleton
import proofs.«122551_j65360812311363_2_alg».proof.Proof.Gen.Kernel.Points
import proofs.«122551_j65360812311363_2_alg».proof.Proof.Gen.Kernel.Regions
import proofs.«122551_j65360812311363_2_alg».proof.Proof.Bits.ColMax
import proofs.«122551_j65360812311363_2_alg».proof.Proof.Bits.QuantMul
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every buffer holds between two items of @main -/

/-- Core `c`'s buffers when @main starts. -/
abbrev W0 : Dev nD → Valuation τ sig (Elt F) := fun c b => (s₀ m ρ).mem ((c : Dev nD), b)
/-- After the host operations `hostOps0`. -/
abbrev W1 : Dev nD → Valuation τ sig (Elt F) := fun c => StableHlo.after hostOps0 (W0 m ρ c)
/-- After the host operations `hostOps0_1`. -/
abbrev W2 : Dev nD → Valuation τ sig (Elt F) := fun c => StableHlo.after hostOps0_1 (W1 m ρ c)
/-- After the host operations `hostOps0_2`. -/
abbrev W3 : Dev nD → Valuation τ sig (Elt F) := fun c => StableHlo.after hostOps0_2 (W2 m ρ c)
/-- The buffers as the column-maximum region finds them, read at the TensorCore's references. -/
abbrev V3 : (c : Dev nD) → (b : Ref sig .tc) → Buf (Elt F) ((c : Thread nD τ).loc b) := fun c b => W3 m ρ c b
/-- After the column-maximum region: its two arrays at what its write-backs leave, every other buffer as entered. -/
def W4 (c : Dev nD) : Valuation τ sig (Elt F) :=
  Pipeline.withArrays spec0 c (W3 m ρ c) fun w => (ColMax.dat (V3 m ρ) c).arrAt w cfg0.N
theorem W4_arr (c : Dev nD) (w : Fin cfg0.W) :
    W4 m ρ c (Proc.devRef .tc (Pipeline.arrRef spec0 w)) = (ColMax.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem exit0_arr (c : Dev nD) (w : Fin cfg0.W) : (ColMax.dat (V3 m ρ) c).arrAt w cfg0.N = V4 m ρ c (Pipeline.arrRef spec0 w) :=
  (W4_arr m ρ c w).symm
theorem exit0_rest (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host operations `hostOps1`. -/
abbrev W5 : Dev nD → Valuation τ sig (Elt F) := fun c => StableHlo.after hostOps1 (W4 m ρ c)
/-- After the host operations `hostOps1_1`. -/
abbrev W6 : Dev nD → Valuation τ sig (Elt F) := fun c => StableHlo.after hostOps1_1 (W5 m ρ c)
/-- After the host operations `hostOps1_2`. -/
abbrev W7 : Dev nD → Valuation τ sig (Elt F) := fun c => StableHlo.after hostOps1_2 (W6 m ρ c)
/-- After the host operations `hostOps1_3`. -/
abbrev W8 : Dev nD → Valuation τ sig (Elt F) := fun c => StableHlo.after hostOps1_3 (W7 m ρ c)
/-- After the host operations `hostOps1_4`. -/
abbrev W9 : Dev nD → Valuation τ sig (Elt F) := fun c => StableHlo.after hostOps1_4 (W8 m ρ c)
/-- After the host operations `hostOps1_5`. -/
abbrev W10 : Dev nD → Valuation τ sig (Elt F) := fun c => StableHlo.after hostOps1_5 (W9 m ρ c)
/-- After the host operations `hostOps1_6`. -/
abbrev W11 : Dev nD → Valuation τ sig (Elt F) := fun c => StableHlo.after hostOps1_6 (W10 m ρ c)
/-- After the host operations `hostOps1_7`. -/
abbrev W12 : Dev nD → Valuation τ sig (Elt F) := fun c => StableHlo.after hostOps1_7 (W11 m ρ c)
/-- After the host operations `hostOps1_8`. -/
abbrev W13 : Dev nD → Valuation τ sig (Elt F) := fun c => StableHlo.after hostOps1_8 (W12 m ρ c)
/-- After the host operations `hostOps1_9`. -/
abbrev W14 : Dev nD → Valuation τ sig (Elt F) := fun c => StableHlo.after hostOps1_9 (W13 m ρ c)
/-- After the host operations `hostOps1_10`. -/
abbrev W15 : Dev nD → Valuation τ sig (Elt F) := fun c => StableHlo.after hostOps1_10 (W14 m ρ c)
/-- The buffers as the quantize-and-multiply region finds them, read at the TensorCore's references. -/
abbrev V15 : (c : Dev nD) → (b : Ref sig .tc) → Buf (Elt F) ((c : Thread nD τ).loc b) := fun c b => W15 m ρ c b
/-- After the quantize-and-multiply region: its arrays at what its write-backs leave, every other buffer as entered. -/
def W16 (c : Dev nD) : Valuation τ sig (Elt F) :=
  Pipeline.withArrays spec1 c (W15 m ρ c) fun w => (QuantMul.dat (V15 m ρ) c).arrAt w cfg1.N
theorem W16_arr (c : Dev nD) (w : Fin cfg1.W) :
    W16 m ρ c (Proc.devRef .tc (Pipeline.arrRef spec1 w)) = (QuantMul.dat (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
abbrev V16 : (c : Dev nD) → (b : Ref sig .tc) → Buf (Elt F) ((c : Thread nD τ).loc b) := fun c b => W16 m ρ c b
theorem exit1_arr (c : Dev nD) (w : Fin cfg1.W) : (QuantMul.dat (V15 m ρ) c).arrAt w cfg1.N = V16 m ρ c (Pipeline.arrRef spec1 w) :=
  (W16_arr m ρ c w).symm
theorem exit1_rest (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)
/-- After the host operations `hostOps2`. -/
abbrev W17 : Dev nD → Valuation τ sig (Elt F) := fun c => StableHlo.after hostOps2 (W16 m ρ c)

/-! ## The two arguments are never written -/

theorem W17_main_arg0 (c : Dev nD) : W17 m ρ c (Proc.devRef .tc main_arg0) = m ((c : Thread nD τ).loc main_arg0) :=
  calc W17 m ρ c (Proc.devRef .tc main_arg0)
    _ = W16 m ρ c (Proc.devRef .tc main_arg0) := StableHlo.after_of_writes_sub hostOps2 _ hostOps2_writes (by decide)
    _ = W15 m ρ c (Proc.devRef .tc main_arg0) := W16_of_ne m ρ c main_arg0 (by decide)
    _ = W14 m ρ c (Proc.devRef .tc main_arg0) := StableHlo.after_of_writes_sub hostOps1_10 _ hostOps1_10_writes (by decide)
    _ = W13 m ρ c (Proc.devRef .tc main_arg0) := StableHlo.after_of_writes_sub hostOps1_9 _ hostOps1_9_writes (by decide)
    _ = W12 m ρ c (Proc.devRef .tc main_arg0) := StableHlo.after_of_writes_sub hostOps1_8 _ hostOps1_8_writes (by decide)
    _ = W11 m ρ c (Proc.devRef .tc main_arg0) := StableHlo.after_of_writes_sub hostOps1_7 _ hostOps1_7_writes (by decide)
    _ = W10 m ρ c (Proc.devRef .tc main_arg0) := StableHlo.after_of_writes_sub hostOps1_6 _ hostOps1_6_writes (by decide)
    _ = W9 m ρ c (Proc.devRef .tc main_arg0) := StableHlo.after_of_writes_sub hostOps1_5 _ hostOps1_5_writes (by decide)
    _ = W8 m ρ c (Proc.devRef .tc main_arg0) := StableHlo.after_of_writes_sub hostOps1_4 _ hostOps1_4_writes (by decide)
    _ = W7 m ρ c (Proc.devRef .tc main_arg0) := StableHlo.after_of_writes_sub hostOps1_3 _ hostOps1_3_writes (by decide)
    _ = W6 m ρ c (Proc.devRef .tc main_arg0) := StableHlo.after_of_writes_sub hostOps1_2 _ hostOps1_2_writes (by decide)
    _ = W5 m ρ c (Proc.devRef .tc main_arg0) := StableHlo.after_of_writes_sub hostOps1_1 _ hostOps1_1_writes (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W17_main_arg1 (c : Dev nD) : W17 m ρ c (Proc.devRef .tc main_arg1) = m ((c : Thread nD τ).loc main_arg1) :=
  calc W17 m ρ c (Proc.devRef .tc main_arg1)
    _ = W16 m ρ c (Proc.devRef .tc main_arg1) := StableHlo.after_of_writes_sub hostOps2 _ hostOps2_writes (by decide)
    _ = W15 m ρ c (Proc.devRef .tc main_arg1) := W16_of_ne m ρ c main_arg1 (by decide)
    _ = W14 m ρ c (Proc.devRef .tc main_arg1) := StableHlo.after_of_writes_sub hostOps1_10 _ hostOps1_10_writes (by decide)
    _ = W13 m ρ c (Proc.devRef .tc main_arg1) := StableHlo.after_of_writes_sub hostOps1_9 _ hostOps1_9_writes (by decide)
    _ = W12 m ρ c (Proc.devRef .tc main_arg1) := StableHlo.after_of_writes_sub hostOps1_8 _ hostOps1_8_writes (by decide)
    _ = W11 m ρ c (Proc.devRef .tc main_arg1) := StableHlo.after_of_writes_sub hostOps1_7 _ hostOps1_7_writes (by decide)
    _ = W10 m ρ c (Proc.devRef .tc main_arg1) := StableHlo.after_of_writes_sub hostOps1_6 _ hostOps1_6_writes (by decide)
    _ = W9 m ρ c (Proc.devRef .tc main_arg1) := StableHlo.after_of_writes_sub hostOps1_5 _ hostOps1_5_writes (by decide)
    _ = W8 m ρ c (Proc.devRef .tc main_arg1) := StableHlo.after_of_writes_sub hostOps1_4 _ hostOps1_4_writes (by decide)
    _ = W7 m ρ c (Proc.devRef .tc main_arg1) := StableHlo.after_of_writes_sub hostOps1_3 _ hostOps1_3_writes (by decide)
    _ = W6 m ρ c (Proc.devRef .tc main_arg1) := StableHlo.after_of_writes_sub hostOps1_2 _ hostOps1_2_writes (by decide)
    _ = W5 m ρ c (Proc.devRef .tc main_arg1) := StableHlo.after_of_writes_sub hostOps1_1 _ hostOps1_1_writes (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-! ## The proof data of both pipelines, and what rides along -/

/-- Neither pipeline has a prefetched table. -/
abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => ColMax.dat (V3 m ρ) c
  | ⟨1, _⟩ => fun c => QuantMul.dat (V15 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at the final contents, the generator register at some state. -/
abbrev Tₙ (c : Dev nD) : sProp 𝕄 := iprop(StableHlo.held (c : Thread nD τ) (Pipeline.ucRefs τ sig) (W17 m ρ c) ∗ ∃ r, prngReg c r)

/-! ## The two kernel regions as segments -/

set_option backward.isDefEq.respectTransparency.types false in
/-- The column-maximum region: entered with every unscoped buffer at `W3`, left at `W4`. Its two arrays are split out of the unscoped buffers and put back at what the write-backs leave; the generator register goes through the invariant untouched; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (ColMax.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The quantize-and-multiply region: entered with every unscoped buffer at `W15`, left at `W16`, by the same protocol. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (QuantMul.body_obligation (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seventeen items -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .host (hseg hostOps1_3 hostOps1_3_sub hostOps1_3_fresh (W7 m ρ)),
    .host (hseg hostOps1_4 hostOps1_4_sub hostOps1_4_fresh (W8 m ρ)),
    .host (hseg hostOps1_5 hostOps1_5_sub hostOps1_5_fresh (W9 m ρ)),
    .host (hseg hostOps1_6 hostOps1_6_sub hostOps1_6_fresh (W10 m ρ)),
    .host (hseg hostOps1_7 hostOps1_7_sub hostOps1_7_fresh (W11 m ρ)),
    .host (hseg hostOps1_8 hostOps1_8_sub hostOps1_8_fresh (W12 m ρ)),
    .host (hseg hostOps1_9 hostOps1_9_sub hostOps1_9_fresh (W13 m ρ)),
    .host (hseg hostOps1_10 hostOps1_10_sub hostOps1_10_fresh (W14 m ρ)),
    .region (reg1 m ρ),
    .host (hseg hostOps2 hostOps2_sub hostOps2_fresh (W16 m ρ)) ]

theorem main_run (c : Dev nD) : main (F := F) c = Pipeline.Seg.run (segs m ρ) := (main_chain c).trans (by chain_rfl)

set_option backward.isDefEq.respectTransparency.types false in
/-- Every weakly fair execution of @main ends, nothing faults, and at the end every unscoped buffer of every core holds
    the last contents `W17`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
        show iprop(StableHlo.held (c : Thread nD τ) (Pipeline.ucRefs τ sig) (W17 m ρ c) ∗ R c) ⊢ _
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- The frame: the run ends and both arguments are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W17_main_arg0 m ρ c),
     (h c _ (mem_uc main_arg1 (by decide))).trans (W17_main_arg1 m ρ c)⟩) (run_all m ρ)

end Cert.Kernel.Run

end
-- ==== Proof.Ideal.ColMax.lean ====
/- Region 0 of the program: the per-column running maximum of |x| (the activation scale's numerator).

   The region is a pipeline over a 2 x 8 x 4 grid.  Its input window walks the blocks of the activation array;
   its output window is indexed by the leading coordinate alone, so one output block stays in place for the 32
   points that share that coordinate and is written back after the last of them.  The body has one conditional:
   at the first of those 32 points it fills the output block with -inf, and at every point it then replaces the
   output block by the elementwise maximum of the block and the row maxima of |input block|.

   This module states, for an arbitrary content V of the core's buffers at entry to the region and an arbitrary
   float model, what the output block holds after each point (defined by recursion on the point), packages it as
   the pipeline's proof data, and proves that the body meets the pipeline's obligation at every point. -/
import proofs.«122551_j65360812311363_2_alg».proof.Proof.Gen.KernelIdeal.Launch
import proofs.«122551_j65360812311363_2_alg».proof.Proof.Gen.KernelIdeal.Skeleton
import proofs.«122551_j65360812311363_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.ColMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditional of the body -/

/-- The guard of the body's one conditional, as a function of the grid coordinates: coordinates 1 and 2 are
    both zero. -/
abbrev atStart (i : grid0.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

/-- In the linear order of the 64 points the guard holds exactly at the multiples of 32: the first point of
    each value of the leading coordinate. -/
theorem atStart_iff : ∀ t : Fin cfg0.N, atStart (grid0.coords t) ↔ t.val % 32 = 0 :=
  (by decide +kernel : ∀ t : Fin grid0.N, atStart (grid0.coords t) ↔ t.val % 32 = 0)

/-! ## The staging memrefs the body is called with -/

/-- The input window's and the output window's staging memref at point `t`, with their wholeness. -/
abbrev inRef (t : Fin cfg0.N) : Memref sig .tc .vmem S1x576x4096 .f32 := win0_0.stage (cfg0.slots t 0)
abbrev inRef_whole (t : Fin cfg0.N) : (inRef t).IsWhole := hstage0_0 ((cfg0.slots t 0).cast nbuf0_0)
abbrev outRef (t : Fin cfg0.N) : Memref sig .tc .vmem S1x576x1 .f32 := win0_1.stage (cfg0.slots t 1)
abbrev outRef_whole (t : Fin cfg0.N) : (outRef t).IsWhole := hstage0_1 ((cfg0.slots t 1).cast nbuf0_1)

/-- A fixed whole view of the output block's shape, through which the contents of the output block are
    expressed (reading back a list of covering stores does not depend on which whole view is used). -/
abbrev outView : View sig .tc .vmem S1x576x1 .f32 := (Memref.whole cc0_stg1_0 : Memref sig .tc .vmem S1x576x1 .f32).view

/-! ## The body run once, in each of the two cases -/

set_option maxHeartbeats 1000000 in
/-- THE FIRST CASE (guard true).  On whole memrefs, the input's holding `x` and the output's holding anything,
    the body runs to a state where the input's memref still holds `x` and the output's memref holds some
    contents overwritten by a list of stores; the list (last store first) is the first component, found by
    running the body symbolically: the -inf fill, then the maximum of what was just filled in with the row
    maxima of `|x|`. -/
noncomputable def runStart (c : Dev nD) (i : grid0.Coords)
    (a : Memref sig .tc .vmem S1x576x4096 .f32) (ha : a.IsWhole) (o : Memref sig .tc .vmem S1x576x1 .f32) (ho : o.IsWhole)
    (hi : atStart i) (x : Vec F S1x576x4096 .f32) :
    { L : List (View.Piece (Elt F) S1x576x1 .f32) //
      ∀ (E : Set ℕ) (K : PUnit → sProp 𝕄),
        iprop(owns (c : Thread nD τ) a fullShare x ∗ (∃ d, owns (c : Thread nD τ) o fullShare d)
            ∗ (iprop(owns (c : Thread nD τ) a fullShare x ∗ (∃ f, o.view.loc (c : Thread nD τ) ↦[o.view.set]{fullShare} o.view.writes (Elt F) f L)) -∗ K ⟨⟩))
          ⊢ wp frame (wpE (defs₀ (F := F)) Variants.none c none) E (cc0__act_scale_kernel i a ha o ho) K } := by
  refine ⟨?_, fun E K => ?run⟩
  case run =>
    simp only [cc0__act_scale_kernel_eq_skeleton]; unfold cc0__act_scale_kernel_skel
    unfold owns
    iintro ⟨⟨%fa, %hfa, Ha⟩, ⟨%d, %fo, -, Ho⟩, Hk⟩
    obtain rfl := ha.eq_unread hfa
    sl_exec (disch := first | exact hi)
    sl_step
    iapply Hk
    isplitl [Ha]
    · iexists _; isplitr; · ipureintro; exact ha.read_unread _
      iexact Ha
    iexists _; iexact Ho

set_option maxHeartbeats 1000000 in
/-- THE LATER CASE (guard false).  As before, but the output's memref is known to hold `y` (what the previous
    point left), and the one store is the maximum of `y` with the row maxima of `|x|`. -/
noncomputable def runLater (c : Dev nD) (i : grid0.Coords)
    (a : Memref sig .tc .vmem S1x576x4096 .f32) (ha : a.IsWhole) (o : Memref sig .tc .vmem S1x576x1 .f32) (ho : o.IsWhole)
    (hi : ¬atStart i) (x : Vec F S1x576x4096 .f32) (y : Vec F S1x576x1 .f32) :
    { L : List (View.Piece (Elt F) S1x576x1 .f32) //
      ∀ (E : Set ℕ) (K : PUnit → sProp 𝕄),
        iprop(owns (c : Thread nD τ) a fullShare x ∗ owns (c : Thread nD τ) o fullShare y
            ∗ (iprop(owns (c : Thread nD τ) a fullShare x ∗ (∃ f, o.view.loc (c : Thread nD τ) ↦[o.view.set]{fullShare} o.view.writes (Elt F) f L)) -∗ K ⟨⟩))
          ⊢ wp frame (wpE (defs₀ (F := F)) Variants.none c none) E (cc0__act_scale_kernel i a ha o ho) K } := by
  refine ⟨?_, fun E K => ?run⟩
  case run =>
    simp only [cc0__act_scale_kernel_eq_skeleton]; unfold cc0__act_scale_kernel_skel
    unfold owns
    iintro ⟨⟨%fa, %hfa, Ha⟩, ⟨%fo, %hfo, Ho⟩, Hk⟩
    obtain rfl := ha.eq_unread hfa; obtain rfl := ho.eq_unread hfo
    sl_exec (disch := first | exact hi)
    sl_step
    iapply Hk
    isplitl [Ha]
    · iexists _; isplitr; · ipureintro; exact ha.read_unread _
      iexact Ha
    iexists _; iexact Ho

/-! ## What each case leaves in the output block -/

/-- In the first case the stores tile the output block, hence cover it. -/
theorem runStart_covers (c : Dev nD) (i : grid0.Coords)
    (a : Memref sig .tc .vmem S1x576x4096 .f32) (ha : a.IsWhole) (o : Memref sig .tc .vmem S1x576x1 .f32) (ho : o.IsWhole)
    (hi : atStart i) (x : Vec F S1x576x4096 .f32) (j : S1x576x1.Idx) :
    ∃ pc ∈ (runStart c i a ha o ho hi x).1, j ∈ pc.1.set :=
  View.cover_of_tiledL (runStart c i a ha o ho hi x).1 S1x576x1.size (by sl_kernel_rfl) j

/-- The output block after a point of the first case: the case's stores read back (over arbitrary contents). -/
def leftStart (c : Dev nD) (i : grid0.Coords)
    (a : Memref sig .tc .vmem S1x576x4096 .f32) (ha : a.IsWhole) (o : Memref sig .tc .vmem S1x576x1 .f32) (ho : o.IsWhole)
    (hi : atStart i) (x : Vec F S1x576x4096 .f32) : Vec F S1x576x1 .f32 :=
  outView.read (Elt F) (outView.writes (Elt F) outView.junk (runStart c i a ha o ho hi x).1)

/-- In the later case the one store covers the output block. -/
theorem runLater_covers (c : Dev nD) (i : grid0.Coords)
    (a : Memref sig .tc .vmem S1x576x4096 .f32) (ha : a.IsWhole) (o : Memref sig .tc .vmem S1x576x1 .f32) (ho : o.IsWhole)
    (hi : ¬atStart i) (x : Vec F S1x576x4096 .f32) (y : Vec F S1x576x1 .f32) (j : S1x576x1.Idx) :
    ∃ pc ∈ (runLater c i a ha o ho hi x y).1, j ∈ pc.1.set :=
  View.cover_of_tiledL (runLater c i a ha o ho hi x y).1 S1x576x1.size (by sl_kernel_rfl) j

/-- The output block after a point of the later case, given that it held `y` before. -/
def leftLater (c : Dev nD) (i : grid0.Coords)
    (a : Memref sig .tc .vmem S1x576x4096 .f32) (ha : a.IsWhole) (o : Memref sig .tc .vmem S1x576x1 .f32) (ho : o.IsWhole)
    (hi : ¬atStart i) (x : Vec F S1x576x4096 .f32) (y : Vec F S1x576x1 .f32) : Vec F S1x576x1 .f32 :=
  outView.read (Elt F) (outView.writes (Elt F) outView.junk (runLater c i a ha o ho hi x y).1)

/-! ## The two cases in closed form -/

/-- The origin of a rank-3 block, as the constant-zero offset function. -/
theorem origin3 : (![0, 0, 0] : Fin 3 → Nat) = fun _ => 0 := funext fun k => by fin_cases k <;> rfl

/-- The later case leaves the body's accumulation step applied to the input block and the previous contents: its
    one store is to the whole block, and its two loads read the whole of the two memrefs. -/
theorem leftLater_eq (c : Dev nD) (i : grid0.Coords)
    (a : Memref sig .tc .vmem S1x576x4096 .f32) (ha : a.IsWhole) (o : Memref sig .tc .vmem S1x576x1 .f32) (ho : o.IsWhole)
    (hi : ¬atStart i) (x : Vec F S1x576x4096 .f32) (y : Vec F S1x576x1 .f32) :
    leftLater c i a ha o ho hi x y = k0_pay2 x y := by
  unfold leftLater
  rw [View.read_writes_eq_canon _ _ _ (runLater_covers c i a ha o ho hi x y)]
  unfold runLater
  dsimp only
  rw [View.canon_unit_zero origin3]
  simp only [View.readAt_eq_ld, ha.read_unread, ho.read_unread, View.ld_unit_zero (S := S1x576x4096) origin3,
    View.ld_unit_zero (S := S1x576x1) origin3]

/-- The first case leaves the accumulation step applied to the input block and the -inf fill: the second store is
    to the whole block, and the load between the two stores reads back the fill. -/
theorem leftStart_eq (c : Dev nD) (i : grid0.Coords)
    (a : Memref sig .tc .vmem S1x576x4096 .f32) (ha : a.IsWhole) (o : Memref sig .tc .vmem S1x576x1 .f32) (ho : o.IsWhole)
    (hi : atStart i) (x : Vec F S1x576x4096 .f32) :
    leftStart c i a ha o ho hi x = k0_pay2 x (k0_pay1 (F := F)) := by
  unfold leftStart
  rw [View.read_writes_eq_canon _ _ _ (runStart_covers c i a ha o ho hi x)]
  unfold runStart
  dsimp only
  sl_unfold_words
  rw [View.canon_cons_unit_zero (S := S1x576x1) origin3, View.readCov_unit_zero (S := S1x576x1) _ origin3]
  simp only [View.readAt_eq_ld, ha.read_unread, View.ld_unit_zero (S := S1x576x4096) origin3]
section Region

-- the contents of the core's buffers when the region is entered
variable (V : (c : Dev nD) → (b : Ref sig .tc) → Buf (Elt F) ((c : Thread nD τ).loc b))

/-! ## The windows' blocks and the running maximum -/

/-- The block window `w` selects at point `t`, read from the window's array as it is at entry. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- For any proof data over `V` whose body leaves the input block in place, the input window's staging memref
    holds the point's block when the body is called: the window is fetched at every point, is never idle and is
    never cut at the array's edge. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- THE RUNNING MAXIMUM: what the output block holds after the body at the `n`-th point.  At a multiple of 32 the
    first case, from the point's input block alone; elsewhere the later case, from the point's input block and
    what the previous point left (the output block is not written back in between). -/
def colMaxAt (c : Dev nD) : (n : ℕ) → n < cfg0.N → Vec F S1x576x1 .f32
  | 0, hn => leftStart c (grid0.coords ⟨0, hn⟩) (inRef ⟨0, hn⟩) (inRef_whole ⟨0, hn⟩) (outRef ⟨0, hn⟩) (outRef_whole ⟨0, hn⟩)
      ((atStart_iff ⟨0, hn⟩).mpr (Nat.zero_mod _)) (blk V c 0 ⟨0, hn⟩)
  | n + 1, hn =>
    if h : (n + 1) % 32 = 0 then
      leftStart c (grid0.coords ⟨n + 1, hn⟩) (inRef ⟨n + 1, hn⟩) (inRef_whole ⟨n + 1, hn⟩) (outRef ⟨n + 1, hn⟩) (outRef_whole ⟨n + 1, hn⟩)
        ((atStart_iff ⟨n + 1, hn⟩).mpr h) (blk V c 0 ⟨n + 1, hn⟩)
    else
      leftLater c (grid0.coords ⟨n + 1, hn⟩) (inRef ⟨n + 1, hn⟩) (inRef_whole ⟨n + 1, hn⟩) (outRef ⟨n + 1, hn⟩) (outRef_whole ⟨n + 1, hn⟩)
        (fun g => h ((atStart_iff ⟨n + 1, hn⟩).mp g)) (blk V c 0 ⟨n + 1, hn⟩) (colMaxAt c n (Nat.lt_of_succ_lt hn))

/-- The recursion at a multiple of 32. -/
theorem colMaxAt_start (c : Dev nD) (t : Fin cfg0.N) (h : t.val % 32 = 0) :
    colMaxAt V c t.val t.isLt = leftStart c (grid0.coords t) (inRef t) (inRef_whole t) (outRef t) (outRef_whole t)
      ((atStart_iff t).mpr h) (blk V c 0 t) := by
  obtain ⟨n, hn⟩ := t
  cases n with
  | zero => exact rfl
  | succ n => exact (dif_pos h).trans rfl

/-- The recursion elsewhere. -/
theorem colMaxAt_later (c : Dev nD) (t : Fin cfg0.N) (h : ¬t.val % 32 = 0) :
    colMaxAt V c t.val t.isLt = leftLater c (grid0.coords t) (inRef t) (inRef_whole t) (outRef t) (outRef_whole t)
      (fun g => h ((atStart_iff t).mp g)) (blk V c 0 t)
      (colMaxAt V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The running maximum in closed form -/

/-- At a multiple of 32 the output block holds the accumulation step of the point's input block over the -inf
    fill. -/
theorem colMaxAt_start_eq (c : Dev nD) (t : Fin cfg0.N) (h : t.val % 32 = 0) :
    colMaxAt V c t.val t.isLt = k0_pay2 (blk V c 0 t) (k0_pay1 (F := F)) :=
  (colMaxAt_start V c t h).trans (leftStart_eq ..)

/-- Elsewhere it holds the accumulation step of the point's input block over what the previous point left. -/
theorem colMaxAt_later_eq (c : Dev nD) (t : Fin cfg0.N) (h : ¬t.val % 32 = 0) :
    colMaxAt V c t.val t.isLt
      = k0_pay2 (blk V c 0 t) (colMaxAt V c (t.val - 1) (Nat.lt_of_le_of_lt (Nat.sub_le _ _) t.isLt)) :=
  (colMaxAt_later V c t h).trans (leftLater_eq ..)
/-! ## The proof data -/

/-- The pipeline's proof data on core `c`: the arrays as found at entry; after the body at point `t` the input's
    staging memref holds the point's block and the output's holds the running maximum; the invariant carried
    through is the untouched remainder of the core's state; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => colMaxAt V c t.val t.isLt
  Φ _ := Pipeline.ΦA spec0 c
  q _ := fullShare
  owed _ := 0

theorem dat_A (c : Dev nD) (w : Fin cfg0.W) : (dat V c).A w = V c (Pipeline.arrRef spec0 w) := by
  dsimp only [dat]

theorem dat_after_in (c : Dev nD) (t : Fin cfg0.N) : (dat V c).after 0 t = blk V c 0 t := by dsimp only [dat]
theorem dat_after_out (c : Dev nD) (t : Fin cfg0.N) : (dat V c).after 1 t = colMaxAt V c t.val t.isLt := by dsimp only [dat]

/-- The same two equations, read off the proof data. -/
theorem dat_after_out_start (c : Dev nD) (t : Fin cfg0.N) (h : t.val % 32 = 0) :
    (dat V c).after 1 t = k0_pay2 (blk V c 0 t) (k0_pay1 (F := F)) :=
  (dat_after_out V c t).trans (colMaxAt_start_eq V c t h)

theorem dat_after_out_later (c : Dev nD) (t : Fin cfg0.N) (h : ¬t.val % 32 = 0) :
    (dat V c).after 1 t
      = k0_pay2 (blk V c 0 t) ((dat V c).after 1 ⟨t.val - 1, Nat.lt_of_le_of_lt (Nat.sub_le _ _) t.isLt⟩) :=
  (dat_after_out V c t).trans ((colMaxAt_later_eq V c t h).trans (by rw [dat_after_out]))

/-- When the body is called, the input's staging memref holds the point's block. -/
theorem dat_before_in (c : Dev nD) (t : Fin cfg0.N) (d) : (dat V c).before 0 t d = blk V c 0 t :=
  before_in_of V (dat V c) (dat_A V c 0) (dat_after_in V c) t d

/-- Away from the multiples of 32 the output's staging memref holds, when the body is called, what the previous
    point left: the output block was not written back after the previous point (that happens only after points
    congruent to 31), and the window is never idle and never cut. -/
theorem dat_before_out_later (c : Dev nD) (t : Fin cfg0.N) (h : ¬t.val % 32 = 0) (d) :
    (dat V c).before 1 t d = colMaxAt V c (t.val - 1) (Nat.lt_of_le_of_lt (Nat.sub_le _ _) t.isLt) := by
  have hN : t.val < 64 := lt_of_lt_of_eq t.isLt (show cfg0.N = 64 from N_0)
  rw [Dat.before_out_kept _ 1 rfl t (by omega) (Bool.eq_false_iff.mpr fun g => by have := (flush0_1 _).mp g; dsimp only at this; omega)
    (fun _ => rfl) (fun _ _ => rfl)]
  dsimp only [dat]

/-! ## The body obligation -/

/-- What the pipeline hands the body at point `t`: the invariant, the core's debt, and the two staging memrefs. -/
def bodyPre (c : Dev nD) (t : Fin cfg0.N) : sProp 𝕄 :=
  iprop((dat V c).Φ t.castSucc ∗ (dat V c).owesAt () t.castSucc
    ∗ (∃ d, owns (c : Thread nD τ) (inRef t) fullShare ((dat V c).before 0 t d))
    ∗ (∃ d, owns (c : Thread nD τ) (outRef t) fullShare ((dat V c).before 1 t d)))

/-- What the body must hand back. -/
def bodyPost (c : Dev nD) (t : Fin cfg0.N) : sProp 𝕄 :=
  iprop((dat V c).Φ t.succ ∗ (dat V c).owesAt () t.succ
    ∗ owns (c : Thread nD τ) (inRef t) fullShare ((dat V c).after 0 t)
    ∗ owns (c : Thread nD τ) (outRef t) fullShare ((dat V c).after 1 t))

set_option maxHeartbeats 800000 in
/-- The body at an arbitrary point.  The input's memref holds the point's block.  Either the point is a multiple
    of 32, the first case applies whatever the output's memref holds, and its stores read back are the running
    maximum there by definition; or it is not, the output's memref holds the running maximum of the previous
    point, and the later case applies.  The invariant and the debt are not touched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_in]
  rw [show (dat V c).Φ t.succ = (dat V c).Φ t.castSucc from rfl,
    show (dat V c).owesAt () t.succ = (dat V c).owesAt () t.castSucc from rfl,
    dat_after_in, dat_after_out]
  have hN : t.val < 64 := lt_of_lt_of_eq t.isLt (show cfg0.N = 64 from N_0)
  by_cases h : t.val % 32 = 0
  · rw [colMaxAt_start V c t h]
    unfold leftStart
    iintro ⟨HΦ, Hd, ⟨%d0, Hin⟩, ⟨%d1, Hout⟩⟩
    iapply ((runStart c (grid0.coords t) _ _ _ _ ((atStart_iff t).mpr h) (blk V c 0 t)).2 Set.univ _)
    isplitl [Hin]; · iexact Hin
    isplitl [Hout]; · iexists _; iexact Hout
    iintro ⟨Hin, ⟨%e, Hout⟩⟩
    isplitl [HΦ]; · iexact HΦ
    isplitl [Hd]; · iexact Hd
    isplitl [Hin]; · iexact Hin
    unfold owns; iexists _; isplitr
    swap; · iexact Hout
    ipureintro; exact View.read_writes_of_cover _ _ _ _ _ (runStart_covers c _ _ _ _ _ _ _)
  · rw [colMaxAt_later V c t h]
    simp only [dat_before_out_later V c t h]
    unfold leftLater
    iintro ⟨HΦ, Hd, ⟨%d0, Hin⟩, ⟨%d1, Hout⟩⟩
    iapply ((runLater c (grid0.coords t) _ _ _ _ (fun g => h ((atStart_iff t).mp g)) (blk V c 0 t) _).2 Set.univ _)
    isplitl [Hin]; · iexact Hin
    isplitl [Hout]; · iexact Hout
    iintro ⟨Hin, ⟨%e, Hout⟩⟩
    isplitl [HΦ]; · iexact HΦ
    isplitl [Hd]; · iexact Hd
    isplitl [Hin]; · iexact Hin
    unfold owns; iexists _; isplitr
    swap; · iexact Hout
    ipureintro; exact View.read_writes_of_cover _ _ _ _ _ (runLater_covers c _ _ _ _ _ _ _ _)

/-- The pipeline's body obligation for region 0, at every point. -/
theorem body_obligation (c : Dev nD) : BodyObligation (dat (F := F) V c) (defs₀ (F := F)) Variants.none () Set.univ := fun t => by
  rw [bigSep_W0, bigSep_W0]
  exact sound_body V c t

end Region

end Cert.KernelIdeal.ColMax

end
-- ==== Proof.Ideal.QuantMul.lean ====
/-
  The quantized-matmul region, one grid point at a time.

  The region's body reads four input blocks — the activation block, the per-row scale column, the single
  quantization step, the quantized weight — and overwrites its whole output block with one value computed from
  them. This file says, for the TensorCore's buffer contents V at the moment the region is entered:

  * what each window's block is at each grid point (blk);
  * what the output block holds once the body has run (stored): the one store's payload, laid over the block;
  * that the body, run on buffers holding the four input blocks and an output buffer holding anything, leaves the
    inputs as they were and the output at stored of them (sound_kernel);
  * that stored is simply the payload of the four blocks, every access being of a whole buffer (stored_eq);
  * the proof data of the region's pipeline (dat) and the obligation the pipeline's soundness theorem asks of the
    body at every grid point (body_obligation).

  Three of the inputs (scale, step, weight) have a block index that never moves, so the pipeline brings them in
  once, at the first point; their buffers hold the same block at every later point because the body never writes
  them. The activation block is brought in afresh at every point. Both cases are one lemma of the library.
-/
import proofs.«122551_j65360812311363_2_alg».proof.Proof.Gen.KernelIdeal.Launch
import proofs.«122551_j65360812311363_2_alg».proof.Proof.Gen.KernelIdeal.Skeleton
import proofs.«122551_j65360812311363_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by structural recursion on the
-- coordinates
set_option maxRecDepth 16384

noncomputable section

namespace Cert.KernelIdeal.QuantMul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks -/

/-- The block of window w at grid point t: the part of the window's array, as the region finds it, that the
    window's index map selects at t. -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

section Inputs
variable {c : Dev nD} (dat : Dat τ (Elt F) Unit ℕ (UR sig nD τ) ℕ cfg1 c)

/-- The activation window's buffer holds its block at every point: it is brought in at every point, and the body
    leaves it alone. Stated for any proof data over V's arrays whose body keeps the block. -/
theorem before_x_of (hA : dat.A 0 = V c (Pipeline.arrRef spec1 0)) (hafter : ∀ t, dat.after 0 t = blk V c 0 t)
    (t : Fin cfg1.N) (d) : dat.before 0 t d = blk V c 0 t :=
  (dat.before_in_eq_fetched 0 rfl (fun _ => rfl) (fun _ _ _ => rfl)
      (fun t => by rw [hafter]; unfold Dat.blockOf blk; rw [hA]; try rfl) t d).trans
    (by unfold Dat.fetched Dat.blockOf blk; rw [hA]; try rfl)

/-- The scale window's buffer holds its block at every point: brought in once, its index never moves, and the body
    leaves it alone, so what the first point put there is still there. -/
theorem before_scale_of (hA : dat.A 1 = V c (Pipeline.arrRef spec1 1)) (hafter : ∀ t, dat.after 1 t = blk V c 1 t)
    (t : Fin cfg1.N) (d) : dat.before 1 t d = blk V c 1 t :=
  (dat.before_in_eq_fetched 1 rfl (fun _ => rfl) (fun _ _ _ => rfl)
      (fun t => by rw [hafter]; unfold Dat.blockOf blk; rw [hA]; try rfl) t d).trans
    (by unfold Dat.fetched Dat.blockOf blk; rw [hA]; try rfl)

/-- The same of the quantization step. -/
theorem before_step_of (hA : dat.A 2 = V c (Pipeline.arrRef spec1 2)) (hafter : ∀ t, dat.after 2 t = blk V c 2 t)
    (t : Fin cfg1.N) (d) : dat.before 2 t d = blk V c 2 t :=
  (dat.before_in_eq_fetched 2 rfl (fun _ => rfl) (fun _ _ _ => rfl)
      (fun t => by rw [hafter]; unfold Dat.blockOf blk; rw [hA]; try rfl) t d).trans
    (by unfold Dat.fetched Dat.blockOf blk; rw [hA]; try rfl)

/-- The same of the quantized weight. -/
theorem before_weight_of (hA : dat.A 3 = V c (Pipeline.arrRef spec1 3)) (hafter : ∀ t, dat.after 3 t = blk V c 3 t)
    (t : Fin cfg1.N) (d) : dat.before 3 t d = blk V c 3 t :=
  (dat.before_in_eq_fetched 3 rfl (fun _ => rfl) (fun _ _ _ => rfl)
      (fun t => by rw [hafter]; unfold Dat.blockOf blk; rw [hA]; try rfl) t d).trans
    (by unfold Dat.fetched Dat.blockOf blk; rw [hA]; try rfl)

end Inputs

/-! ## The body's accesses: each buffer whole -/

abbrev rX : Rect S1x576x2048 := Rect.unit (s := S1x576x2048) ![0, 0, 0] S1x576x2048.size inb_S1x576x2048_S1x576x2048_0_0_0
abbrev rScale : Rect S576x1 := Rect.unit (s := S576x1) ![0, 0] S576x1.size inb_S576x1_S576x1_0_0
abbrev rStep : Rect S1x1 := Rect.unit (s := S1x1) ![0, 0] S1x1.size inb_S1x1_S1x1_0_0
abbrev rWeight : Rect S128x576 := Rect.unit (s := S128x576) ![0, 0] S128x576.size inb_S128x576_S128x576_0_0
abbrev rOut : Rect S1x128x2048 := Rect.unit (s := S1x128x2048) ![0, 0, 0] S1x128x2048.size inb_S1x128x2048_S1x128x2048_0_0_0

/-! ## What the body leaves in the output block -/

/-- The output block after the body, from the four input blocks: the body's one store, whose payload is computed
    from what the four whole-buffer loads read, laid over the block. -/
def stored (x0 : Vec F S1x576x2048 .f32) (x1 : Vec F S576x1 .f32) (x2 : Vec F S1x1 .f32) (x3 : Vec F S128x576 .bf16) :
    Vec F S1x128x2048 .f32 :=
  View.canon [⟨rOut, k1_pay1 (View.ld x0 rX) (View.ld x1 rScale) (View.ld x2 rStep) (View.ld x3 rWeight)⟩]

/-- The one store writes the whole block: its rectangle, starting at the origin with the block's extents, contains
    every index. -/
theorem stored_covers (p : Vec F S1x128x2048 .f32) (y : S1x128x2048.Idx) :
    ∃ pc ∈ ([⟨rOut, p⟩] : List (View.Piece (Elt F) S1x128x2048 .f32)), y ∈ pc.1.set :=
  View.cover_of_tiled [⟨rOut, p⟩] S1x128x2048.size (by rfl) y

/-! ## The output block is the payload -/

/-- Every access of the body starts at the origin of its buffer. -/
theorem origin2 : (![0, 0] : Fin 2 → Nat) = fun _ => 0 := funext fun a => by fin_cases a <;> rfl
theorem origin3 : (![0, 0, 0] : Fin 3 → Nat) = fun _ => 0 := funext fun a => by fin_cases a <;> rfl

/-- Each load reads a whole buffer and the store writes the whole output block, so what the body leaves there is
    the payload of the four input blocks themselves, index for index. -/
theorem stored_eq (x0 : Vec F S1x576x2048 .f32) (x1 : Vec F S576x1 .f32) (x2 : Vec F S1x1 .f32) (x3 : Vec F S128x576 .bf16) :
    stored x0 x1 x2 x3 = k1_pay1 x0 x1 x2 x3 := by
  unfold stored
  rw [View.canon_unit_zero (S := S1x128x2048) origin3]
  simp only [View.ld_unit_zero (S := S1x576x2048) origin3, View.ld_unit_zero (S := S576x1) origin2,
    View.ld_unit_zero (S := S1x1) origin2, View.ld_unit_zero (S := S128x576) origin2]

/-! ## The body's triple -/

set_option maxHeartbeats 1000000 in
/-- The body on whole buffers — the four inputs' holding x0 … x3, the output's holding anything — runs to a state
    with the inputs' as they were and the output's at stored x0 x1 x2 x3. The body is four loads of the inputs, a
    load of the output whose value nothing reads, and one store. -/
theorem sound_kernel (c : Dev nD) (E : Set ℕ) (i : grid1.Coords)
    (a0 : Memref sig .tc .vmem S1x576x2048 .f32) (h0 : a0.IsWhole) (a1 : Memref sig .tc .vmem S576x1 .f32) (h1 : a1.IsWhole)
    (a2 : Memref sig .tc .vmem S1x1 .f32) (h2 : a2.IsWhole) (a3 : Memref sig .tc .vmem S128x576 .bf16) (h3 : a3.IsWhole)
    (a4 : Memref sig .tc .vmem S1x128x2048 .f32) (h4 : a4.IsWhole)
    (x0 : Vec F S1x576x2048 .f32) (x1 : Vec F S576x1 .f32) (x2 : Vec F S1x1 .f32) (x3 : Vec F S128x576 .bf16)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (stored x0 x1 x2 x3)) -∗ K ⟨⟩))
      ⊢ wp frame (wpE (defs₀ (F := F)) Variants.none c none) E (cc1__quant_matmul_kernel i a0 h0 a1 h1 a2 h2 a3 h3 a4 h4) K := by
  simp only [cc1__quant_matmul_kernel_eq_skeleton]; unfold cc1__quant_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The pipeline's proof data -/

/-- The proof data of the region's pipeline on core c. The arrays are as the region finds them. After the body at
    point t each input buffer holds its block, untouched, and the output buffer holds stored of the four input
    blocks. The invariant is the library's for bodies of this kind (everything the body does not name stays put);
    every share is whole; nothing is owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => stored (blk V c 0 t) (blk V c 1 t) (blk V c 2 t) (blk V c 3 t)
  Φ _ := Pipeline.ΦA spec1 c
  q _ := fullShare
  owed _ := 0

/-- The proof data's arrays are the contents at the region's entry. -/
theorem dat_A (c : Dev nD) (w : Fin cfg1.W) : (dat V c).A w = V c (Pipeline.arrRef spec1 w) := by
  dsimp only [dat]

/-- What the body leaves, window by window. -/
theorem dat_after_x (c : Dev nD) (t : Fin cfg1.N) : (dat V c).after 0 t = blk V c 0 t := by dsimp only [dat]
theorem dat_after_scale (c : Dev nD) (t : Fin cfg1.N) : (dat V c).after 1 t = blk V c 1 t := by dsimp only [dat]
theorem dat_after_step (c : Dev nD) (t : Fin cfg1.N) : (dat V c).after 2 t = blk V c 2 t := by dsimp only [dat]
theorem dat_after_weight (c : Dev nD) (t : Fin cfg1.N) : (dat V c).after 3 t = blk V c 3 t := by dsimp only [dat]
theorem dat_after_out (c : Dev nD) (t : Fin cfg1.N) :
    (dat V c).after 4 t = stored (blk V c 0 t) (blk V c 1 t) (blk V c 2 t) (blk V c 3 t) := by dsimp only [dat]

/-- So the output window after the body at point t is the payload of the four input blocks at t. -/
theorem dat_after_out_eq (c : Dev nD) (t : Fin cfg1.N) :
    (dat V c).after 4 t = k1_pay1 (blk V c 0 t) (blk V c 1 t) (blk V c 2 t) (blk V c 3 t) :=
  (dat_after_out V c t).trans (stored_eq _ _ _ _)

/-- Each input buffer holds its block when the body is called, at every point. -/
theorem before_x (c : Dev nD) (t : Fin cfg1.N) (d) : (dat V c).before 0 t d = blk V c 0 t :=
  before_x_of V (dat V c) (dat_A V c 0) (dat_after_x V c) t d
theorem before_scale (c : Dev nD) (t : Fin cfg1.N) (d) : (dat V c).before 1 t d = blk V c 1 t :=
  before_scale_of V (dat V c) (dat_A V c 1) (dat_after_scale V c) t d
theorem before_step (c : Dev nD) (t : Fin cfg1.N) (d) : (dat V c).before 2 t d = blk V c 2 t :=
  before_step_of V (dat V c) (dat_A V c 2) (dat_after_step V c) t d
theorem before_weight (c : Dev nD) (t : Fin cfg1.N) (d) : (dat V c).before 3 t d = blk V c 3 t :=
  before_weight_of V (dat V c) (dat_A V c 3) (dat_after_weight V c) t d

/-! ## The obligation at a grid point -/

/-- What the pipeline hands the body at point t: the invariant, what is owed, and each window's current buffer at
    what the proof data says it holds before the body. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What it must hand back: the same, each buffer at what the proof data says the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at point t takes the one to the other: the input buffers hold their blocks, so the body's triple
    applies; the invariant and what is owed do not depend on the point and pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_scale, before_step, before_weight]
  rw [show (dat V c).Φ t.succ = (dat V c).Φ t.castSucc from rfl,
    show (dat V c).owesAt () t.succ = (dat V c).owesAt () t.castSucc from rfl,
    dat_after_x, dat_after_scale, dat_after_step, dat_after_weight, dat_after_out]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline's soundness theorem asks of the body, at every grid point. -/
theorem body_obligation (c : Dev nD) :
    BodyObligation (dat (F := F) V c) (defs₀ (F := F)) Variants.none () Set.univ := fun t => by
  rw [bigSep_W1, bigSep_W1]
  exact sound_body V c t

end Cert.KernelIdeal.QuantMul

end
-- ==== Proof.Ideal.Run.lean ====
/-
  The idealized kernel program, run from start to end.

  @main is seventeen items: stretches of host operations and two kernel regions (the column maxima of |cols|, then the
  quantize-and-multiply). Between two items every unscoped buffer of a core holds a known valuation: the launch memory,
  then each stretch's operations applied in order, and after a region the region's arrays at what its write-backs
  leave. The run ends with every buffer at the last valuation; both arguments are never written.
-/
import proofs.«122551_j65360812311363_2_alg».proof.Proof.Gen.KernelIdeal.Launch
import proofs.«122551_j65360812311363_2_alg».proof.Proof.Gen.KernelIdeal.Skeleton
import proofs.«122551_j65360812311363_2_alg».proof.Proof.Gen.KernelIdeal.Points
import proofs.«122551_j65360812311363_2_alg».proof.Proof.Gen.KernelIdeal.Regions
import proofs.«122551_j65360812311363_2_alg».proof.Proof.Ideal.ColMax
import proofs.«122551_j65360812311363_2_alg».proof.Proof.Ideal.QuantMul
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every buffer holds between two items of @main -/

/-- Core `c`'s buffers when @main starts. -/
abbrev W0 : Dev nD → Valuation τ sig (Elt F) := fun c b => (s₀ m ρ).mem ((c : Dev nD), b)
/-- After the host operations `hostOps0`. -/
abbrev W1 : Dev nD → Valuation τ sig (Elt F) := fun c => StableHlo.after hostOps0 (W0 m ρ c)
/-- After the host operations `hostOps0_1`. -/
abbrev W2 : Dev nD → Valuation τ sig (Elt F) := fun c => StableHlo.after hostOps0_1 (W1 m ρ c)
/-- After the host operations `hostOps0_2`. -/
abbrev W3 : Dev nD → Valuation τ sig (Elt F) := fun c => StableHlo.after hostOps0_2 (W2 m ρ c)
/-- The buffers as the column-maximum region finds them, read at the TensorCore's references. -/
abbrev V3 : (c : Dev nD) → (b : Ref sig .tc) → Buf (Elt F) ((c : Thread nD τ).loc b) := fun c b => W3 m ρ c b
/-- After the column-maximum region: its two arrays at what its write-backs leave, every other buffer as entered. -/
def W4 (c : Dev nD) : Valuation τ sig (Elt F) :=
  Pipeline.withArrays spec0 c (W3 m ρ c) fun w => (ColMax.dat (V3 m ρ) c).arrAt w cfg0.N
theorem W4_arr (c : Dev nD) (w : Fin cfg0.W) :
    W4 m ρ c (Proc.devRef .tc (Pipeline.arrRef spec0 w)) = (ColMax.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem exit0_arr (c : Dev nD) (w : Fin cfg0.W) : (ColMax.dat (V3 m ρ) c).arrAt w cfg0.N = V4 m ρ c (Pipeline.arrRef spec0 w) :=
  (W4_arr m ρ c w).symm
theorem exit0_rest (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host operations `hostOps1`. -/
abbrev W5 : Dev nD → Valuation τ sig (Elt F) := fun c => StableHlo.after hostOps1 (W4 m ρ c)
/-- After the host operations `hostOps1_1`. -/
abbrev W6 : Dev nD → Valuation τ sig (Elt F) := fun c => StableHlo.after hostOps1_1 (W5 m ρ c)
/-- After the host operations `hostOps1_2`. -/
abbrev W7 : Dev nD → Valuation τ sig (Elt F) := fun c => StableHlo.after hostOps1_2 (W6 m ρ c)
/-- After the host operations `hostOps1_3`. -/
abbrev W8 : Dev nD → Valuation τ sig (Elt F) := fun c => StableHlo.after hostOps1_3 (W7 m ρ c)
/-- After the host operations `hostOps1_4`. -/
abbrev W9 : Dev nD → Valuation τ sig (Elt F) := fun c => StableHlo.after hostOps1_4 (W8 m ρ c)
/-- After the host operations `hostOps1_5`. -/
abbrev W10 : Dev nD → Valuation τ sig (Elt F) := fun c => StableHlo.after hostOps1_5 (W9 m ρ c)
/-- After the host operations `hostOps1_6`. -/
abbrev W11 : Dev nD → Valuation τ sig (Elt F) := fun c => StableHlo.after hostOps1_6 (W10 m ρ c)
/-- After the host operations `hostOps1_7`. -/
abbrev W12 : Dev nD → Valuation τ sig (Elt F) := fun c => StableHlo.after hostOps1_7 (W11 m ρ c)
/-- After the host operations `hostOps1_8`. -/
abbrev W13 : Dev nD → Valuation τ sig (Elt F) := fun c => StableHlo.after hostOps1_8 (W12 m ρ c)
/-- After the host operations `hostOps1_9`. -/
abbrev W14 : Dev nD → Valuation τ sig (Elt F) := fun c => StableHlo.after hostOps1_9 (W13 m ρ c)
/-- After the host operations `hostOps1_10`. -/
abbrev W15 : Dev nD → Valuation τ sig (Elt F) := fun c => StableHlo.after hostOps1_10 (W14 m ρ c)
/-- The buffers as the quantize-and-multiply region finds them, read at the TensorCore's references. -/
abbrev V15 : (c : Dev nD) → (b : Ref sig .tc) → Buf (Elt F) ((c : Thread nD τ).loc b) := fun c b => W15 m ρ c b
/-- After the quantize-and-multiply region: its arrays at what its write-backs leave, every other buffer as entered. -/
def W16 (c : Dev nD) : Valuation τ sig (Elt F) :=
  Pipeline.withArrays spec1 c (W15 m ρ c) fun w => (QuantMul.dat (V15 m ρ) c).arrAt w cfg1.N
theorem W16_arr (c : Dev nD) (w : Fin cfg1.W) :
    W16 m ρ c (Proc.devRef .tc (Pipeline.arrRef spec1 w)) = (QuantMul.dat (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
abbrev V16 : (c : Dev nD) → (b : Ref sig .tc) → Buf (Elt F) ((c : Thread nD τ).loc b) := fun c b => W16 m ρ c b
theorem exit1_arr (c : Dev nD) (w : Fin cfg1.W) : (QuantMul.dat (V15 m ρ) c).arrAt w cfg1.N = V16 m ρ c (Pipeline.arrRef spec1 w) :=
  (W16_arr m ρ c w).symm
theorem exit1_rest (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)
/-- After the host operations `hostOps2`. -/
abbrev W17 : Dev nD → Valuation τ sig (Elt F) := fun c => StableHlo.after hostOps2 (W16 m ρ c)

/-! ## The two arguments are never written -/

theorem W17_main_arg0 (c : Dev nD) : W17 m ρ c (Proc.devRef .tc main_arg0) = m ((c : Thread nD τ).loc main_arg0) :=
  calc W17 m ρ c (Proc.devRef .tc main_arg0)
    _ = W16 m ρ c (Proc.devRef .tc main_arg0) := StableHlo.after_of_writes_sub hostOps2 _ hostOps2_writes (by decide)
    _ = W15 m ρ c (Proc.devRef .tc main_arg0) := W16_of_ne m ρ c main_arg0 (by decide)
    _ = W14 m ρ c (Proc.devRef .tc main_arg0) := StableHlo.after_of_writes_sub hostOps1_10 _ hostOps1_10_writes (by decide)
    _ = W13 m ρ c (Proc.devRef .tc main_arg0) := StableHlo.after_of_writes_sub hostOps1_9 _ hostOps1_9_writes (by decide)
    _ = W12 m ρ c (Proc.devRef .tc main_arg0) := StableHlo.after_of_writes_sub hostOps1_8 _ hostOps1_8_writes (by decide)
    _ = W11 m ρ c (Proc.devRef .tc main_arg0) := StableHlo.after_of_writes_sub hostOps1_7 _ hostOps1_7_writes (by decide)
    _ = W10 m ρ c (Proc.devRef .tc main_arg0) := StableHlo.after_of_writes_sub hostOps1_6 _ hostOps1_6_writes (by decide)
    _ = W9 m ρ c (Proc.devRef .tc main_arg0) := StableHlo.after_of_writes_sub hostOps1_5 _ hostOps1_5_writes (by decide)
    _ = W8 m ρ c (Proc.devRef .tc main_arg0) := StableHlo.after_of_writes_sub hostOps1_4 _ hostOps1_4_writes (by decide)
    _ = W7 m ρ c (Proc.devRef .tc main_arg0) := StableHlo.after_of_writes_sub hostOps1_3 _ hostOps1_3_writes (by decide)
    _ = W6 m ρ c (Proc.devRef .tc main_arg0) := StableHlo.after_of_writes_sub hostOps1_2 _ hostOps1_2_writes (by decide)
    _ = W5 m ρ c (Proc.devRef .tc main_arg0) := StableHlo.after_of_writes_sub hostOps1_1 _ hostOps1_1_writes (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W17_main_arg1 (c : Dev nD) : W17 m ρ c (Proc.devRef .tc main_arg1) = m ((c : Thread nD τ).loc main_arg1) :=
  calc W17 m ρ c (Proc.devRef .tc main_arg1)
    _ = W16 m ρ c (Proc.devRef .tc main_arg1) := StableHlo.after_of_writes_sub hostOps2 _ hostOps2_writes (by decide)
    _ = W15 m ρ c (Proc.devRef .tc main_arg1) := W16_of_ne m ρ c main_arg1 (by decide)
    _ = W14 m ρ c (Proc.devRef .tc main_arg1) := StableHlo.after_of_writes_sub hostOps1_10 _ hostOps1_10_writes (by decide)
    _ = W13 m ρ c (Proc.devRef .tc main_arg1) := StableHlo.after_of_writes_sub hostOps1_9 _ hostOps1_9_writes (by decide)
    _ = W12 m ρ c (Proc.devRef .tc main_arg1) := StableHlo.after_of_writes_sub hostOps1_8 _ hostOps1_8_writes (by decide)
    _ = W11 m ρ c (Proc.devRef .tc main_arg1) := StableHlo.after_of_writes_sub hostOps1_7 _ hostOps1_7_writes (by decide)
    _ = W10 m ρ c (Proc.devRef .tc main_arg1) := StableHlo.after_of_writes_sub hostOps1_6 _ hostOps1_6_writes (by decide)
    _ = W9 m ρ c (Proc.devRef .tc main_arg1) := StableHlo.after_of_writes_sub hostOps1_5 _ hostOps1_5_writes (by decide)
    _ = W8 m ρ c (Proc.devRef .tc main_arg1) := StableHlo.after_of_writes_sub hostOps1_4 _ hostOps1_4_writes (by decide)
    _ = W7 m ρ c (Proc.devRef .tc main_arg1) := StableHlo.after_of_writes_sub hostOps1_3 _ hostOps1_3_writes (by decide)
    _ = W6 m ρ c (Proc.devRef .tc main_arg1) := StableHlo.after_of_writes_sub hostOps1_2 _ hostOps1_2_writes (by decide)
    _ = W5 m ρ c (Proc.devRef .tc main_arg1) := StableHlo.after_of_writes_sub hostOps1_1 _ hostOps1_1_writes (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-! ## The proof data of both pipelines, and what rides along -/

/-- Neither pipeline has a prefetched table. -/
abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => ColMax.dat (V3 m ρ) c
  | ⟨1, _⟩ => fun c => QuantMul.dat (V15 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at the final contents, the generator register at some state. -/
abbrev Tₙ (c : Dev nD) : sProp 𝕄 := iprop(StableHlo.held (c : Thread nD τ) (Pipeline.ucRefs τ sig) (W17 m ρ c) ∗ ∃ r, prngReg c r)

/-! ## The two kernel regions as segments -/

set_option backward.isDefEq.respectTransparency.types false in
/-- The column-maximum region: entered with every unscoped buffer at `W3`, left at `W4`. Its two arrays are split out of the unscoped buffers and put back at what the write-backs leave; the generator register goes through the invariant untouched; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (ColMax.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The quantize-and-multiply region: entered with every unscoped buffer at `W15`, left at `W16`, by the same protocol. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (QuantMul.body_obligation (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seventeen items -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .host (hseg hostOps1_3 hostOps1_3_sub hostOps1_3_fresh (W7 m ρ)),
    .host (hseg hostOps1_4 hostOps1_4_sub hostOps1_4_fresh (W8 m ρ)),
    .host (hseg hostOps1_5 hostOps1_5_sub hostOps1_5_fresh (W9 m ρ)),
    .host (hseg hostOps1_6 hostOps1_6_sub hostOps1_6_fresh (W10 m ρ)),
    .host (hseg hostOps1_7 hostOps1_7_sub hostOps1_7_fresh (W11 m ρ)),
    .host (hseg hostOps1_8 hostOps1_8_sub hostOps1_8_fresh (W12 m ρ)),
    .host (hseg hostOps1_9 hostOps1_9_sub hostOps1_9_fresh (W13 m ρ)),
    .host (hseg hostOps1_10 hostOps1_10_sub hostOps1_10_fresh (W14 m ρ)),
    .region (reg1 m ρ),
    .host (hseg hostOps2 hostOps2_sub hostOps2_fresh (W16 m ρ)) ]

theorem main_run (c : Dev nD) : main (F := F) c = Pipeline.Seg.run (segs m ρ) := (main_chain c).trans (by chain_rfl)

set_option backward.isDefEq.respectTransparency.types false in
/-- Every weakly fair execution of @main ends, nothing faults, and at the end every unscoped buffer of every core holds
    the last contents `W17`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
        show iprop(StableHlo.held (c : Thread nD τ) (Pipeline.ucRefs τ sig) (W17 m ρ c) ∗ R c) ⊢ _
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- The frame: the run ends and both arguments are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W17_main_arg0 m ρ c),
     (h c _ (mem_uc main_arg1 (by decide))).trans (W17_main_arg1 m ρ c)⟩) (run_all m ρ)

end Cert.KernelIdeal.Run

end
-- ==== Proof.RefFrame.lean ====
/-
  The reference program is a straight line of host operations: it runs to the end without a fault
  and never writes its argument arrays. Its run, with the result named, is the run over its list of
  operations; the frame drops the result.
-/
import proofs.«122551_j65360812311363_2_alg».proof.Defs
import proofs.«122551_j65360812311363_2_alg».proof.Proof.Gen.ReferenceIdeal
import proofs.«122551_j65360812311363_2_alg».proof.Proof.RefRunP
import proofs.«122551_j65360812311363_2_alg».proof.Proof.Gen.Pre_finite_inputs

noncomputable section

open Idealize.ShloMosaic Idealize.SL.Sem

namespace Cert.Proof.RefFrame

/-- Every weakly fair execution of the reference ends, faults nowhere, and leaves both arguments as they were. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.ValueP.run (F := Ideal) m ρ)

end Cert.Proof.RefFrame

end
-- ==== Proof.RefRunEq.lean ====
/-
  The reference's run, read operation by operation: the composed term its run ends with is the last stage of the
  operation-by-operation reading, at the two arguments' launch contents.
-/
import proofs.«122551_j65360812311363_2_alg».proof.Proof.RefRunP
import proofs.«122551_j65360812311363_2_alg».proof.Proof.RefReadP

noncomputable section

namespace Cert.RefRunEq

open Cert.ReferenceIdeal Cert.ReferenceIdeal.Gen Idealize.ShloMosaic Idealize.ShloMosaic.TcCoe Idealize.SL.Sem Idealize.ShloMosaic.StableHlo

variable {F : FTy → Type} [FloatOps F]

theorem res_eq (m : (ℓ : Loc nD τ sig) → Buf (Elt F) ℓ) (c : Dev nD) :
    Cert.ReferenceIdeal.ValueP.res_main_v71 m c
      = Cert.ReferenceIdeal.ReadP.val_main_v71 (F := F) (m ((c.tc : Thread nD τ).loc main_arg0)) (m ((c.tc : Thread nD τ).loc main_arg1)) := by
  unfold Cert.ReferenceIdeal.ValueP.res_main_v71; rfl

end Cert.RefRunEq

end
-- ==== Proof.Ideal.ColMaxValue.lean ====
/- Region 0 of the program, read as a value at the ideal floats: after the region, entry (core, k, 0) of its
   output array is the supremum, in the extended reals, of |X| over the 8 x 16384 entries (core * 8 + b, k, q) of
   the input array X.

   The road.  (1) The body's accumulation step at an index: the maximum of the accumulator's entry and of |x|
   over the 4096 lanes of the row; the fill is the bottom element.  (2) Hence an upper bound of the output block
   after a point is exactly an upper bound of |x| over all lanes of all points since the last multiple of 32 (by
   induction on the point).  (3) Point t reads rows (t / 4, ., (t % 4) * 4096 + lane) of X, and the output block
   is written back to row t / 32 of the output array after the points congruent to 31 modulo 32.  Two extended
   reals with the same upper bounds are equal. -/
import proofs.«122551_j65360812311363_2_alg».proof.Proof.Ideal.ColMax
import Idealize.ShloMosaic.PureOps.Ideal.Laws
import Idealize.ShloMosaic.Lib.Pipeline.Value
import Idealize.ShloMosaic.Lib.ValueIdx

set_option maxRecDepth 16384

noncomputable section

namespace Cert.KernelIdeal.ColMaxValue

open Cert.KernelIdeal Cert.KernelIdeal.Gen Cert.KernelIdeal.ColMax
open Idealize.ShloMosaic Idealize.ShloMosaic.TcCoe Idealize.ShloMosaic.ValueIdx
open Idealize.ShloMosaic.Pipeline (Dat)

/-! ## The accumulation step at an index -/

section Casts
variable {α : Type}

/-- The body's reshapes between [1,576,1], [576,1], [576] and between [1,576,4096], [576,4096] keep the row and
    the lane. -/
theorem cast_321 (y : S1x576x1.Idx → α) (h : S1x576x1.ShapeCasts S576x1) (k : Fin 576) :
    shapeCast S576x1 y h (ix2 k 0) = y (ix3 0 k 0) :=
  shapeCast_apply y h (ix2 k 0) (ix3 0 k 0) (by rw [Shape.rowMajor_val_three, Shape.rowMajor_val_two]; show (0 * 576 + k.val) * 1 + 0 = k.val * 1 + 0; omega)

theorem cast_12 (v : S576.Idx → α) (h : S576.ShapeCasts S576x1) (k : Fin 576) :
    shapeCast S576x1 v h (ix2 k 0) = v (ix1 k) :=
  shapeCast_apply v h (ix2 k 0) (ix1 k) (by rw [Shape.rowMajor_val_one, Shape.rowMajor_val_two]; show k.val = k.val * 1 + 0; omega)

theorem cast_23 (w : S576x1.Idx → α) (h : S576x1.ShapeCasts S1x576x1) (k : Fin 576) :
    shapeCast S1x576x1 w h (ix3 0 k 0) = w (ix2 k 0) :=
  shapeCast_apply w h (ix3 0 k 0) (ix2 k 0) (by rw [Shape.rowMajor_val_three, Shape.rowMajor_val_two]; show k.val * 1 + 0 = (0 * 576 + k.val) * 1 + 0; omega)

theorem cast_32 (x : S1x576x4096.Idx → α) (h : S1x576x4096.ShapeCasts S576x4096) (k : Fin 576) (l : Fin 4096) :
    shapeCast S576x4096 x h (ix2 k l) = x (ix3 0 k l) :=
  shapeCast_apply x h (ix2 k l) (ix3 0 k l) (by rw [Shape.rowMajor_val_three, Shape.rowMajor_val_two]; show (0 * 576 + k.val) * 4096 + l.val = k.val * 4096 + l.val; omega)

end Casts

/-- The accumulator's start, the f32 pattern of minus infinity, is the bottom of the extended reals. -/
theorem neg_inf : FloatOps.ofBits (F := Ideal) .f32 0xFF800000#32 = (⊥ : EReal) := by
  simp [Ideal.ofBits, Ideal.ieee]

/-- Inserting lane `l` on the reduced axis over row `k` gives the index (k, l). -/
theorem lift_eq (h : S576x4096.Reduces [1] S576) (k : Fin 576) (l : Fin (S576x4096.size 1)) :
    h.lift (ix1 k) l = (ix2 k l : S576x4096.Idx) := by
  funext a
  apply Fin.ext
  show h.liftVal (ix1 k) l.val a = _
  unfold Shape.Reduces.liftVal
  match a with
  | ⟨0, _⟩ => rfl
  | ⟨1, _⟩ => rfl

/-- The row maximum from minus infinity, at row `k`: the fold of `max` from bottom over the row's 4096 lanes. -/
theorem rowmax_apply (src : FVec Ideal S576x4096 .f32) (h : S576x4096.Reduces [1] S576) (hφ : FKind.Formats .f32)
    (hacc : (0xFF800000#32 : BitVec 32) = FKind.maximumf.neutral .f32 hφ) (k : Fin 576) :
    Idealize.ShloMosaic.multiReduction .maximumf [1] S576 src 0xFF800000#32 h hφ hacc (ix1 k)
      = (Finset.univ : Finset (Fin 4096)).fold max (⊥ : EReal) fun l => src (ix2 k l) := by
  rw [Ideal.multiReduction_maximumf_single src _ h hφ hacc (ix1 k), neg_inf]
  exact congrArg (fun f : Fin 4096 → EReal => Finset.fold max (⊥ : EReal) f Finset.univ) (funext fun l => congrArg src (lift_eq h k l))

theorem vmax_apply {s : Shape} (a b : FVec Ideal s .f32) (i : s.Idx) : maximumf a b i = max (a i) (b i) := rfl
theorem vabs_apply {s : Shape} (a : FVec Ideal s .f32) (i : s.Idx) : absf a i = max (a i) (-(a i)) := rfl

/-- The fill is bottom everywhere. -/
theorem pay1_apply (j : S1x576x1.Idx) : k0_pay1 (F := Ideal) j = (⊥ : EReal) := by
  unfold k0_pay1 shapeCast broadcast
  exact neg_inf

/-- |x| at lane `l` of row `k` of an input block. -/
def laneAbs (x : Vec Ideal S1x576x4096 .f32) (k : Fin 576) (l : Fin 4096) : EReal :=
  max (x (ix3 0 k l)) (-(x (ix3 0 k l)))

/-- The accumulation step at (0, k, 0): the accumulator's entry, or the largest |x| of the row if larger. -/
theorem pay2_apply (x : Vec Ideal S1x576x4096 .f32) (y : Vec Ideal S1x576x1 .f32) (k : Fin 576) :
    k0_pay2 (F := Ideal) x y (ix3 0 k 0)
      = max (y (ix3 0 k 0)) ((Finset.univ : Finset (Fin 4096)).fold max (⊥ : EReal) (laneAbs x k)) := by
  unfold k0_pay2
  rw [cast_23, vmax_apply, cast_321, cast_12]
  refine congrArg (max (y (ix3 0 k 0))) ((rowmax_apply _ _ _ _ k).trans ?_)
  refine congrArg (fun f : Fin 4096 → EReal => Finset.fold max (⊥ : EReal) f Finset.univ) (funext fun l => ?_)
  rw [vabs_apply, cast_32]
  rfl

/-- Its upper bounds: those of the accumulator's entry and of every lane. -/
theorem pay2_le_iff (x : Vec Ideal S1x576x4096 .f32) (y : Vec Ideal S1x576x1 .f32) (k : Fin 576) (u : EReal) :
    k0_pay2 (F := Ideal) x y (ix3 0 k 0) ≤ u ↔ y (ix3 0 k 0) ≤ u ∧ ∀ l : Fin 4096, laneAbs x k l ≤ u := by
  rw [pay2_apply, max_le_iff, Finset.fold_max_le]
  constructor
  · rintro ⟨h1, -, h2⟩; exact ⟨h1, fun l => h2 l (Finset.mem_univ l)⟩
  · rintro ⟨h1, h2⟩; exact ⟨h1, bot_le, fun l _ => h2 l⟩

section Region

-- the contents of the core's buffers when the region is entered
variable (V : (c : Dev nD) → (b : Ref sig .tc) → Buf (Elt Ideal) ((c : Thread nD τ).loc b))

/-! ## The output block after a point: its upper bounds -/

/-- An upper bound of entry (0, k, 0) of the output block after point `n` is an upper bound of |x| at every lane
    of row `k` of the input block of every point from the last multiple of 32 up to `n`.  By induction on `n`: at
    a multiple of 32 the block restarts from bottom; elsewhere the previous point's entry is one more term. -/
theorem colMaxAt_le_iff (c : Dev nD) (k : Fin 576) (u : EReal) : ∀ (n : ℕ) (hn : n < cfg0.N),
    colMaxAt (F := Ideal) V c n hn (ix3 0 k 0) ≤ u ↔
      ∀ (s : ℕ) (hs : s < cfg0.N), n / 32 * 32 ≤ s → s ≤ n → ∀ l : Fin 4096, laneAbs (blk V c 0 ⟨s, hs⟩) k l ≤ u
  | 0, hn => by
    have e : colMaxAt (F := Ideal) V c 0 hn = k0_pay2 (blk V c 0 ⟨0, hn⟩) (k0_pay1 (F := Ideal)) :=
      colMaxAt_start_eq V c ⟨0, hn⟩ rfl
    rw [e, pay2_le_iff, pay1_apply]
    constructor
    · rintro ⟨-, h2⟩ s hs h1 h3 l
      obtain rfl : s = 0 := by omega
      exact h2 l
    · intro H
      exact ⟨bot_le, fun l => H 0 hn (by omega) le_rfl l⟩
  | n + 1, hn => by
    by_cases h : (n + 1) % 32 = 0
    · have e : colMaxAt (F := Ideal) V c (n + 1) hn = k0_pay2 (blk V c 0 ⟨n + 1, hn⟩) (k0_pay1 (F := Ideal)) :=
        colMaxAt_start_eq V c ⟨n + 1, hn⟩ h
      rw [e, pay2_le_iff, pay1_apply]
      constructor
      · rintro ⟨-, h2⟩ s hs h1 h3 l
        obtain rfl : s = n + 1 := by omega
        exact h2 l
      · intro H
        exact ⟨bot_le, fun l => H (n + 1) hn (by omega) le_rfl l⟩
    · have e : colMaxAt (F := Ideal) V c (n + 1) hn
          = k0_pay2 (blk V c 0 ⟨n + 1, hn⟩) (colMaxAt (F := Ideal) V c n (Nat.lt_of_succ_lt hn)) :=
        colMaxAt_later_eq V c ⟨n + 1, hn⟩ h
      rw [e, pay2_le_iff, colMaxAt_le_iff c k u n (Nat.lt_of_succ_lt hn)]
      have hq : (n + 1) / 32 = n / 32 := by omega
      constructor
      · rintro ⟨h1, h2⟩ s hs h3 h4 l
        rcases Nat.lt_or_ge s (n + 1) with h5 | h5
        · exact h1 s hs (by omega) (by omega) l
        · obtain rfl : s = n + 1 := by omega
          exact h2 l
      · intro H
        exact ⟨fun s hs h3 h4 l => H s hs (by omega) (by omega) l, fun l => H (n + 1) hn (by omega) le_rfl l⟩

/-! ## The input blocks as entries of the input array -/

/-- Point `t` of the grid reads block (t / 4, 0, t % 4) of the input array, -/
theorem index_in : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)

/-- and writes block (t / 32, 0, 0) of the output array. -/
theorem index_out : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)

/-- The input array as the region finds it. -/
abbrev inArr (c : Dev nD) : Vec Ideal S16x576x16384 .f32 := V c (Pipeline.arrRef spec0 0)

/-- Entry (0, k, l) of the input block at point `t` is entry (t / 4, k, (t % 4) * 4096 + l) of the input array. -/
theorem blk_in_apply (c : Dev nD) (t : Fin cfg0.N) (k : Fin 576) (l : Fin 4096) (r : Fin 16) (q : Fin 16384)
    (hr : r.val = t.val / 4) (hq : q.val = t.val % 4 * 4096 + l.val) :
    (blk V c 0 t : Vec Ideal S1x576x4096 .f32) (ix3 0 k l) = inArr V c (ix3 r k q) := by
  unfold blk
  rw [View.read_apply]
  show V c main_v20 _ = V c main_v20 _
  congr 1
  funext a
  apply Fin.ext
  match a with
  | ⟨0, _⟩ => show win0_0.index t 0 * 1 + 1 * 0 = r.val; rw [(index_in t).1]; omega
  | ⟨1, _⟩ => show win0_0.index t 1 * 576 + 1 * k.val = k.val; rw [(index_in t).2.1]; omega
  | ⟨2, _⟩ => show win0_0.index t 2 * 4096 + 1 * l.val = q.val; rw [(index_in t).2.2]; omega

/-! ## The output array after the region -/

/-- The last of the 32 points that share the leading coordinate `core`. -/
def lastPt (core : Fin 2) : Fin cfg0.N :=
  ⟨32 * core.val + 31, by rw [show cfg0.N = 64 from N_0]; have := core.isLt; omega⟩

/-- The output array the region leaves: row `core` is the output block after the last point of that row's run. -/
def outArr (c : Dev nD) : Vec Ideal S2x576x1 .f32 :=
  fun i => colMaxAt (F := Ideal) V c (lastPt (i 0)).val (lastPt (i 0)).isLt (ix3 0 (i 1) 0)

/-- What a point congruent to 31 modulo 32 writes back is its row of `outArr`: the point is the last of its row's
    run, the output window is never cut, and its block sits at row t / 32 of the output array. -/
theorem flushed_eq (c : Dev nD) (t : Fin cfg0.N) (hf : (cfg0.win 1).flush t = true) :
    (dat (F := Ideal) V c).flushed 1 t = ((cfg0.win 1).blk t).view.read (Elt Ideal) (outArr V c) := by
  have h31 : t.val % 32 = 31 := (flush0_1 t).mp hf
  have hN : t.val < 64 := lt_of_lt_of_eq t.isLt (show cfg0.N = 64 from N_0)
  show (cfg0.win 1).cut (grid0.coords t) ((dat V c).after 1 t) = _
  rw [dat_after_out]
  funext y
  rw [View.read_apply]
  have e0 : (((((cfg0.win 1).blk t).view.emb y : S2x576x1.Idx) 0 : Fin 2) : ℕ) = win0_1.index t 0 * 1 + (y 0).val :=
    win0_1.rect_emb_val t y 0
  have e1 : (((((cfg0.win 1).blk t).view.emb y : S2x576x1.Idx) 1 : Fin 576) : ℕ) = win0_1.index t 1 * 576 + (y 1).val :=
    win0_1.rect_emb_val t y 1
  have y0 : (y 0).val < 1 := (y 0).isLt
  have y2 : (y 2).val < 1 := (y 2).isLt
  rw [(index_out t).1] at e0
  rw [(index_out t).2.1] at e1
  show colMaxAt V c t.val t.isLt (win0_1.xinj (grid0.coords t) y)
    = colMaxAt V c (lastPt ((((cfg0.win 1).blk t).view.emb y : S2x576x1.Idx) 0)).val (lastPt ((((cfg0.win 1).blk t).view.emb y : S2x576x1.Idx) 0)).isLt
        (ix3 0 ((((cfg0.win 1).blk t).view.emb y : S2x576x1.Idx) 1) 0)
  have ht : lastPt ((((cfg0.win 1).blk t).view.emb y : S2x576x1.Idx) 0) = t :=
    Fin.ext (by show 32 * _ + 31 = t.val; rw [e0]; omega)
  rw [ht]
  congr 1
  funext a
  apply Fin.ext
  match a with
  | ⟨0, _⟩ => show (y 0).val = 0; omega
  | ⟨1, _⟩ => show (y 1).val = _; rw [e1]; omega
  | ⟨2, _⟩ => show (y 2).val = 0; omega

/-- Every entry of the output array lies in the block written back after the last point of its row's run. -/
theorem covered (c : Dev nD) (i : S2x576x1.Idx) :
    ∃ t : Fin cfg0.N, (cfg0.win 1).flush t = true ∧ i ∈ ((cfg0.win 1).blk t).view.set := by
  have hi0 : (i 0).val < 2 := (i 0).isLt
  have hi1 : (i 1).val < 576 := (i 1).isLt
  have hi2 : (i 2).val < 1 := (i 2).isLt
  refine ⟨lastPt (i 0), (flush0_1 _).mpr (by show (32 * (i 0).val + 31) % 32 = 31; omega), ?_⟩
  show i ∈ ((View.whole main_v24).slice (win0_1.rect (lastPt (i 0)))).set
  rw [View.set_slice_whole, Rect.mem_set_unit]
  intro a
  match a with
  | ⟨0, _⟩ =>
    show win0_1.index (lastPt (i 0)) 0 * 1 ≤ (i 0).val ∧ (i 0).val < win0_1.index (lastPt (i 0)) 0 * 1 + 1
    rw [(index_out _).1]
    show (32 * (i 0).val + 31) / 32 * 1 ≤ (i 0).val ∧ (i 0).val < (32 * (i 0).val + 31) / 32 * 1 + 1
    omega
  | ⟨1, _⟩ =>
    show win0_1.index (lastPt (i 0)) 1 * 576 ≤ (i 1).val ∧ (i 1).val < win0_1.index (lastPt (i 0)) 1 * 576 + 576
    rw [(index_out _).2.1]
    omega
  | ⟨2, _⟩ =>
    show win0_1.index (lastPt (i 0)) 2 * 1 ≤ (i 2).val ∧ (i 2).val < win0_1.index (lastPt (i 0)) 2 * 1 + 1
    rw [(index_out _).2.2]
    omega

/-- So the region leaves `outArr` in its output array. -/
theorem arr_out (c : Dev nD) : (dat (F := Ideal) V c).arrAt 1 cfg0.N = outArr V c :=
  (dat V c).arrAt_eq_of_cover 1 (outArr V c) (flushed_eq V c) (covered c)

/-- THE VALUE of region 0.  Entry (core, k, 0) of the output array is the supremum of |X| over the entries
    (core * 8 + b, k, q) of the input array, b < 8, q < 16384: both sides have the same upper bounds.  Point
    32 * core + 4 * b + q / 4096 reads entry (core * 8 + b, k, q) at lane q % 4096, and conversely point s of
    core's run reads, at lane l, entry (s / 4, k, (s % 4) * 4096 + l). -/
theorem out_apply (c : Dev nD) (core : Fin 2) (k : Fin 576) :
    ((dat (F := Ideal) V c).arrAt 1 cfg0.N : Vec Ideal S2x576x1 .f32) (ix3 core k 0)
      = Finset.univ.sup fun p : Fin 8 × Fin 16384 =>
          max (inArr V c (ix3 (⟨core.val * 8 + p.1.val, by have := core.isLt; have := p.1.isLt; omega⟩ : Fin 16) k p.2))
            (-(inArr V c (ix3 (⟨core.val * 8 + p.1.val, by have := core.isLt; have := p.1.isLt; omega⟩ : Fin 16) k p.2))) := by
  rw [arr_out]
  show colMaxAt (F := Ideal) V c (lastPt core).val (lastPt core).isLt (ix3 0 k 0) = _
  refine eq_of_forall_ge_iff fun u => ?_
  rw [colMaxAt_le_iff, Finset.sup_le_iff]
  have hc : core.val < 2 := core.isLt
  have hN : cfg0.N = 64 := N_0
  constructor
  · intro H p _
    have hb : p.1.val < 8 := p.1.isLt
    have hq : p.2.val < 16384 := p.2.isLt
    have hs : 32 * core.val + 4 * p.1.val + p.2.val / 4096 < cfg0.N := by rw [hN]; omega
    have hl : p.2.val % 4096 < 4096 := Nat.mod_lt _ (by norm_num)
    have h := H (32 * core.val + 4 * p.1.val + p.2.val / 4096) hs
      (by show (32 * core.val + 31) / 32 * 32 ≤ _; omega) (by show _ ≤ 32 * core.val + 31; omega) ⟨p.2.val % 4096, hl⟩
    unfold laneAbs at h
    rw [blk_in_apply V c ⟨_, hs⟩ k ⟨p.2.val % 4096, hl⟩ ⟨core.val * 8 + p.1.val, by omega⟩ p.2
      (by show core.val * 8 + p.1.val = (32 * core.val + 4 * p.1.val + p.2.val / 4096) / 4; omega)
      (by show p.2.val = (32 * core.val + 4 * p.1.val + p.2.val / 4096) % 4 * 4096 + p.2.val % 4096; omega)] at h
    exact h
  · intro H s hs h1 h2 l
    have h1' : (32 * core.val + 31) / 32 * 32 ≤ s := h1
    have h2' : s ≤ 32 * core.val + 31 := h2
    have hl : l.val < 4096 := l.isLt
    have hb : s / 4 - core.val * 8 < 8 := by omega
    have hq : s % 4 * 4096 + l.val < 16384 := by omega
    have hr : core.val * 8 + (s / 4 - core.val * 8) < 16 := by omega
    unfold laneAbs
    rw [blk_in_apply V c ⟨s, hs⟩ k l ⟨core.val * 8 + (s / 4 - core.val * 8), hr⟩ ⟨s % 4 * 4096 + l.val, hq⟩
      (by show core.val * 8 + (s / 4 - core.val * 8) = s / 4; omega) rfl]
    exact H (⟨s / 4 - core.val * 8, hb⟩, ⟨s % 4 * 4096 + l.val, hq⟩) (Finset.mem_univ _)

end Region

end Cert.KernelIdeal.ColMaxValue

end
-- ==== Proof.LibFakeQuant.lean ====
/-
  Fake quantization on the extended reals.

  A symmetric fake quantizer sends x to  q(x, s) = clip(round(x / s), -c, c) · s ; a straight-through estimator
  spells its forward value  x + (q − x).  On real numbers the two are the same number, and the clipped value is a
  real number whatever its argument was.  A per-column smoothing scale  s_k = a_k^h / w_k^h  (a_k, w_k the
  column maxima of |activation| and |weight|, a zero quotient replaced by 1) divides like a non-negative real
  factor r_k even where w_k = 0 (the quotient is then an infinity, whose inverse is 0); hence the maximum of
  |x / s_k| over a whole matrix is the maximum over the columns of  a_k / s_k.
-/
import Mathlib
import Idealize.ShloMosaic.PureOps.Ideal

namespace Cert.LibFakeQuant

open Idealize.ShloMosaic

/-- An extended real that is a real number. -/
def IsReal (x : EReal) : Prop := ∃ r : ℝ, x = (r : EReal)

theorem isReal_coe (r : ℝ) : IsReal (r : EReal) := ⟨r, rfl⟩

theorem isReal_of_bounds {x : EReal} {a b : ℝ} (h1 : (a : EReal) ≤ x) (h2 : x ≤ (b : EReal)) : IsReal x := by
  have hb : x ≠ ⊥ := fun h => by rw [h] at h1; exact absurd h1 (not_le.mpr (EReal.bot_lt_coe a))
  have ht : x ≠ ⊤ := fun h => by rw [h] at h2; exact absurd h2 (not_le.mpr (EReal.coe_lt_top b))
  exact ⟨x.toReal, (EReal.coe_toReal ht hb).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The straight-through spelling of a quantized value is the quantized value, on real numbers. -/
theorem ste_coe (a b : ℝ) : (a : EReal) + ((b : EReal) - (a : EReal)) = (b : EReal) := by
  rw [← EReal.coe_sub, ← EReal.coe_add]; congr 1; ring

theorem ste {x q : EReal} (hx : IsReal x) (hq : IsReal q) : x + (q - x) = q := by
  obtain ⟨a, rfl⟩ := hx; obtain ⟨b, rfl⟩ := hq; exact ste_coe a b

/-- A value clipped between two real numbers is a real number, whatever it was. -/
theorem isReal_clip {lo hi : ℝ} (h : lo ≤ hi) (z : EReal) : IsReal (min (hi : EReal) (max (lo : EReal) z)) :=
  isReal_of_bounds (a := lo) (b := hi) (le_min (EReal.coe_le_coe_iff.mpr h) (le_max_left _ _)) (min_le_left _ _)

/-- |x| as the programs spell it. -/
noncomputable def absE (x : EReal) : EReal := max x (-x)

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

theorem absE_coe (a : ℝ) : absE (a : EReal) = ((|a| : ℝ) : EReal) := by
  unfold absE
  rw [← EReal.coe_neg, max_coe, abs_eq_max_neg]

theorem absE_nonneg (x : EReal) : 0 ≤ absE x := by
  unfold absE
  rcases le_total 0 x with h | h
  · exact h.trans (le_max_left _ _)
  · exact (EReal.neg_nonneg.mpr h).trans (le_max_right _ _)

theorem absE_mul_coe_nonneg (a : ℝ) {r : ℝ} (hr : 0 ≤ r) : absE ((a : EReal) * (r : EReal)) = absE (a : EReal) * (r : EReal) := by
  rw [← EReal.coe_mul, absE_coe, absE_coe, ← EReal.coe_mul, abs_mul, abs_of_nonneg hr]

/-! ## A divisor that acts as a real factor -/

/-- Dividing by `s` is multiplying by the real number `r`. -/
def DivBy (s : EReal) (r : ℝ) : Prop := ∀ x : EReal, Ideal.div x s = x * (r : EReal)

theorem divBy_coe {s : ℝ} (hs : s ≠ 0) : DivBy (s : EReal) (1 / s) := fun x => Ideal.div_coe hs x

theorem divBy_top : DivBy ⊤ 0 := fun x => by
  unfold Ideal.div; rw [if_neg EReal.top_ne_zero, EReal.inv_top, EReal.coe_zero]

theorem divBy_bot : DivBy ⊥ 0 := fun x => by
  unfold Ideal.div; rw [if_neg EReal.bot_ne_zero, EReal.inv_bot, EReal.coe_zero]

theorem DivBy.isReal {s : EReal} {r : ℝ} (h : DivBy s r) (a : ℝ) : Ideal.div (a : EReal) s = ((a * r : ℝ) : EReal) := by
  rw [h, EReal.coe_mul]

/-! ## The smoothing scale of one column -/

/-- `a^h / w^h`, a zero quotient replaced by one. -/
noncomputable def scaleOf (h : ℝ) (a w : EReal) : EReal :=
  if Ideal.div (Ideal.pow a (h : EReal)) (Ideal.pow w (h : EReal)) = 0 then 1
  else Ideal.div (Ideal.pow a (h : EReal)) (Ideal.pow w (h : EReal))

/-- For non-negative real column maxima the scale is a positive real number, unless the weight column is zero, where it
    is an infinity. -/
theorem scaleOf_cases {h : ℝ} (hh : 0 < h) {a w : ℝ} (ha : 0 ≤ a) (hw : 0 ≤ w) :
    (w = 0 ∧ (scaleOf h (a : EReal) (w : EReal) = ⊤ ∨ scaleOf h (a : EReal) (w : EReal) = ⊥))
      ∨ ∃ s : ℝ, 0 < s ∧ scaleOf h (a : EReal) (w : EReal) = (s : EReal) := by
  unfold scaleOf
  rw [Ideal.pow_coe_coe, Ideal.pow_coe_coe]
  rcases hw.eq_or_lt with hw0 | hwpos
  · left
    refine ⟨hw0.symm, ?_⟩
    have hB : Real.rpow w h = 0 := by rw [← hw0]; exact Real.zero_rpow hh.ne'
    rw [hB]
    unfold Ideal.div
    rw [if_pos EReal.coe_zero]
    by_cases hA : (0 : EReal) < ((Real.rpow a h : ℝ) : EReal)
    · left; rw [if_pos hA, if_neg EReal.top_ne_zero]
    · right; rw [if_neg hA, if_neg EReal.bot_ne_zero]
  · right
    have hB : 0 < Real.rpow w h := Real.rpow_pos_of_pos hwpos h
    have hA : 0 ≤ Real.rpow a h := Real.rpow_nonneg ha h
    rw [Ideal.div_coe hB.ne', ← EReal.coe_mul]
    have hq : 0 ≤ Real.rpow a h * (1 / Real.rpow w h) := mul_nonneg hA (by positivity)
    rcases hq.eq_or_lt with hq0 | hqpos
    · refine ⟨1, one_pos, ?_⟩
      rw [← hq0, if_pos EReal.coe_zero, EReal.coe_one]
    · refine ⟨_, hqpos, ?_⟩
      rw [if_neg (fun h0 => hqpos.ne' (EReal.coe_eq_zero.mp h0))]

/-- The scale always divides like a non-negative real factor. -/
theorem scaleOf_divBy {h : ℝ} (hh : 0 < h) {a w : ℝ} (ha : 0 ≤ a) (hw : 0 ≤ w) :
    ∃ r : ℝ, 0 ≤ r ∧ DivBy (scaleOf h (a : EReal) (w : EReal)) r := by
  rcases scaleOf_cases hh ha hw with ⟨-, h1 | h1⟩ | ⟨s, hs, h1⟩
  · exact ⟨0, le_rfl, h1 ▸ divBy_top⟩
  · exact ⟨0, le_rfl, h1 ▸ divBy_bot⟩
  · exact ⟨1 / s, by positivity, h1 ▸ divBy_coe hs.ne'⟩

/-- A weight entry times its column's scale is a real number: where the scale is an infinity the whole weight column
    is zero. -/
theorem isReal_mul_scaleOf {h : ℝ} (hh : 0 < h) {a w : ℝ} (ha : 0 ≤ a) (hw : 0 ≤ w) (x : ℝ) (hx : w = 0 → x = 0) :
    IsReal ((x : EReal) * scaleOf h (a : EReal) (w : EReal)) := by
  rcases scaleOf_cases hh ha hw with ⟨hw0, -⟩ | ⟨s, -, h1⟩
  · rw [hx hw0, EReal.coe_zero, zero_mul]; exact ⟨0, EReal.coe_zero.symm⟩
  · rw [h1]; exact (isReal_coe x).mul (isReal_coe s)

/-! ## Maxima -/

/-- The maximum of finitely many real numbers (at least one) is a real number. -/
theorem isReal_sup {ι : Type*} [Fintype ι] [Nonempty ι] (f : ι → ℝ) : IsReal (Finset.univ.sup fun i => (f i : EReal)) := by
  obtain ⟨i, -, hi⟩ := Finset.exists_mem_eq_sup Finset.univ Finset.univ_nonempty (fun i => (f i : EReal))
  exact ⟨f i, hi⟩

/-- The column maximum of absolute values, as a real number. -/
theorem sup_absE_coe {ι : Type*} [Fintype ι] [Nonempty ι] (f : ι → ℝ) :
    ∃ i, (Finset.univ.sup fun i => absE (f i : EReal)) = ((|f i| : ℝ) : EReal) := by
  obtain ⟨i, -, hi⟩ := Finset.exists_mem_eq_sup Finset.univ Finset.univ_nonempty (fun i => absE (f i : EReal))
  exact ⟨i, hi.trans (absE_coe _)⟩

/-- The maximum of |x / s_k| over a whole matrix is the maximum over the columns of (column maximum of |x|) / s_k,
    when each s_k divides like a non-negative real factor. -/
theorem amax_cols {N K : Type*} [Fintype N] [Fintype K] [Nonempty N] (x : N → K → ℝ) (r : K → ℝ) (hr : ∀ k, 0 ≤ r k) :
    (Finset.univ.sup fun n => Finset.univ.sup fun k => absE ((x n k : EReal) * (r k : EReal)))
      = Finset.univ.sup fun k => (Finset.univ.sup fun n => absE (x n k : EReal)) * (r k : EReal) := by
  apply le_antisymm
  · refine Finset.sup_le fun n _ => Finset.sup_le fun k _ => ?_
    rw [absE_mul_coe_nonneg _ (hr k)]
    refine le_trans (mul_le_mul_of_nonneg_right
      (Finset.le_sup (f := fun n => absE (x n k : EReal)) (Finset.mem_univ n)) (EReal.coe_nonneg.mpr (hr k))) ?_
    exact Finset.le_sup (f := fun k => (Finset.univ.sup fun n => absE (x n k : EReal)) * (r k : EReal)) (Finset.mem_univ k)
  · refine Finset.sup_le fun k _ => ?_
    obtain ⟨n0, -, hn0⟩ := Finset.exists_mem_eq_sup Finset.univ Finset.univ_nonempty (fun n => absE (x n k : EReal))
    rw [hn0, ← absE_mul_coe_nonneg _ (hr k)]
    exact (Finset.le_sup (f := fun k => absE ((x n0 k : EReal) * (r k : EReal))) (Finset.mem_univ k)).trans
      (Finset.le_sup (f := fun n => Finset.univ.sup fun k => absE ((x n k : EReal) * (r k : EReal))) (Finset.mem_univ n0))

end Cert.LibFakeQuant
-- ==== Proof.LibSmoothQuant.lean ====
/-
  Smooth-quantized matrix product: two spellings, one value.

  Activations x(b,k,l) and weights w(o,k) are real numbers. With column maxima a_k = max |x(·,k,·)| and
  m_k = max |w(·,k)|, the smoothing scale is s_k = a_k^h / m_k^h (a zero quotient replaced by one), activations are
  divided by s_k and weights multiplied by it, each side is fake-quantized with one step for the whole tensor
  (the tensor's maximum absolute value over c, or one where that maximum is not positive), and the two are
  multiplied along k.

  One spelling takes the activation step from max_k (a_k / s_k) and multiplies quantized values directly; the other
  takes it from the maximum of |x / s_k| over the whole tensor and writes each quantized value q as v + (q − v).
  They are the same extended real at every output index: s_k divides like a non-negative real factor, so the two
  maxima agree, and v + (q − v) = q on real numbers.
-/
import proofs.«122551_j65360812311363_2_alg».proof.Proof.LibFakeQuant

namespace Cert.LibSmoothQuant

open Idealize.ShloMosaic Cert.LibFakeQuant

variable {B L K O : Type*} [Fintype B] [Fintype L] [Fintype K] [Fintype O]

/-- Column maximum of |activation|. -/
noncomputable def actOf (X : B → K → L → EReal) (k : K) : EReal := Finset.univ.sup fun p : B × L => absE (X p.1 k p.2)
/-- Column maximum of |weight|. -/
noncomputable def wmaxOf (W : O → K → EReal) (k : K) : EReal := Finset.univ.sup fun o : O => absE (W o k)
/-- The smoothing scale of column k. -/
noncomputable def scaleV (h : ℝ) (X : B → K → L → EReal) (W : O → K → EReal) (k : K) : EReal :=
  scaleOf h (actOf X k) (wmaxOf W k)
/-- The quantization step from a tensor's maximum absolute value. -/
noncomputable def stepOf (c one : EReal) (A : EReal) : EReal := if 0 < A then Ideal.div A c else one
/-- Fake quantization of v with step s: clip(round(v / s)) · s. -/
noncomputable def quant (lo hi : EReal) (R : EReal → EReal) (v s : EReal) : EReal := min hi (max lo (R (Ideal.div v s))) * s

section
variable [Nonempty B] [Nonempty L] [Nonempty K] [Nonempty O]
variable (x : B → K → L → ℝ) (w : O → K → ℝ) {h : ℝ}

local notation "X" => (fun b k l => ((x b k l : ℝ) : EReal))
local notation "W" => (fun o k => ((w o k : ℝ) : EReal))

theorem actOf_coe (k : K) : ∃ a : ℝ, 0 ≤ a ∧ actOf X k = (a : EReal) := by
  obtain ⟨p, hp⟩ := sup_absE_coe (fun p : B × L => x p.1 k p.2)
  exact ⟨_, abs_nonneg _, hp⟩

theorem wmaxOf_coe (k : K) : ∃ a : ℝ, 0 ≤ a ∧ wmaxOf W k = (a : EReal) ∧ (a = 0 → ∀ o, w o k = 0) := by
  obtain ⟨o0, ho0⟩ := sup_absE_coe (fun o : O => w o k)
  refine ⟨_, abs_nonneg _, ho0, fun h0 o => ?_⟩
  have hle : absE ((w o k : ℝ) : EReal) ≤ Finset.univ.sup (fun o : O => absE ((w o k : ℝ) : EReal)) := Finset.le_sup (f := fun o : O => absE ((w o k : ℝ) : EReal)) (Finset.mem_univ o)
  rw [ho0, h0, absE_coe, EReal.coe_le_coe_iff] at hle
  exact abs_eq_zero.mp (le_antisymm hle (abs_nonneg _))

/-- Each column's scale divides like a non-negative real factor. -/
theorem scaleV_divBy (hh : 0 < h) (k : K) : ∃ r : ℝ, 0 ≤ r ∧ DivBy (scaleV h X W k) r := by
  obtain ⟨a, ha, hae⟩ := actOf_coe x k
  obtain ⟨m, hm, hme, -⟩ := wmaxOf_coe w k
  unfold scaleV; rw [hae, hme]
  exact scaleOf_divBy hh ha hm

/-- A weight times its column's scale is a real number. -/
theorem isReal_w_scale (hh : 0 < h) (o : O) (k : K) : IsReal (((w o k : ℝ) : EReal) * scaleV h X W k) := by
  obtain ⟨a, ha, hae⟩ := actOf_coe x k
  obtain ⟨m, hm, hme, hz⟩ := wmaxOf_coe w k
  unfold scaleV; rw [hae, hme]
  exact isReal_mul_scaleOf hh ha hm (w o k) (fun h0 => hz h0 o)

/-- The maximum of |x / s_k| over the whole tensor is the maximum over the columns of a_k / s_k. -/
theorem amax_eq (hh : 0 < h) :
    (Finset.univ.sup fun p : B × L => Finset.univ.sup fun k : K => absE (Ideal.div ((x p.1 k p.2 : ℝ) : EReal) (scaleV h X W k)))
      = Finset.univ.sup fun k : K => Ideal.div (actOf X k) (scaleV h X W k) := by
  choose r hr hdiv using scaleV_divBy x w hh
  have e1 : ∀ (p : B × L) (k : K), Ideal.div ((x p.1 k p.2 : ℝ) : EReal) (scaleV h X W k) = ((x p.1 k p.2 : ℝ) : EReal) * (r k : EReal) :=
    fun p k => hdiv k _
  have e2 : ∀ k : K, Ideal.div (actOf X k) (scaleV h X W k) = actOf X k * (r k : EReal) := fun k => hdiv k _
  simp only [e1, e2]
  exact amax_cols (fun (p : B × L) k => x p.1 k p.2) r hr

end

/-- A step taken from a real maximum is a real number. -/
theorem isReal_stepOf {c one : EReal} {c' : ℝ} (hc : c = (c' : EReal)) (hc0 : c' ≠ 0) (hone : IsReal one) {A : EReal} (hA : IsReal A) :
    IsReal (stepOf c one A) := by
  unfold stepOf
  split
  · obtain ⟨a, rfl⟩ := hA
    rw [hc, Ideal.div_coe hc0, ← EReal.coe_mul]; exact isReal_coe _
  · exact hone

/-- A quantized value is a real number as soon as the step is. -/
theorem isReal_quant {lo hi : EReal} {lo' hi' : ℝ} (hlo : lo = (lo' : EReal)) (hhi : hi = (hi' : EReal)) (hle : lo' ≤ hi')
    (R : EReal → EReal) (v : EReal) {s : EReal} (hs : IsReal s) : IsReal (quant lo hi R v s) := by
  unfold quant; rw [hlo, hhi]
  exact (isReal_clip hle _).mul hs

end Cert.LibSmoothQuant
-- ==== Proof.Consts.lean ====
/-
  The float literals both programs spell, as the extended reals their words denote: 0, 1, 1/2, ±127 and −∞.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_neg127 : Ideal.ofBits .f32 0xC2FE0000#32 = ((-127 : ℝ) : EReal) := by
  simp [Ideal.ofBits, Ideal.ieee, -EReal.coe_mul]; norm_num

theorem ofBits_neg_inf : Ideal.ofBits .f32 0xFF800000#32 = ⊥ := by
  simp [Ideal.ofBits, Ideal.ieee]

end Cert.Consts

end
-- ==== Proof.Spec.lean ====
/-
  What both programs compute, as ONE function of the im2col array C (shape [16, 576, 16384]: image b, patch entry k,
  output position l) and the flattened weight Wf (shape [128, 576]: output channel o, patch entry k):

    a_k = max_{b,l} |C(b,k,l)|,  m_k = max_o |Wf(o,k)|,  s_k = a_k^(1/2) / m_k^(1/2)  (a zero quotient replaced by 1),
    tx = step(max_k a_k / s_k),   tw = step(max_{o,k} |Wf(o,k) · s_k|),   step(A) = A / 127 if A > 0, else 1,
    out(b,o,l) = Σ_k  q(Wf(o,k) · s_k, tw) · q(C(b,k,l) / s_k, tx),      q(v,t) = clip(round(v / t), −127, 127) · t.

  The kernel computes exactly this; the reference takes tx from the maximum of |C / s_k| over the whole tensor and
  writes each quantized value as v + (q − v), which is the same number on real inputs.
-/
import proofs.«122551_j65360812311363_2_alg».proof.Proof.LibSmoothQuant
import proofs.«122551_j65360812311363_2_alg».proof.Proof.Consts
import Idealize.ShloMosaic.Lib.ValueIdx

noncomputable section

namespace Cert.Spec

open Idealize.ShloMosaic Idealize.ShloMosaic.ValueIdx Cert.LibFakeQuant Cert.LibSmoothQuant

/-- The im2col array's shape and the flattened weight's. -/
abbrev SC : Shape := ⟨3, ![16, 576, 16384]⟩
abbrev SW : Shape := ⟨2, ![128, 576]⟩

variable (C : SC.Idx → EReal) (Wf : SW.Idx → EReal)

/-- The two arrays by coordinates. -/
def X (b : Fin 16) (k : Fin 576) (l : Fin 16384) : EReal := C (ix3 b k l)
def Wt (o : Fin 128) (k : Fin 576) : EReal := Wf (ix2 o k)

/-- Round to nearest, ties to even, at the ideal instance. -/
abbrev rnd : EReal → EReal := Ideal.liftRound Ideal.roundHalfEven

/-- The smoothing scale of patch entry k. -/
def scale (k : Fin 576) : EReal := scaleV (1 / 2) (X C) (Wt Wf) k
/-- A quantization step from a maximum absolute value. -/
def step (A : EReal) : EReal := stepOf ((127 : ℝ) : EReal) ((1 : ℝ) : EReal) A
/-- The activation step: from the maximum over patch entries of (column maximum) / scale. -/
def stepX : EReal := step (Finset.univ.sup fun k : Fin 576 => Ideal.div (actOf (X C) k) (scale C Wf k))
/-- The weight step: from the maximum of |weight · scale| over the whole matrix. -/
def stepW : EReal := step (Finset.univ.sup fun p : Fin 128 × Fin 576 => absE (Wt Wf p.1 p.2 * scale C Wf p.2))
/-- Fake quantization to 8 bits with step t. -/
def q (v t : EReal) : EReal := quant ((-127 : ℝ) : EReal) ((127 : ℝ) : EReal) rnd v t
/-- The quantized weight and the quantized activation. -/
def qW (o : Fin 128) (k : Fin 576) : EReal := q (Wt Wf o k * scale C Wf k) (stepW C Wf)
def qX (b : Fin 16) (k : Fin 576) (l : Fin 16384) : EReal := q (Ideal.div (X C b k l) (scale C Wf k)) (stepX C Wf)
/-- The result at image b, output channel o, output position l. -/
def out (b : Fin 16) (o : Fin 128) (l : Fin 16384) : EReal := ∑ k : Fin 576, qW C Wf o k * qX C Wf b k l

end Cert.Spec

end
-- ==== Proof.Ideal.KernelSteps.lean ====
/-
  The host operations between the two kernel regions, read at the ideal values: from the per-core column maxima the
  first region leaves, the program's per-column activation maximum, weight maximum, smoothing scale and activation
  step are the specification's.
-/
import proofs.«122551_j65360812311363_2_alg».proof.Proof.Ideal.Run
import proofs.«122551_j65360812311363_2_alg».proof.Proof.Spec
import proofs.«122551_j65360812311363_2_alg».proof.Proof.Gen.KernelIdeal.Regions
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Reduce
import Idealize.ShloMosaic.PureOps.Ideal.Laws

set_option maxRecDepth 16384
set_option Elab.async false

noncomputable section

namespace Cert.KernelIdeal.KernelSteps

open Cert.KernelIdeal Cert.KernelIdeal.Gen Cert.KernelIdeal.Run
open Idealize.ShloMosaic Idealize.ShloMosaic.TcCoe Idealize.ShloMosaic.ValueIdx Idealize.SL.Sem
open Cert.LibFakeQuant Cert.LibSmoothQuant

variable (m : (ℓ : Loc nD τ sig) → Buf (Elt Ideal) ℓ) (ρ : Dev nD → PrngReg) (c : Dev nD)

/-- The im2col array and the flattened weight, as the first region finds them. -/
abbrev Cin : Cert.Spec.SC.Idx → EReal := W3 (F := Ideal) m ρ c (Proc.devRef .tc main_v20)
abbrev Win : Cert.Spec.SW.Idx → EReal := W3 (F := Ideal) m ρ c (Proc.devRef .tc main_v21)

/-- What the first region leaves: per core, the maximum of |C| over the core's eight images and all positions. -/
abbrev ColHyp : Prop :=
  ∀ (core : Fin 2) (k : Fin 576), (W4 (F := Ideal) m ρ c (Proc.devRef .tc main_v24) : S2x576x1.Idx → EReal) (ix3 core k 0)
      = Finset.univ.sup fun p : Fin 8 × Fin 16384 => absE (Cin m ρ c (ix3 ⟨core.val * 8 + p.1.val, by omega⟩ k p.2))

/-! ## The host's pointwise operations at an index, at the ideal values -/

section Pointwise
variable {s : Shape}
theorem hpowf_apply (x y : FVec Ideal s .f32) (i : s.Idx) : Host.powf x y i = Ideal.pow (x i) (y i) := rfl
theorem hdivf_apply (x y : FVec Ideal s .f32) (i : s.Idx) : Host.divf x y i = Ideal.div (x i) (y i) := rfl
theorem cmpf_at (p : CmpFPredicate) (x y : FVec Ideal s .f32) (i : s.Idx) : cmpf p x y i = Ideal.cmp p (x i) (y i) := rfl
theorem const_at (b : BitVec 32) (i : s.Idx) : constant (F := Ideal) s .f32 b i = Ideal.ofBits .f32 b := rfl
theorem bcast_const (b : BitVec 32) (i : S576.Idx) :
    broadcastInDim S576 ![] bcast_S_S576 (constant (F := Ideal) S_ .f32 b) i = Ideal.ofBits .f32 b := rfl
end Pointwise

/-! ## The weight maximum -/

theorem W3_v23 :
    (W3 (F := Ideal) m ρ c (Proc.devRef .tc main_v23) : S576.Idx → EReal)
      = Host.reduce FloatOps.maximumf (Host.absf (F := Ideal) (Win m ρ c) : S128x576.Idx → EReal) (constant (F := Ideal) S_ .f32 0xFF800000#32) reducesTo_S128x576_S576_d0 h_S_ := by
  show StableHlo.after hostOps0_2 (W2 (F := Ideal) m ρ c) (Proc.devRef .tc main_v23) = Host.reduce FloatOps.maximumf (Host.absf (F := Ideal) (StableHlo.after hostOps0_2 (W2 (F := Ideal) m ρ c) (Proc.devRef .tc main_v21))) _ _ _
  after_results_simp

theorem red128 : S128x576.Reduces [0] S576 := by decide

theorem lift128 (k : Fin 576) (o : Fin 128) : red128.lift (ix1 k) o = ix2 o k := by
  funext a
  match a with
  | ⟨0, _⟩ => rfl
  | ⟨1, _⟩ => rfl

theorem wmax3_eq (k : Fin 576) :
    (W3 (F := Ideal) m ρ c (Proc.devRef .tc main_v23) : S576.Idx → EReal) (ix1 k) = wmaxOf (Cert.Spec.Wt (Win m ρ c)) k := by
  rw [W3_v23, Host.reduce_eq_fold_single _ _ _ _ red128]
  unfold wmaxOf
  have hb : (constant (F := Ideal) S_ .f32 0xFF800000#32 (Shape.Idx.first h_S_) : EReal) = ⊥ := Cert.Consts.ofBits_neg_inf
  have hf : ((Host.absf (F := Ideal) (φ := .f32) (Win m ρ c) : S128x576.Idx → EReal) ∘ red128.lift (ix1 k) : Fin 128 → EReal)
      = fun o : Fin 128 => absE (Cert.Spec.Wt (Win m ρ c) o k) := funext fun o => by
    show absE (Win m ρ c (red128.lift (ix1 k) o)) = absE (Win m ρ c (ix2 o k))
    rw [lift128]
  show Finset.fold (fun a b : EReal => a ⊔ b) (constant (F := Ideal) S_ .f32 0xFF800000#32 (Shape.Idx.first h_S_) : EReal)
      ((Host.absf (F := Ideal) (φ := .f32) (Win m ρ c) : S128x576.Idx → EReal) ∘ red128.lift (ix1 k) : Fin 128 → EReal) (Finset.univ : Finset (Fin 128))
    = Finset.fold (fun a b : EReal => a ⊔ b) (⊥ : EReal) (fun o : Fin 128 => absE (Cert.Spec.Wt (Win m ρ c) o k)) (Finset.univ : Finset (Fin 128))
  rw [hb, hf]

theorem W5_v23 : W5 (F := Ideal) m ρ c (Proc.devRef .tc main_v23) = W3 (F := Ideal) m ρ c (Proc.devRef .tc main_v23) :=
  calc W5 (F := Ideal) m ρ c (Proc.devRef .tc main_v23)
    _ = W4 m ρ c (Proc.devRef .tc main_v23) := StableHlo.after_of_writes_sub hostOps1 _ hostOps1_writes (by decide)
    _ = W3 m ρ c (Proc.devRef .tc main_v23) := W4_of_ne m ρ c main_v23 (by decide)

theorem W15_v23 : W15 (F := Ideal) m ρ c (Proc.devRef .tc main_v23) = W5 (F := Ideal) m ρ c (Proc.devRef .tc main_v23) :=
  calc W15 (F := Ideal) m ρ c (Proc.devRef .tc main_v23)
    _ = W14 m ρ c (Proc.devRef .tc main_v23) := StableHlo.after_of_writes_sub hostOps1_10 _ hostOps1_10_writes (by decide)
    _ = W13 m ρ c (Proc.devRef .tc main_v23) := StableHlo.after_of_writes_sub hostOps1_9 _ hostOps1_9_writes (by decide)
    _ = W12 m ρ c (Proc.devRef .tc main_v23) := StableHlo.after_of_writes_sub hostOps1_8 _ hostOps1_8_writes (by decide)
    _ = W11 m ρ c (Proc.devRef .tc main_v23) := StableHlo.after_of_writes_sub hostOps1_7 _ hostOps1_7_writes (by decide)
    _ = W10 m ρ c (Proc.devRef .tc main_v23) := StableHlo.after_of_writes_sub hostOps1_6 _ hostOps1_6_writes (by decide)
    _ = W9 m ρ c (Proc.devRef .tc main_v23) := StableHlo.after_of_writes_sub hostOps1_5 _ hostOps1_5_writes (by decide)
    _ = W8 m ρ c (Proc.devRef .tc main_v23) := StableHlo.after_of_writes_sub hostOps1_4 _ hostOps1_4_writes (by decide)
    _ = W7 m ρ c (Proc.devRef .tc main_v23) := StableHlo.after_of_writes_sub hostOps1_3 _ hostOps1_3_writes (by decide)
    _ = W6 m ρ c (Proc.devRef .tc main_v23) := StableHlo.after_of_writes_sub hostOps1_2 _ hostOps1_2_writes (by decide)
    _ = W5 m ρ c (Proc.devRef .tc main_v23) := StableHlo.after_of_writes_sub hostOps1_1 _ hostOps1_1_writes (by decide)

/-- The program's weight maximum of column k is the specification's. -/
theorem wmax_eq (k : Fin 576) :
    (W15 (F := Ideal) m ρ c (Proc.devRef .tc main_v23) : S576.Idx → EReal) (ix1 k) = wmaxOf (Cert.Spec.Wt (Win m ρ c)) k := by
  rw [W15_v23, W5_v23]; exact wmax3_eq m ρ c k

/-! ## The activation maximum -/

/-- Sixteen images as two cores of eight: the maximum over all images is the maximum of the two cores' maxima. -/
theorem sup_split (g : Fin 16 → Fin 16384 → EReal) :
    (Finset.univ.sup fun core : Fin 2 => Finset.univ.sup fun p : Fin 8 × Fin 16384 => g ⟨core.val * 8 + p.1.val, by omega⟩ p.2)
      = Finset.univ.sup fun p : Fin 16 × Fin 16384 => g p.1 p.2 := by
  apply le_antisymm
  · refine Finset.sup_le fun core _ => Finset.sup_le fun p _ => ?_
    exact Finset.le_sup (f := fun p : Fin 16 × Fin 16384 => g p.1 p.2)
      (Finset.mem_univ ((⟨core.val * 8 + p.1.val, by omega⟩, p.2) : Fin 16 × Fin 16384))
  · refine Finset.sup_le fun p _ => ?_
    have hp : p.1 = (⟨(p.1.val / 8) * 8 + p.1.val % 8, by omega⟩ : Fin 16) := Fin.ext (by show p.1.val = (p.1.val / 8) * 8 + p.1.val % 8; omega)
    refine le_trans ?_ (Finset.le_sup
      (f := fun core : Fin 2 => Finset.univ.sup fun q : Fin 8 × Fin 16384 => g ⟨core.val * 8 + q.1.val, by omega⟩ q.2)
      (Finset.mem_univ (⟨p.1.val / 8, by omega⟩ : Fin 2)))
    refine le_trans ?_ (Finset.le_sup
      (f := fun q : Fin 8 × Fin 16384 => g ⟨(p.1.val / 8) * 8 + q.1.val, by omega⟩ q.2)
      (Finset.mem_univ ((⟨p.1.val % 8, Nat.mod_lt _ (by omega)⟩, p.2) : Fin 8 × Fin 16384)))
    exact le_of_eq (congrArg (fun b => g b p.2) hp)

theorem red2 : S2x576.Reduces [0] S576 := by decide

theorem lift2 (k : Fin 576) (core : Fin 2) : red2.lift (ix1 k) core = ix2 core k := by
  funext a
  match a with
  | ⟨0, _⟩ => rfl
  | ⟨1, _⟩ => rfl

theorem W5_v26 :
    (W5 (F := Ideal) m ρ c (Proc.devRef .tc main_v26) : S576.Idx → EReal)
      = Host.reduce FloatOps.maximumf (shapeCast S2x576 (W4 (F := Ideal) m ρ c (Proc.devRef .tc main_v24) : S2x576x1.Idx → EReal) shapeCasts_S2x576x1_S2x576)
          (constant (F := Ideal) S_ .f32 0xFF800000#32) reducesTo_S2x576_S576_d0 h_S_ := by
  show StableHlo.after hostOps1 (W4 (F := Ideal) m ρ c) (Proc.devRef .tc main_v26) = _
  after_results_simp
  rfl

theorem act5_eq (hcol : ColHyp m ρ c) (k : Fin 576) :
    (W5 (F := Ideal) m ρ c (Proc.devRef .tc main_v26) : S576.Idx → EReal) (ix1 k) = actOf (Cert.Spec.X (Cin m ρ c)) k := by
  rw [W5_v26, Host.reduce_eq_fold_single _ _ _ _ red2]
  have hb : (constant (F := Ideal) S_ .f32 0xFF800000#32 (Shape.Idx.first h_S_) : EReal) = ⊥ := Cert.Consts.ofBits_neg_inf
  have hf : ((shapeCast S2x576 (W4 (F := Ideal) m ρ c (Proc.devRef .tc main_v24) : S2x576x1.Idx → EReal) shapeCasts_S2x576x1_S2x576 : S2x576.Idx → EReal)
        ∘ red2.lift (ix1 k) : Fin 2 → EReal)
      = fun core : Fin 2 => Finset.univ.sup fun p : Fin 8 × Fin 16384 =>
          absE (Cert.Spec.X (Cin m ρ c) ⟨core.val * 8 + p.1.val, by omega⟩ k p.2) := funext fun core => by
    show shapeCast S2x576 (W4 (F := Ideal) m ρ c (Proc.devRef .tc main_v24) : S2x576x1.Idx → EReal) shapeCasts_S2x576x1_S2x576 (red2.lift (ix1 k) core) = _
    rw [lift2, shapeCast_apply _ _ (ix2 core k) (ix3 core k (0 : Fin 1)) (by
      rw [Shape.rowMajor_val_three, Shape.rowMajor_val_two]
      show (core.val * 576 + k.val) * 1 + 0 = core.val * 576 + k.val
      omega)]
    exact hcol core k
  show Finset.fold (fun a b : EReal => a ⊔ b) (constant (F := Ideal) S_ .f32 0xFF800000#32 (Shape.Idx.first h_S_) : EReal)
      ((shapeCast S2x576 (W4 (F := Ideal) m ρ c (Proc.devRef .tc main_v24) : S2x576x1.Idx → EReal) shapeCasts_S2x576x1_S2x576 : S2x576.Idx → EReal)
        ∘ red2.lift (ix1 k) : Fin 2 → EReal) (Finset.univ : Finset (Fin 2)) = _
  rw [hb, hf]
  exact sup_split (fun b l => absE (Cert.Spec.X (Cin m ρ c) b k l))

theorem W15_v26 : W15 (F := Ideal) m ρ c (Proc.devRef .tc main_v26) = W5 (F := Ideal) m ρ c (Proc.devRef .tc main_v26) :=
  calc W15 (F := Ideal) m ρ c (Proc.devRef .tc main_v26)
    _ = W14 m ρ c (Proc.devRef .tc main_v26) := StableHlo.after_of_writes_sub hostOps1_10 _ hostOps1_10_writes (by decide)
    _ = W13 m ρ c (Proc.devRef .tc main_v26) := StableHlo.after_of_writes_sub hostOps1_9 _ hostOps1_9_writes (by decide)
    _ = W12 m ρ c (Proc.devRef .tc main_v26) := StableHlo.after_of_writes_sub hostOps1_8 _ hostOps1_8_writes (by decide)
    _ = W11 m ρ c (Proc.devRef .tc main_v26) := StableHlo.after_of_writes_sub hostOps1_7 _ hostOps1_7_writes (by decide)
    _ = W10 m ρ c (Proc.devRef .tc main_v26) := StableHlo.after_of_writes_sub hostOps1_6 _ hostOps1_6_writes (by decide)
    _ = W9 m ρ c (Proc.devRef .tc main_v26) := StableHlo.after_of_writes_sub hostOps1_5 _ hostOps1_5_writes (by decide)
    _ = W8 m ρ c (Proc.devRef .tc main_v26) := StableHlo.after_of_writes_sub hostOps1_4 _ hostOps1_4_writes (by decide)
    _ = W7 m ρ c (Proc.devRef .tc main_v26) := StableHlo.after_of_writes_sub hostOps1_3 _ hostOps1_3_writes (by decide)
    _ = W6 m ρ c (Proc.devRef .tc main_v26) := StableHlo.after_of_writes_sub hostOps1_2 _ hostOps1_2_writes (by decide)
    _ = W5 m ρ c (Proc.devRef .tc main_v26) := StableHlo.after_of_writes_sub hostOps1_1 _ hostOps1_1_writes (by decide)

/-- The program's activation maximum of column k is the specification's. -/
theorem act_eq (hcol : ColHyp m ρ c) (k : Fin 576) :
    (W15 (F := Ideal) m ρ c (Proc.devRef .tc main_v26) : S576.Idx → EReal) (ix1 k) = actOf (Cert.Spec.X (Cin m ρ c)) k := by
  rw [W15_v26]; exact act5_eq m ρ c hcol k

/-! ## The smoothing scale -/

/-- The scale column as the host operations spell it, from the two columns of maxima: the quotient of the two square
    roots, and the word of 1 where that quotient compares equal to the word of 0. -/
abbrev scaleVec (A Wm : S576.Idx → EReal) : S576.Idx → EReal :=
  select
    (cmpf (F := Ideal) (φ := .f32) .oeq
      (Host.divf (F := Ideal) (φ := .f32)
        (Host.powf (F := Ideal) (φ := .f32) A (broadcastInDim S576 ![] bcast_S_S576 (constant (F := Ideal) S_ .f32 0x3F000000#32)))
        (Host.powf (F := Ideal) (φ := .f32) Wm (broadcastInDim S576 ![] bcast_S_S576 (constant (F := Ideal) S_ .f32 0x3F000000#32))))
      (broadcastInDim S576 ![] bcast_S_S576 (constant (F := Ideal) S_ .f32 0x00000000#32)))
    (broadcastInDim S576 ![] bcast_S_S576 (constant (F := Ideal) S_ .f32 0x3F800000#32))
    (Host.divf (F := Ideal) (φ := .f32)
      (Host.powf (F := Ideal) (φ := .f32) A (broadcastInDim S576 ![] bcast_S_S576 (constant (F := Ideal) S_ .f32 0x3F000000#32)))
      (Host.powf (F := Ideal) (φ := .f32) Wm (broadcastInDim S576 ![] bcast_S_S576 (constant (F := Ideal) S_ .f32 0x3F000000#32))))

theorem W6_v34 :
    (W6 (F := Ideal) m ρ c (Proc.devRef .tc main_v34) : S576.Idx → EReal)
      = scaleVec (W5 (F := Ideal) m ρ c (Proc.devRef .tc main_v26)) (W5 (F := Ideal) m ρ c (Proc.devRef .tc main_v23)) := by
  show StableHlo.after hostOps1_1 (StableHlo.after hostOps1 (W4 (F := Ideal) m ρ c)) (Proc.devRef .tc main_v34)
    = scaleVec (StableHlo.after hostOps1 (W4 (F := Ideal) m ρ c) (Proc.devRef .tc main_v26))
        (StableHlo.after hostOps1 (W4 (F := Ideal) m ρ c) (Proc.devRef .tc main_v23))
  unfold scaleVec
  after_results_simp
  simp only [cast_eq, id]

/-- The comparison EQ answers 1 exactly at equal values. -/
theorem cmp_oeq (x y : EReal) : Ideal.cmp .oeq x y = (1 : BitVec 1) ↔ x = y := by
  unfold Ideal.cmp
  by_cases h : x = y <;> simp [h]

/-- One column's scale from its two maxima, in the program's words. -/
theorem select_scale (a w : EReal) :
    Scalar.select (Ideal.cmp .oeq (Ideal.div (Ideal.pow a (Ideal.ofBits .f32 0x3F000000#32)) (Ideal.pow w (Ideal.ofBits .f32 0x3F000000#32))) (Ideal.ofBits .f32 0x00000000#32))
        (Ideal.ofBits .f32 0x3F800000#32)
        (Ideal.div (Ideal.pow a (Ideal.ofBits .f32 0x3F000000#32)) (Ideal.pow w (Ideal.ofBits .f32 0x3F000000#32)))
      = scaleOf (1 / 2) a w := by
  rw [Cert.Consts.ofBits_half, Cert.Consts.ofBits_zero, Cert.Consts.ofBits_one, EReal.coe_one]
  unfold scaleOf Scalar.select
  by_cases h : Ideal.div (Ideal.pow a ((1 / 2 : ℝ) : EReal)) (Ideal.pow w ((1 / 2 : ℝ) : EReal)) = 0
  · rw [if_pos h, if_pos ((cmp_oeq _ _).2 h)]
  · rw [if_neg h, if_neg (fun h' => h ((cmp_oeq _ _).1 h'))]

theorem scaleVec_apply (A Wm : S576.Idx → EReal) (k : Fin 576) :
    scaleVec A Wm (ix1 k) = scaleOf (1 / 2) (A (ix1 k)) (Wm (ix1 k)) := by
  unfold scaleVec
  simp only [select_apply, cmpf_at, hdivf_apply, hpowf_apply, bcast_const]
  exact select_scale _ _

theorem scale6_eq (k : Fin 576) :
    (W6 (F := Ideal) m ρ c (Proc.devRef .tc main_v34) : S576.Idx → EReal) (ix1 k)
      = scaleOf (1 / 2) ((W5 (F := Ideal) m ρ c (Proc.devRef .tc main_v26) : S576.Idx → EReal) (ix1 k))
          ((W5 (F := Ideal) m ρ c (Proc.devRef .tc main_v23) : S576.Idx → EReal) (ix1 k)) :=
  (congrFun (W6_v34 m ρ c) (ix1 k)).trans (scaleVec_apply _ _ k)

theorem W15_v34 : W15 (F := Ideal) m ρ c (Proc.devRef .tc main_v34) = W6 (F := Ideal) m ρ c (Proc.devRef .tc main_v34) :=
  calc W15 (F := Ideal) m ρ c (Proc.devRef .tc main_v34)
    _ = W14 m ρ c (Proc.devRef .tc main_v34) := StableHlo.after_of_writes_sub hostOps1_10 _ hostOps1_10_writes (by decide)
    _ = W13 m ρ c (Proc.devRef .tc main_v34) := StableHlo.after_of_writes_sub hostOps1_9 _ hostOps1_9_writes (by decide)
    _ = W12 m ρ c (Proc.devRef .tc main_v34) := StableHlo.after_of_writes_sub hostOps1_8 _ hostOps1_8_writes (by decide)
    _ = W11 m ρ c (Proc.devRef .tc main_v34) := StableHlo.after_of_writes_sub hostOps1_7 _ hostOps1_7_writes (by decide)
    _ = W10 m ρ c (Proc.devRef .tc main_v34) := StableHlo.after_of_writes_sub hostOps1_6 _ hostOps1_6_writes (by decide)
    _ = W9 m ρ c (Proc.devRef .tc main_v34) := StableHlo.after_of_writes_sub hostOps1_5 _ hostOps1_5_writes (by decide)
    _ = W8 m ρ c (Proc.devRef .tc main_v34) := StableHlo.after_of_writes_sub hostOps1_4 _ hostOps1_4_writes (by decide)
    _ = W7 m ρ c (Proc.devRef .tc main_v34) := StableHlo.after_of_writes_sub hostOps1_3 _ hostOps1_3_writes (by decide)
    _ = W6 m ρ c (Proc.devRef .tc main_v34) := StableHlo.after_of_writes_sub hostOps1_2 _ hostOps1_2_writes (by decide)

/-- The program's smoothing scale of column k, as the second region finds it, is the specification's. -/
theorem scale_eq (hcol : ColHyp m ρ c) (k : Fin 576) :
    (W15 (F := Ideal) m ρ c (Proc.devRef .tc main_v34) : S576.Idx → EReal) (ix1 k) = Cert.Spec.scale (Cin m ρ c) (Win m ρ c) k := by
  rw [W15_v34, scale6_eq, act5_eq m ρ c hcol k, W5_v23, wmax3_eq m ρ c k]
  rfl

/-! ## The activation step -/

/-- The maximum over the columns of (column maximum) / scale, as the host reduces it. -/
abbrev ratioMax (A S : S576.Idx → EReal) : S_.Idx → EReal :=
  Host.reduce (FloatOps.maximumf (F := Ideal) (φ := .f32)) (Host.divf (F := Ideal) (φ := .f32) A S) (constant (F := Ideal) S_ .f32 0xFF800000#32) reducesTo_S576_S_d0 h_S_

/-- The activation step as the host operations spell it: the maximum divided by the word of 127 where it compares greater
    than the word of 0, else the word of 1. -/
abbrev stepVec (A S : S576.Idx → EReal) : S_.Idx → EReal :=
  select
    (cmpf (F := Ideal) (φ := .f32) .ogt (ratioMax A S) (constant (F := Ideal) S_ .f32 0x00000000#32))
    (Host.divf (F := Ideal) (φ := .f32) (ratioMax A S) (constant (F := Ideal) S_ .f32 0x42FE0000#32))
    (constant (F := Ideal) S_ .f32 0x3F800000#32)

/-- Two stretches of host operations compute the step from the two columns they find. -/
theorem after_v39 (V : Valuation τ sig (Elt Ideal)) :
    (StableHlo.after hostOps1_3 (StableHlo.after hostOps1_2 V) (Proc.devRef .tc main_v39) : S_.Idx → EReal)
      = stepVec (V (Proc.devRef .tc main_v26)) (V (Proc.devRef .tc main_v34)) := by
  unfold stepVec ratioMax
  after_results_simp
  simp only [cast_eq, id]

/-- A reduction over the only axis runs over every entry: the maximum over the columns. -/
theorem ratioMax_apply (A S : S576.Idx → EReal) :
    ratioMax A S ix0 = Finset.univ.sup fun k : Fin 576 => Ideal.div (A (ix1 k)) (S (ix1 k)) := by
  unfold ratioMax
  rw [Host.reduce_eq_fold, Finset.filter_true_of_mem (fun i _ => funext fun a => a.elim0)]
  have hb : (constant (F := Ideal) S_ .f32 0xFF800000#32 (Shape.Idx.first h_S_) : EReal) = ⊥ := Cert.Consts.ofBits_neg_inf
  show Finset.fold (fun a b : EReal => a ⊔ b) (constant (F := Ideal) S_ .f32 0xFF800000#32 (Shape.Idx.first h_S_) : EReal)
      (fun i : S576.Idx => Ideal.div (A i) (S i)) (Finset.univ : Finset S576.Idx) = _
  rw [hb]
  show (Finset.univ : Finset S576.Idx).sup (fun i : S576.Idx => Ideal.div (A i) (S i)) = _
  apply le_antisymm
  · refine Finset.sup_le fun i _ => ?_
    rw [eq_ix1 i]
    exact Finset.le_sup (f := fun k : Fin 576 => Ideal.div (A (ix1 k)) (S (ix1 k))) (Finset.mem_univ (i 0 : Fin 576))
  · refine Finset.sup_le fun k _ => ?_
    exact Finset.le_sup (f := fun i : S576.Idx => Ideal.div (A i) (S i)) (Finset.mem_univ (ix1 k))

/-- The comparison GT answers 1 exactly where the first value is the greater. -/
theorem cmp_ogt (x y : EReal) : Ideal.cmp .ogt x y = (1 : BitVec 1) ↔ y < x := by
  unfold Ideal.cmp
  by_cases h : y < x <;> simp [h]

/-- A step from a maximum, in the program's words. -/
theorem select_step (M : EReal) :
    Scalar.select (Ideal.cmp .ogt M (Ideal.ofBits .f32 0x00000000#32)) (Ideal.div M (Ideal.ofBits .f32 0x42FE0000#32)) (Ideal.ofBits .f32 0x3F800000#32)
      = Cert.Spec.step M := by
  rw [Cert.Consts.ofBits_zero, Cert.Consts.ofBits_127, Cert.Consts.ofBits_one]
  unfold Cert.Spec.step stepOf Scalar.select
  by_cases h : (0 : EReal) < M
  · rw [if_pos h, if_pos ((cmp_ogt _ _).2 h)]
  · rw [if_neg h, if_neg (fun h' => h ((cmp_ogt _ _).1 h'))]

theorem stepVec_apply (A S : S576.Idx → EReal) :
    stepVec A S ix0 = Cert.Spec.step (Finset.univ.sup fun k : Fin 576 => Ideal.div (A (ix1 k)) (S (ix1 k))) := by
  rw [← ratioMax_apply]
  unfold stepVec
  simp only [select_apply, cmpf_at, hdivf_apply, const_at]
  exact select_step _

theorem W6_v26 : W6 (F := Ideal) m ρ c (Proc.devRef .tc main_v26) = W5 (F := Ideal) m ρ c (Proc.devRef .tc main_v26) :=
  calc W6 (F := Ideal) m ρ c (Proc.devRef .tc main_v26)
    _ = W5 m ρ c (Proc.devRef .tc main_v26) := StableHlo.after_of_writes_sub hostOps1_1 _ hostOps1_1_writes (by decide)

theorem W15_v39 : W15 (F := Ideal) m ρ c (Proc.devRef .tc main_v39) = W8 (F := Ideal) m ρ c (Proc.devRef .tc main_v39) :=
  calc W15 (F := Ideal) m ρ c (Proc.devRef .tc main_v39)
    _ = W14 m ρ c (Proc.devRef .tc main_v39) := StableHlo.after_of_writes_sub hostOps1_10 _ hostOps1_10_writes (by decide)
    _ = W13 m ρ c (Proc.devRef .tc main_v39) := StableHlo.after_of_writes_sub hostOps1_9 _ hostOps1_9_writes (by decide)
    _ = W12 m ρ c (Proc.devRef .tc main_v39) := StableHlo.after_of_writes_sub hostOps1_8 _ hostOps1_8_writes (by decide)
    _ = W11 m ρ c (Proc.devRef .tc main_v39) := StableHlo.after_of_writes_sub hostOps1_7 _ hostOps1_7_writes (by decide)
    _ = W10 m ρ c (Proc.devRef .tc main_v39) := StableHlo.after_of_writes_sub hostOps1_6 _ hostOps1_6_writes (by decide)
    _ = W9 m ρ c (Proc.devRef .tc main_v39) := StableHlo.after_of_writes_sub hostOps1_5 _ hostOps1_5_writes (by decide)
    _ = W8 m ρ c (Proc.devRef .tc main_v39) := StableHlo.after_of_writes_sub hostOps1_4 _ hostOps1_4_writes (by decide)

/-- The program's activation step, as the second region finds it, is the specification's. -/
theorem stepX_eq (hcol : ColHyp m ρ c) :
    (W15 (F := Ideal) m ρ c (Proc.devRef .tc main_v39) : S_.Idx → EReal) ix0 = Cert.Spec.stepX (Cin m ρ c) (Win m ρ c) := by
  rw [W15_v39]
  refine (congrFun (after_v39 (W6 (F := Ideal) m ρ c)) ix0).trans ?_
  rw [stepVec_apply]
  unfold Cert.Spec.stepX
  refine congrArg Cert.Spec.step (Finset.sup_congr rfl fun k _ => ?_)
  rw [W6_v26, act5_eq m ρ c hcol k, scale6_eq, act5_eq m ρ c hcol k, W5_v23, wmax3_eq m ρ c k]
  rfl

end Cert.KernelIdeal.KernelSteps

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.Ideal.QuantMulValue.lean ====
/-
  What the quantized-matmul region leaves in its output array, entry by entry, at the ideal values.

  The region's body computes, from an activation block, the scale column, the quantization step and the quantized
  weight, one output block: each activation entry is divided by its row's scale and by the step, rounded to the
  nearest integer, clamped to [-127, 127] and multiplied back by the step (quant), and the weight is multiplied
  against the result. This file reads that computation at one entry (pay_apply), says which entries of the operand
  arrays each block holds — the activation and output blocks move together over the 16 × 8 grid, one batch entry and
  one stretch of 2048 positions per point, the other three operands are whole —, and concludes that the blocks the
  128 points write back are the blocks of ONE function of the operand arrays (product), which tile the output array.
  So the array ends as that function (out_eq), and at batch b, output row o, position l it holds
      ∑ k, W(o, k) · quant (X(b, k, l)) (S(k, 0)) (T(0, 0))        (out_apply).
-/
import proofs.«122551_j65360812311363_2_alg».proof.Proof.Gen.KernelIdeal.Launch
import proofs.«122551_j65360812311363_2_alg».proof.Proof.Gen.KernelIdeal.Skeleton
import proofs.«122551_j65360812311363_2_alg».proof.Proof.Gen.KernelIdeal.Points
import proofs.«122551_j65360812311363_2_alg».proof.Proof.Ideal.QuantMul
import proofs.«122551_j65360812311363_2_alg».proof.Proof.LibMatmulPlain
import Idealize.ShloMosaic.Lib.Pipeline.FrameBody
import Idealize.ShloMosaic.Lib.Pipeline.Value
import Idealize.ShloMosaic.Lib.ValueLayout
import Idealize.ShloMosaic.Lib.ValueIdx
import Idealize.ShloMosaic.PureOps.Ideal.Laws
import Idealize.ShloMosaic.Lib.StackMember

set_option maxRecDepth 16384

noncomputable section

namespace Cert.KernelIdeal.QuantMulValue

open Cert.KernelIdeal Cert.KernelIdeal.Gen
open Idealize.ShloMosaic Idealize.ShloMosaic.TcCoe Idealize.ShloMosaic.ValueIdx Idealize.SL.Sem
open Idealize.ShloMosaic.Pipeline (Dat)

/-! ## One entry of the quantized activation -/

/-- The fake-quantized value of one activation entry x with its row's scale s and the quantization step t: x is
    divided by the scale and by the step, rounded to the nearest integer (ties to even), clamped to [-127, 127] and
    multiplied back by the step. The two bounds are kept as the 32-bit words the kernel names. -/
def quant (x s t : EReal) : EReal :=
  min (Ideal.ofBits .f32 0x42FE0000#32)
      (max (Ideal.ofBits .f32 0xC2FE0000#32) (Ideal.liftRound Ideal.roundHalfEven (Ideal.div (Ideal.div x s) t))) * t

/-! ## Reading the broadcasts -/

/-- A column broadcast along the rows' length reads, at (c, j), the column's entry c. -/
theorem bcast_col_apply {α : Type} (x : S576x1.Idx → α) (h : S576x1.Broadcasts S576x2048) (c : Fin 576) (j : Fin 2048) :
    broadcastTo S576x2048 x h (ix2 c j) = x (ix2 c 0) :=
  broadcastTo_apply x h _ _ (fun a => by
    match a with
    | ⟨0, _⟩ => rfl
    | ⟨1, _⟩ => rfl)

/-- A single value broadcast to a matrix reads that value everywhere. -/
theorem bcast_one_apply {α : Type} (x : S1x1.Idx → α) (h : S1x1.Broadcasts S576x2048) (c : Fin 576) (j : Fin 2048) :
    broadcastTo S576x2048 x h (ix2 c j) = x (ix2 0 0) :=
  broadcastTo_apply x h _ _ (fun a => by
    match a with
    | ⟨0, _⟩ => rfl
    | ⟨1, _⟩ => rfl)

/-- Rounding to the nearest integer acts entry by entry. -/
theorem roundeven_apply {s : Shape} {φ : FTy} (a : FVec Ideal s φ) (i : s.Idx) :
    roundeven a i = Ideal.liftRound Ideal.roundHalfEven (a i) := rfl

/-! ## The payload at an index -/

/-- The body's payload at output row o and column j of its block: the weight's row o against column j of the
    quantized activation block, summed over the 576 contracted rows. -/
theorem pay_apply (x0 : Vec Ideal S1x576x2048 .f32) (x1 : Vec Ideal S576x1 .f32) (x2 : Vec Ideal S1x1 .f32)
    (x3 : Vec Ideal S128x576 .bf16) (u : Fin 1) (o : Fin 128) (j : Fin 2048) :
    k1_pay1 x0 x1 x2 x3 (ix3 u o j)
      = ∑ k : Fin 576, x3 (ix2 o k) * quant (x0 (ix3 (0 : Fin 1) k j)) (x1 (ix2 k 0)) (x2 (ix2 0 0)) := by
  unfold k1_pay1
  rw [shapeCast_ab_1ab_apply]
  simp only [shapeCast_self]
  refine ((show _ = matmul (DotDims.plain 128 576 2048) none _ _
      (constant (F := Ideal) ⟨2, ![128, 2048]⟩ .f32 0x00000000#32) (ix2 o j) from rfl).trans
    (Cert.LibMatmulPlain.matmul_plain_zero_apply none _ _ o j)).trans ?_
  refine Finset.sum_congr rfl fun k _ => ?_
  congr 1
  simp only [truncf_apply, mulf_apply, minimumf_apply, maximumf_apply, broadcast_apply, roundeven_apply, divf_apply,
    shapeCast_1ab_ab_apply, bcast_col_apply, bcast_one_apply]
  rfl

/-! ## The output array as one function of the operand arrays -/

/-- What the region leaves in its output array, entry by entry, from the four operand arrays: at batch b, output row o
    and position l, the weight's row o against the quantized activations of batch b at position l. -/
def product (X : S16x576x16384.Idx → EReal) (S : S576x1.Idx → EReal) (T : S1x1.Idx → EReal) (W : S128x576.Idx → EReal) :
    S16x128x16384.Idx → EReal :=
  fun i => ∑ k : Fin 576, W (ix2 (i 1 : Fin 128) k) * quant (X (ix3 (i 0 : Fin 16) k (i 2 : Fin 16384))) (S (ix2 k 0)) (T (ix2 0 0))

/-- One entry of a block: if the four blocks hold the operand arrays' entries that entry i of the output needs — the
    activation column, every scale, the step, the weight row — then the payload at the entry's place y in the block
    is the product at i. -/
theorem pay_eq_product (x0 : Vec Ideal S1x576x2048 .f32) (x1 : Vec Ideal S576x1 .f32) (x2 : Vec Ideal S1x1 .f32)
    (x3 : Vec Ideal S128x576 .bf16)
    (X : S16x576x16384.Idx → EReal) (S : S576x1.Idx → EReal) (T : S1x1.Idx → EReal) (W : S128x576.Idx → EReal)
    (y : S1x128x2048.Idx) (i : S16x128x16384.Idx)
    (hx : ∀ k : Fin 576, x0 (ix3 (0 : Fin 1) k (y 2 : Fin 2048)) = X (ix3 (i 0 : Fin 16) k (i 2 : Fin 16384)))
    (hs : ∀ k : Fin 576, x1 (ix2 k 0) = S (ix2 k 0))
    (ht : x2 (ix2 0 0) = T (ix2 0 0))
    (hw : ∀ k : Fin 576, x3 (ix2 (y 1 : Fin 128) k) = W (ix2 (i 1 : Fin 128) k)) :
    k1_pay1 x0 x1 x2 x3 y = product X S T W i := by
  have hy : y = ix3 (y 0 : Fin 1) (y 1 : Fin 128) (y 2 : Fin 2048) := eq_ix3 (n0 := 1) (n1 := 128) (n2 := 2048) y
  refine (congrArg (k1_pay1 x0 x1 x2 x3) hy).trans ((pay_apply x0 x1 x2 x3 (y 0) (y 1) (y 2)).trans ?_)
  unfold product
  refine Finset.sum_congr rfl fun k _ => ?_
  rw [hs k, ht]
  exact congrArg₂ (fun a b => a * quant b (S (ix2 k 0)) (T (ix2 0 0))) (hw k) (hx k)

/-! ## Where the blocks sit -/

/-- The index maps over the 128 grid points, decided: the output block and the activation block move together,
    one batch entry and one stretch of 2048 positions at a time, point t at batch t / 8 and stretch t % 8; the other
    three blocks never move. -/
theorem index_facts : ∀ t : Fin cfg1.N,
    win1_4.index t (0 : Fin 3) = t.val / 8 ∧ win1_4.index t (1 : Fin 3) = 0 ∧ win1_4.index t (2 : Fin 3) = t.val % 8
    ∧ win1_0.index t (0 : Fin 3) = t.val / 8 ∧ win1_0.index t (1 : Fin 3) = 0 ∧ win1_0.index t (2 : Fin 3) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

/-- The four operand arrays as the region finds them, each a function on its index type: the activations
    [16, 576, 16384], the scale column [576, 1], the step [1, 1], the quantized weight [128, 576]. -/
abbrev actArr (c : Dev nD) : S16x576x16384.Idx → EReal := V c (Pipeline.arrRef spec1 0)
abbrev scaleArr (c : Dev nD) : S576x1.Idx → EReal := V c (Pipeline.arrRef spec1 1)
abbrev stepArr (c : Dev nD) : S1x1.Idx → EReal := V c (Pipeline.arrRef spec1 2)
abbrev weightArr (c : Dev nD) : S128x576.Idx → EReal := V c (Pipeline.arrRef spec1 3)

/-- Their product. -/
abbrev productAt (c : Dev nD) : S16x128x16384.Idx → EReal :=
  product (actArr V c) (scaleArr V c) (stepArr V c) (weightArr V c)

/-- What grid point t writes back is block t of the product. -/
theorem flushed_eq (c : Dev nD) (t : Fin cfg1.N) :
    (QuantMul.dat (F := Ideal) V c).flushed 4 t = ((cfg1.win 4).blk t).view.read (Elt Ideal) (productAt V c) := by
  show (cfg1.win 4).cut (grid1.coords t) ((QuantMul.dat V c).after 4 t) = _
  rw [QuantMul.dat_after_out_eq]
  obtain ⟨e40, e41, e42, e00, e01, e02, e10, e11, e20, e21, e30, e31⟩ := index_facts t
  funext y
  show k1_pay1 (QuantMul.blk V c 0 t) (QuantMul.blk V c 1 t) (QuantMul.blk V c 2 t) (QuantMul.blk V c 3 t) y
    = productAt V c (((cfg1.win 4).blk t).view.emb y)
  refine pay_eq_product _ _ _ _ _ _ _ _ y (((cfg1.win 4).blk t).view.emb y) ?_ ?_ ?_ ?_
  · -- the activation column: batch and stretch move with the output block, the 576 rows are whole
    intro k
    show V c (Pipeline.arrRef spec1 0) (((cfg1.win 0).blk t).view.emb (ix3 (0 : Fin 1) k (y 2 : Fin 2048))) = _
    refine congrArg _ ?_
    funext a; apply Fin.ext
    match a with
    | ⟨0, _⟩ =>
      show win1_0.index t (0 : Fin 3) * 1 + 1 * 0 = win1_4.index t (0 : Fin 3) * 1 + 1 * (y 0).val
      have hy0 : (y 0).val < 1 := (y 0).isLt
      omega
    | ⟨1, _⟩ => show win1_0.index t (1 : Fin 3) * 576 + 1 * k.val = k.val; omega
    | ⟨2, _⟩ =>
      show win1_0.index t (2 : Fin 3) * 2048 + 1 * (y 2).val = win1_4.index t (2 : Fin 3) * 2048 + 1 * (y 2).val
      omega
  · -- the scale column is whole
    intro k
    show V c (Pipeline.arrRef spec1 1) (((cfg1.win 1).blk t).view.emb (ix2 k (0 : Fin 1))) = _
    refine congrArg _ ?_
    funext a; apply Fin.ext
    match a with
    | ⟨0, _⟩ => show win1_1.index t (0 : Fin 2) * 576 + 1 * k.val = k.val; omega
    | ⟨1, _⟩ => show win1_1.index t (1 : Fin 2) * 1 + 1 * 0 = 0; omega
  · -- the step is whole
    show V c (Pipeline.arrRef spec1 2) (((cfg1.win 2).blk t).view.emb (ix2 (0 : Fin 1) (0 : Fin 1))) = _
    refine congrArg _ ?_
    funext a; apply Fin.ext
    match a with
    | ⟨0, _⟩ => show win1_2.index t (0 : Fin 2) * 1 + 1 * 0 = 0; omega
    | ⟨1, _⟩ => show win1_2.index t (1 : Fin 2) * 1 + 1 * 0 = 0; omega
  · -- the weight is whole; the output block holds all 128 rows
    intro k
    show V c (Pipeline.arrRef spec1 3) (((cfg1.win 3).blk t).view.emb (ix2 (y 1 : Fin 128) k)) = _
    refine congrArg _ ?_
    funext a; apply Fin.ext
    match a with
    | ⟨0, _⟩ =>
      show win1_3.index t (0 : Fin 2) * 128 + 1 * (y 1).val = win1_4.index t (1 : Fin 3) * 128 + 1 * (y 1).val
      omega
    | ⟨1, _⟩ => show win1_3.index t (1 : Fin 2) * 576 + 1 * k.val = k.val; omega

/-! ## The blocks cover the array -/

/-- An entry of the output array lies in point t's block when each coordinate lies in the block's range. -/
theorem mem_block (t : Fin cfg1.N) (i : S16x128x16384.Idx) :
    i ∈ ((cfg1.win 4).blk t).view.set ↔ ∀ a : Fin 3, win1_4.index t a * S1x128x2048.size a ≤ (i a).val
      ∧ (i a).val < win1_4.index t a * S1x128x2048.size a + S1x128x2048.size a := by
  show i ∈ ((View.whole main_v57).slice (win1_4.rect t)).set ↔ _
  rw [View.set_slice_whole, Rect.mem_set_unit]
  exact Iff.rfl

/-- Every entry is written back by some point: entry (b, o, l) by the point of batch b and stretch l / 2048. -/
theorem covered (i : S16x128x16384.Idx) :
    ∃ t : Fin cfg1.N, (cfg1.win 4).flush t = true ∧ i ∈ ((cfg1.win 4).blk t).view.set := by
  have h0 : (i 0).val < 16 := (i 0).isLt
  have h1 : (i 1).val < 128 := (i 1).isLt
  have h2 : (i 2).val < 16384 := (i 2).isLt
  have hN : (i 0).val * 8 + (i 2).val / 2048 < cfg1.N := by show _ < grid1.N; rw [N_1]; omega
  obtain ⟨e40, e41, e42, -⟩ := index_facts ⟨(i 0).val * 8 + (i 2).val / 2048, hN⟩
  have e40' : win1_4.index ⟨(i 0).val * 8 + (i 2).val / 2048, hN⟩ (0 : Fin 3) = ((i 0).val * 8 + (i 2).val / 2048) / 8 := e40
  have e42' : win1_4.index ⟨(i 0).val * 8 + (i 2).val / 2048, hN⟩ (2 : Fin 3) = ((i 0).val * 8 + (i 2).val / 2048) % 8 := e42
  refine ⟨⟨(i 0).val * 8 + (i 2).val / 2048, hN⟩, flush1_4 _, ?_⟩
  rw [mem_block]
  intro a
  match a with
  | ⟨0, _⟩ =>
    show win1_4.index _ (0 : Fin 3) * 1 ≤ (i 0).val ∧ (i 0).val < win1_4.index _ (0 : Fin 3) * 1 + 1
    omega
  | ⟨1, _⟩ =>
    show win1_4.index _ (1 : Fin 3) * 128 ≤ (i 1).val ∧ (i 1).val < win1_4.index _ (1 : Fin 3) * 128 + 128
    omega
  | ⟨2, _⟩ =>
    show win1_4.index _ (2 : Fin 3) * 2048 ≤ (i 2).val ∧ (i 2).val < win1_4.index _ (2 : Fin 3) * 2048 + 2048
    omega

/-! ## The output array after the region -/

/-- The region's output array ends as the product of the operand arrays it found. -/
theorem out_eq (c : Dev nD) : (QuantMul.dat (F := Ideal) V c).arrAt 4 cfg1.N = productAt V c :=
  (QuantMul.dat (F := Ideal) V c).arrAt_eq_of_cover 4 (productAt V c) (fun t _ => flushed_eq V c t) covered

/-- Entry by entry: at batch b, output row o, position l, the weight's row o against the quantized activations of
    batch b at position l. -/
theorem out_apply (c : Dev nD) (b : Fin 16) (o : Fin 128) (l : Fin 16384) :
    ((QuantMul.dat (F := Ideal) V c).arrAt 4 cfg1.N : S16x128x16384.Idx → EReal) (ix3 b o l)
      = ∑ k : Fin 576, weightArr V c (ix2 o k)
          * quant (actArr V c (ix3 b k l)) (scaleArr V c (ix2 k 0)) (stepArr V c (ix2 0 0)) := by
  rw [out_eq]
  rfl

end Cert.KernelIdeal.QuantMulValue

end
-- ==== Proof.Ideal.KernelOut.lean ====
/-
  The kernel's result, entry by entry, as the specified function of the patch array and the flattened weight.

  After the second region the program only reshapes: the result at (b, o, y, z) is the region's output array at
  position y · 128 + z. That array is, entry by entry, the region's weight operand against its quantized activation
  operand. The activation operand is the patch array, which nothing has written since the first region was entered;
  the scale operand and the step operand are the scale and the activation step, reshaped to a column and to a 1 × 1
  array, and not written since. So once the scale, the activation step and the quantized weight the run computes are
  known to be the specified ones, the result is the specified sum.
-/
import proofs.«122551_j65360812311363_2_alg».proof.Proof.Ideal.Run
import proofs.«122551_j65360812311363_2_alg».proof.Proof.Ideal.QuantMulValue
import proofs.«122551_j65360812311363_2_alg».proof.Proof.Spec
import proofs.«122551_j65360812311363_2_alg».proof.Proof.Gen.KernelIdeal.Regions
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Reduce
import Idealize.ShloMosaic.PureOps.Ideal.Laws

set_option maxRecDepth 16384

noncomputable section

namespace Cert.KernelIdeal.KernelOut

open Cert.KernelIdeal Cert.KernelIdeal.Gen Cert.KernelIdeal.Run
open Idealize.ShloMosaic Idealize.ShloMosaic.TcCoe Idealize.ShloMosaic.ValueIdx Idealize.SL.Sem
open Idealize.ShloMosaic.Pipeline (Dat)
open Cert.LibFakeQuant Cert.LibSmoothQuant

variable (m : (ℓ : Loc nD τ sig) → Buf (Elt Ideal) ℓ) (ρ : Dev nD → PrngReg) (c : Dev nD)

/-- The two arrays everything is a function of, as the first region finds them: the patch array [16, 576, 16384] and
    the flattened weight [128, 576]. How they come from the arguments is never looked at here. -/
abbrev C : Cert.Spec.SC.Idx → EReal := W3 (F := Ideal) m ρ c (Proc.devRef .tc main_v20)
abbrev Wf : Cert.Spec.SW.Idx → EReal := W3 (F := Ideal) m ρ c (Proc.devRef .tc main_v21)

/-! ## The result buffer is the second region's output array, reshaped -/

/-- The last host operation only reshapes: the result at (b, o, y, z) is the region's output at position
    y · 128 + z. -/
theorem result_apply (b : Fin 16) (o : Fin 128) (y z : Fin 128) :
    (W17 (F := Ideal) m ρ c (Proc.devRef .tc main_v58) : S16x128x128x128.Idx → EReal) (ix4 b o y z)
      = (W16 (F := Ideal) m ρ c (Proc.devRef .tc main_v57) : S16x128x16384.Idx → EReal)
          (ix3 b o (⟨y.val * 128 + z.val, by omega⟩ : Fin 16384)) := by
  show StableHlo.after hostOps2 (W16 (F := Ideal) m ρ c) (Proc.devRef .tc main_v58) (ix4 b o y z) = _
  after_results
  show shapeCast S16x128x128x128 (W16 (F := Ideal) m ρ c (Proc.devRef .tc main_v57) : S16x128x16384.Idx → EReal) _ (ix4 b o y z) = _
  refine shapeCast_apply _ _ _ _ ?_
  show (S16x128x16384.rowMajor (ix3 b o (⟨y.val * 128 + z.val, by omega⟩ : Fin 16384))).val
    = (S16x128x128x128.rowMajor (ix4 b o y z)).val
  rw [Shape.rowMajor_val_three, Shape.rowMajor_val_four]
  show (b.val * 128 + o.val) * 16384 + (y.val * 128 + z.val) = ((b.val * 128 + o.val) * 128 + y.val) * 128 + z.val
  omega

/-- The region's output array is what its write-backs leave. -/
theorem region_out :
    (W16 (F := Ideal) m ρ c (Proc.devRef .tc main_v57) : S16x128x16384.Idx → EReal)
      = (QuantMul.dat (F := Ideal) (V15 m ρ) c).arrAt 4 cfg1.N :=
  W16_arr m ρ c 4

/-! ## What has not changed since the first region was entered -/

/-- The patch array is an input of both regions and no host operation writes it. -/
theorem patches_kept : (W15 (F := Ideal) m ρ c (Proc.devRef .tc main_v20) : Cert.Spec.SC.Idx → EReal) = C m ρ c :=
  calc W15 (F := Ideal) m ρ c (Proc.devRef .tc main_v20)
    _ = W14 m ρ c (Proc.devRef .tc main_v20) := StableHlo.after_of_writes_sub hostOps1_10 _ hostOps1_10_writes (by decide)
    _ = W13 m ρ c (Proc.devRef .tc main_v20) := StableHlo.after_of_writes_sub hostOps1_9 _ hostOps1_9_writes (by decide)
    _ = W12 m ρ c (Proc.devRef .tc main_v20) := StableHlo.after_of_writes_sub hostOps1_8 _ hostOps1_8_writes (by decide)
    _ = W11 m ρ c (Proc.devRef .tc main_v20) := StableHlo.after_of_writes_sub hostOps1_7 _ hostOps1_7_writes (by decide)
    _ = W10 m ρ c (Proc.devRef .tc main_v20) := StableHlo.after_of_writes_sub hostOps1_6 _ hostOps1_6_writes (by decide)
    _ = W9 m ρ c (Proc.devRef .tc main_v20) := StableHlo.after_of_writes_sub hostOps1_5 _ hostOps1_5_writes (by decide)
    _ = W8 m ρ c (Proc.devRef .tc main_v20) := StableHlo.after_of_writes_sub hostOps1_4 _ hostOps1_4_writes (by decide)
    _ = W7 m ρ c (Proc.devRef .tc main_v20) := StableHlo.after_of_writes_sub hostOps1_3 _ hostOps1_3_writes (by decide)
    _ = W6 m ρ c (Proc.devRef .tc main_v20) := StableHlo.after_of_writes_sub hostOps1_2 _ hostOps1_2_writes (by decide)
    _ = W5 m ρ c (Proc.devRef .tc main_v20) := StableHlo.after_of_writes_sub hostOps1_1 _ hostOps1_1_writes (by decide)
    _ = W4 m ρ c (Proc.devRef .tc main_v20) := StableHlo.after_of_writes_sub hostOps1 _ hostOps1_writes (by decide)
    _ = (ColMax.dat (F := Ideal) (V3 m ρ) c).arrAt 0 cfg0.N := W4_arr m ρ c 0
    _ = C m ρ c := ((ColMax.dat (F := Ideal) (V3 m ρ) c).arrAt_in 0 rfl _).trans (ColMax.dat_A (V3 m ρ) c 0)

/-- Nothing after the select that makes the scale writes it. -/
theorem scale_kept : (W15 (F := Ideal) m ρ c (Proc.devRef .tc main_v34) : S576.Idx → EReal) = W8 (F := Ideal) m ρ c (Proc.devRef .tc main_v34) :=
  calc W15 (F := Ideal) m ρ c (Proc.devRef .tc main_v34)
    _ = W14 m ρ c (Proc.devRef .tc main_v34) := StableHlo.after_of_writes_sub hostOps1_10 _ hostOps1_10_writes (by decide)
    _ = W13 m ρ c (Proc.devRef .tc main_v34) := StableHlo.after_of_writes_sub hostOps1_9 _ hostOps1_9_writes (by decide)
    _ = W12 m ρ c (Proc.devRef .tc main_v34) := StableHlo.after_of_writes_sub hostOps1_8 _ hostOps1_8_writes (by decide)
    _ = W11 m ρ c (Proc.devRef .tc main_v34) := StableHlo.after_of_writes_sub hostOps1_7 _ hostOps1_7_writes (by decide)
    _ = W10 m ρ c (Proc.devRef .tc main_v34) := StableHlo.after_of_writes_sub hostOps1_6 _ hostOps1_6_writes (by decide)
    _ = W9 m ρ c (Proc.devRef .tc main_v34) := StableHlo.after_of_writes_sub hostOps1_5 _ hostOps1_5_writes (by decide)
    _ = W8 m ρ c (Proc.devRef .tc main_v34) := StableHlo.after_of_writes_sub hostOps1_4 _ hostOps1_4_writes (by decide)

/-- Nothing after the select that makes the activation step writes it. -/
theorem stepX_kept : (W15 (F := Ideal) m ρ c (Proc.devRef .tc main_v39) : S_.Idx → EReal) = W8 (F := Ideal) m ρ c (Proc.devRef .tc main_v39) :=
  calc W15 (F := Ideal) m ρ c (Proc.devRef .tc main_v39)
    _ = W14 m ρ c (Proc.devRef .tc main_v39) := StableHlo.after_of_writes_sub hostOps1_10 _ hostOps1_10_writes (by decide)
    _ = W13 m ρ c (Proc.devRef .tc main_v39) := StableHlo.after_of_writes_sub hostOps1_9 _ hostOps1_9_writes (by decide)
    _ = W12 m ρ c (Proc.devRef .tc main_v39) := StableHlo.after_of_writes_sub hostOps1_8 _ hostOps1_8_writes (by decide)
    _ = W11 m ρ c (Proc.devRef .tc main_v39) := StableHlo.after_of_writes_sub hostOps1_7 _ hostOps1_7_writes (by decide)
    _ = W10 m ρ c (Proc.devRef .tc main_v39) := StableHlo.after_of_writes_sub hostOps1_6 _ hostOps1_6_writes (by decide)
    _ = W9 m ρ c (Proc.devRef .tc main_v39) := StableHlo.after_of_writes_sub hostOps1_5 _ hostOps1_5_writes (by decide)
    _ = W8 m ρ c (Proc.devRef .tc main_v39) := StableHlo.after_of_writes_sub hostOps1_4 _ hostOps1_4_writes (by decide)

/-- The scale as a column, once made, is not written again. -/
theorem scaleCol_kept : (W15 (F := Ideal) m ρ c (Proc.devRef .tc main_v41) : S576x1.Idx → EReal) = W9 (F := Ideal) m ρ c (Proc.devRef .tc main_v41) :=
  calc W15 (F := Ideal) m ρ c (Proc.devRef .tc main_v41)
    _ = W14 m ρ c (Proc.devRef .tc main_v41) := StableHlo.after_of_writes_sub hostOps1_10 _ hostOps1_10_writes (by decide)
    _ = W13 m ρ c (Proc.devRef .tc main_v41) := StableHlo.after_of_writes_sub hostOps1_9 _ hostOps1_9_writes (by decide)
    _ = W12 m ρ c (Proc.devRef .tc main_v41) := StableHlo.after_of_writes_sub hostOps1_8 _ hostOps1_8_writes (by decide)
    _ = W11 m ρ c (Proc.devRef .tc main_v41) := StableHlo.after_of_writes_sub hostOps1_7 _ hostOps1_7_writes (by decide)
    _ = W10 m ρ c (Proc.devRef .tc main_v41) := StableHlo.after_of_writes_sub hostOps1_6 _ hostOps1_6_writes (by decide)
    _ = W9 m ρ c (Proc.devRef .tc main_v41) := StableHlo.after_of_writes_sub hostOps1_5 _ hostOps1_5_writes (by decide)

/-- The activation step as a 1 × 1 array, once made, is not written again. -/
theorem stepCell_kept : (W15 (F := Ideal) m ρ c (Proc.devRef .tc main_v40) : S1x1.Idx → EReal) = W9 (F := Ideal) m ρ c (Proc.devRef .tc main_v40) :=
  calc W15 (F := Ideal) m ρ c (Proc.devRef .tc main_v40)
    _ = W14 m ρ c (Proc.devRef .tc main_v40) := StableHlo.after_of_writes_sub hostOps1_10 _ hostOps1_10_writes (by decide)
    _ = W13 m ρ c (Proc.devRef .tc main_v40) := StableHlo.after_of_writes_sub hostOps1_9 _ hostOps1_9_writes (by decide)
    _ = W12 m ρ c (Proc.devRef .tc main_v40) := StableHlo.after_of_writes_sub hostOps1_8 _ hostOps1_8_writes (by decide)
    _ = W11 m ρ c (Proc.devRef .tc main_v40) := StableHlo.after_of_writes_sub hostOps1_7 _ hostOps1_7_writes (by decide)
    _ = W10 m ρ c (Proc.devRef .tc main_v40) := StableHlo.after_of_writes_sub hostOps1_6 _ hostOps1_6_writes (by decide)
    _ = W9 m ρ c (Proc.devRef .tc main_v40) := StableHlo.after_of_writes_sub hostOps1_5 _ hostOps1_5_writes (by decide)

/-! ## The two reshapes before the second region, read at an arbitrary entry valuation -/

section Reads
variable (U : Valuation τ sig (Elt Ideal))

/-- The buffers these reads name, each as a function on its index type: the scale, the activation step, the scale
    as a column, the step as a 1 × 1 array. -/
abbrev bufScale : FVec Ideal S576 .f32 := U (Proc.devRef .tc main_v34)
abbrev bufStepX : FVec Ideal S_ .f32 := U (Proc.devRef .tc main_v39)
abbrev bufScaleCol : FVec Ideal S576x1 .f32 := U (Proc.devRef .tc main_v41)
abbrev bufStepCell : FVec Ideal S1x1 .f32 := U (Proc.devRef .tc main_v40)

/-- The scale reshaped to a column reads the scale. -/
theorem scaleCol_of (k : Fin 576) :
    bufScaleCol (StableHlo.after hostOps1_4 U) (ix2 k (0 : Fin 1)) = bufScale U (ix1 k) := by
  show StableHlo.after hostOps1_4 U (Proc.devRef .tc main_v41) (ix2 k (0 : Fin 1)) = _
  after_results
  show shapeCast S576x1 (bufScale U) _ (ix2 k (0 : Fin 1)) = _
  refine shapeCast_apply _ _ _ _ ?_
  show (S576.rowMajor (ix1 k)).val = (S576x1.rowMajor (ix2 k (0 : Fin 1))).val
  rw [Shape.rowMajor_val_one, Shape.rowMajor_val_two]
  show k.val = k.val * 1 + 0
  omega

/-- The activation step reshaped to 1 × 1 reads the step. -/
theorem stepCell_of :
    bufStepCell (StableHlo.after hostOps1_4 U) (ix2 (0 : Fin 1) (0 : Fin 1)) = bufStepX U ix0 := by
  show StableHlo.after hostOps1_4 U (Proc.devRef .tc main_v40) (ix2 (0 : Fin 1) (0 : Fin 1)) = _
  after_results
  show shapeCast S1x1 (bufStepX U) _ (ix2 (0 : Fin 1) (0 : Fin 1)) = _
  refine shapeCast_apply _ _ _ _ ?_
  show (S_.rowMajor ix0).val = (S1x1.rowMajor (ix2 (0 : Fin 1) (0 : Fin 1))).val
  rw [Shape.rowMajor_val_two]
  have h : (S_.rowMajor ix0).val < 1 := (S_.rowMajor ix0).isLt
  show _ = 0 * 1 + 0
  omega

end Reads

/-! ## The second region's operands in the kernel's run -/

/-- The scale, the activation step and the quantized weight as the second region finds them. -/
abbrev scaleBuf : FVec Ideal S576 .f32 := W15 (F := Ideal) m ρ c (Proc.devRef .tc main_v34)
abbrev stepXBuf : FVec Ideal S_ .f32 := W15 (F := Ideal) m ρ c (Proc.devRef .tc main_v39)
abbrev qweightBuf : FVec Ideal S128x576 .bf16 := W15 (F := Ideal) m ρ c (Proc.devRef .tc main_v56)

/-- The activation operand is the patch array. -/
theorem act_at (b : Fin 16) (k : Fin 576) (l : Fin 16384) :
    QuantMulValue.actArr (V15 (F := Ideal) m ρ) c (ix3 b k l) = C m ρ c (ix3 b k l) :=
  congrFun (patches_kept m ρ c) _

/-- The scale operand is the scale, as a column. -/
theorem scaleCol_at (k : Fin 576) :
    QuantMulValue.scaleArr (V15 (F := Ideal) m ρ) c (ix2 k (0 : Fin 1)) = scaleBuf m ρ c (ix1 k) :=
  calc QuantMulValue.scaleArr (V15 (F := Ideal) m ρ) c (ix2 k (0 : Fin 1))
    _ = bufScaleCol (W9 (F := Ideal) m ρ c) (ix2 k (0 : Fin 1)) := congrFun (scaleCol_kept m ρ c) _
    _ = bufScale (W8 (F := Ideal) m ρ c) (ix1 k) := scaleCol_of (W8 (F := Ideal) m ρ c) k
    _ = scaleBuf m ρ c (ix1 k) := (congrFun (scale_kept m ρ c) _).symm

/-- The step operand is the activation step. -/
theorem stepCell_at :
    QuantMulValue.stepArr (V15 (F := Ideal) m ρ) c (ix2 (0 : Fin 1) (0 : Fin 1)) = stepXBuf m ρ c ix0 :=
  calc QuantMulValue.stepArr (V15 (F := Ideal) m ρ) c (ix2 (0 : Fin 1) (0 : Fin 1))
    _ = bufStepCell (W9 (F := Ideal) m ρ c) (ix2 (0 : Fin 1) (0 : Fin 1)) := congrFun (stepCell_kept m ρ c) _
    _ = bufStepX (W8 (F := Ideal) m ρ c) ix0 := stepCell_of (W8 (F := Ideal) m ρ c)
    _ = stepXBuf m ρ c ix0 := (congrFun (stepX_kept m ρ c) _).symm

/-! ## The result -/

/-- The region's sum at batch b, output row o, position l is the specified one, given that the scale, the activation
    step and the quantized weight the run computes are the specified ones. -/
theorem region_sum
    (hscale : ∀ k : Fin 576, scaleBuf m ρ c (ix1 k) = Cert.Spec.scale (C m ρ c) (Wf m ρ c) k)
    (hstepX : stepXBuf m ρ c ix0 = Cert.Spec.stepX (C m ρ c) (Wf m ρ c))
    (hqW : ∀ (o : Fin 128) (k : Fin 576), qweightBuf m ρ c (ix2 o k) = Cert.Spec.qW (C m ρ c) (Wf m ρ c) o k)
    (b : Fin 16) (o : Fin 128) (l : Fin 16384) :
    (∑ k : Fin 576, QuantMulValue.weightArr (V15 (F := Ideal) m ρ) c (ix2 o k)
        * QuantMulValue.quant (QuantMulValue.actArr (V15 (F := Ideal) m ρ) c (ix3 b k l))
            (QuantMulValue.scaleArr (V15 (F := Ideal) m ρ) c (ix2 k (0 : Fin 1)))
            (QuantMulValue.stepArr (V15 (F := Ideal) m ρ) c (ix2 (0 : Fin 1) (0 : Fin 1))))
      = Cert.Spec.out (C m ρ c) (Wf m ρ c) b o l := by
  unfold Cert.Spec.out
  refine Finset.sum_congr rfl fun k _ => ?_
  have hq : QuantMulValue.weightArr (V15 (F := Ideal) m ρ) c (ix2 o k) = Cert.Spec.qW (C m ρ c) (Wf m ρ c) o k :=
    hqW o k
  rw [hq, act_at, scaleCol_at, stepCell_at, hscale, hstepX]
  refine congrArg (Cert.Spec.qW (C m ρ c) (Wf m ρ c) o k * ·) ?_
  unfold Cert.Spec.qX Cert.Spec.q Cert.LibSmoothQuant.quant QuantMulValue.quant Cert.Spec.X
  rw [Cert.Consts.ofBits_127, Cert.Consts.ofBits_neg127]

/-- The kernel's result, entry by entry, is the specified function of the patch array and the flattened weight, under
    the same three facts. -/
theorem out_eq
    (hscale : ∀ k : Fin 576, scaleBuf m ρ c (ix1 k) = Cert.Spec.scale (C m ρ c) (Wf m ρ c) k)
    (hstepX : stepXBuf m ρ c ix0 = Cert.Spec.stepX (C m ρ c) (Wf m ρ c))
    (hqW : ∀ (o : Fin 128) (k : Fin 576), qweightBuf m ρ c (ix2 o k) = Cert.Spec.qW (C m ρ c) (Wf m ρ c) o k)
    (b : Fin 16) (o : Fin 128) (y z : Fin 128) :
    (W17 (F := Ideal) m ρ c (Proc.devRef .tc main_v58) : S16x128x128x128.Idx → EReal) (ix4 b o y z)
      = Cert.Spec.out (C m ρ c) (Wf m ρ c) b o ⟨y.val * 128 + z.val, by omega⟩ :=
  ((result_apply m ρ c b o y z).trans ((congrFun (region_out m ρ c) _).trans
    (QuantMulValue.out_apply (V15 (F := Ideal) m ρ) c b o _))).trans
    (region_sum m ρ c hscale hstepX hqW b o _)

end Cert.KernelIdeal.KernelOut

end
-- ==== Proof.Ideal.KernelWeight.lean ====
/-
  The host operations that quantize the weight, read at the ideal values: given the smoothing scale, the weight step
  and the quantized weight the second region is handed are the specification's.
-/
import proofs.«122551_j65360812311363_2_alg».proof.Proof.Ideal.KernelSteps

set_option maxRecDepth 16384
set_option Elab.async false

noncomputable section

namespace Cert.KernelIdeal.KernelWeight

open Cert.KernelIdeal Cert.KernelIdeal.Gen Cert.KernelIdeal.Run Cert.KernelIdeal.KernelSteps
open Idealize.ShloMosaic Idealize.ShloMosaic.TcCoe Idealize.ShloMosaic.ValueIdx Idealize.SL.Sem
open Cert.LibFakeQuant Cert.LibSmoothQuant

variable (m : (ℓ : Loc nD τ sig) → Buf (Elt Ideal) ℓ) (ρ : Dev nD → PrngReg) (c : Dev nD)

/-- The smoothing scale, as the second region finds it, is the specification's. -/
abbrev ScaleHyp : Prop :=
  ∀ k : Fin 576, (W15 (F := Ideal) m ρ c (Proc.devRef .tc main_v34) : S576.Idx → EReal) (ix1 k) = Cert.Spec.scale (Cin m ρ c) (Win m ρ c) k

/-! ## Pointwise reads -/

theorem hroundeven_apply {s : Shape} (x : FVec Ideal s .f32) (i : s.Idx) :
    Host.roundeven x i = Ideal.liftRound Ideal.roundHalfEven (x i) := rfl

/-- A single value broadcast to the weight's shape reads that value everywhere. -/
theorem bcast0_apply {α : Type} (T : S_.Idx → α) (i : S128x576.Idx) :
    broadcastInDim S128x576 ![] bcast_S_S128x576 T i = T ix0 :=
  congrArg T (funext fun a => a.elim0)

/-! ## The weight times the scale -/

/-- The scale row broadcast down the 128 output channels, times the weight. -/
abbrev wsVec (Wn : S128x576.Idx → EReal) (S : S576.Idx → EReal) : S128x576.Idx → EReal :=
  mulf (F := Ideal) (φ := .f32) Wn
    (broadcastInDim S128x576 ![0, 1] bcast_S1x576_S128x576_0_1 (broadcastInDim S1x576 ![1] bcast_S576_S1x576_1 S))

theorem after_v44 (V : Valuation τ sig (Elt Ideal)) :
    (StableHlo.after hostOps1_4 V (Proc.devRef .tc main_v44) : S128x576.Idx → EReal)
      = wsVec (V (Proc.devRef .tc main_v21)) (V (Proc.devRef .tc main_v34)) := by
  unfold wsVec
  after_results_simp

theorem wsVec_apply (Wn : S128x576.Idx → EReal) (S : S576.Idx → EReal) (o : Fin 128) (k : Fin 576) :
    wsVec Wn S (ix2 o k) = Wn (ix2 o k) * S (ix1 k) := by
  unfold wsVec
  rw [mulf_apply]
  congr 1
  refine (broadcastInDim_apply ![0, 1] bcast_S1x576_S128x576_0_1 _ (ix2 o k) (ix2 (0 : Fin 1) k) (by
    intro a
    match a with
    | ⟨0, _⟩ => rfl
    | ⟨1, _⟩ => rfl)).trans ?_
  exact broadcastInDim_apply ![1] bcast_S576_S1x576_1 S (ix2 (0 : Fin 1) k) (ix1 k) (by
    intro a
    match a with
    | ⟨0, _⟩ => rfl)

/-! ## The weight step -/

/-- The host's maximum from the bottom element is the supremum. -/
theorem fold_maximumf_eq_sup {ι : Type} (s : Finset ι) (f : ι → EReal) (b : EReal) (hb : b = ⊥) :
    s.fold (FloatOps.maximumf (F := Ideal) (φ := .f32)) b f = s.sup f := by
  subst hb; rfl

/-- The maximum of |·| over a whole matrix, as the host reduces it. -/
abbrev absMax (X : S128x576.Idx → EReal) : S_.Idx → EReal :=
  Host.reduce (FloatOps.maximumf (F := Ideal) (φ := .f32)) (Host.absf (F := Ideal) (φ := .f32) X)
    (constant (F := Ideal) S_ .f32 0xFF800000#32) reducesTo_S128x576_S_d0_1 h_S_

theorem habsf_apply {s : Shape} (x : FVec Ideal s .f32) (i : s.Idx) : Host.absf x i = absE (x i) := rfl

/-- A reduction over both axes runs over every entry. -/
theorem absMax_apply (X : S128x576.Idx → EReal) :
    absMax X ix0 = Finset.univ.sup fun p : Fin 128 × Fin 576 => absE (X (ix2 p.1 p.2)) := by
  unfold absMax
  have hb : (constant (F := Ideal) S_ .f32 0xFF800000#32 (Shape.Idx.first h_S_) : EReal) = ⊥ := Cert.Consts.ofBits_neg_inf
  rw [Host.reduce_eq_fold, Finset.filter_true_of_mem (fun i _ => funext fun a => a.elim0), fold_maximumf_eq_sup _ _ _ hb]
  apply le_antisymm
  · refine Finset.sup_le fun i _ => ?_
    rw [habsf_apply, eq_ix2 i]
    exact Finset.le_sup (f := fun p : Fin 128 × Fin 576 => absE (X (ix2 p.1 p.2)))
      (Finset.mem_univ ((i 0, i 1) : Fin 128 × Fin 576))
  · refine Finset.sup_le fun p _ => ?_
    exact (le_of_eq (habsf_apply X (ix2 p.1 p.2)).symm).trans
      (Finset.le_sup (f := Host.absf (F := Ideal) (φ := .f32) X) (Finset.mem_univ (ix2 p.1 p.2)))

/-- The maximum the first of the two stretches leaves, and what it computes from it. -/
theorem after_v46 (V : Valuation τ sig (Elt Ideal)) :
    (StableHlo.after hostOps1_4 V (Proc.devRef .tc main_v46) : S_.Idx → EReal)
      = absMax (wsVec (V (Proc.devRef .tc main_v21)) (V (Proc.devRef .tc main_v34))) := by
  unfold absMax wsVec
  after_results_simp

theorem after_v47 (V : Valuation τ sig (Elt Ideal)) :
    (StableHlo.after hostOps1_4 V (Proc.devRef .tc main_v47) : S_.Idx → BitVec 1)
      = cmpf (F := Ideal) (φ := .f32) .ogt (StableHlo.after hostOps1_4 V (Proc.devRef .tc main_v46))
          (constant (F := Ideal) S_ .f32 0x00000000#32) := by
  after_results_simp

theorem after_v48 (V : Valuation τ sig (Elt Ideal)) :
    (StableHlo.after hostOps1_4 V (Proc.devRef .tc main_v48) : S_.Idx → EReal)
      = Host.divf (F := Ideal) (φ := .f32) (StableHlo.after hostOps1_4 V (Proc.devRef .tc main_v46))
          (constant (F := Ideal) S_ .f32 0x42FE0000#32) := by
  after_results_simp

theorem after_c12 (V : Valuation τ sig (Elt Ideal)) :
    (StableHlo.after hostOps1_4 V (Proc.devRef .tc main_cst_12) : S_.Idx → EReal)
      = constant (F := Ideal) S_ .f32 0x3F800000#32 := by
  after_results_simp

/-- The inlined selection: the step is the quotient where the comparison answered 1, else the third operand. -/
theorem after5_v49 (V : Valuation τ sig (Elt Ideal)) :
    (StableHlo.after hostOps1_5 V (Proc.devRef .tc main_v49) : S_.Idx → EReal)
      = select (V (Proc.devRef .tc main_v47)) (V (Proc.devRef .tc main_v48) : S_.Idx → EReal) (V (Proc.devRef .tc main_cst_12)) := by
  after_results_simp
  simp only [cast_eq, id]

theorem W8_v21 : W8 (F := Ideal) m ρ c (Proc.devRef .tc main_v21) = Win m ρ c :=
  calc W8 (F := Ideal) m ρ c (Proc.devRef .tc main_v21)
    _ = W7 m ρ c (Proc.devRef .tc main_v21) := StableHlo.after_of_writes_sub hostOps1_3 _ hostOps1_3_writes (by decide)
    _ = W6 m ρ c (Proc.devRef .tc main_v21) := StableHlo.after_of_writes_sub hostOps1_2 _ hostOps1_2_writes (by decide)
    _ = W5 m ρ c (Proc.devRef .tc main_v21) := StableHlo.after_of_writes_sub hostOps1_1 _ hostOps1_1_writes (by decide)
    _ = W4 m ρ c (Proc.devRef .tc main_v21) := StableHlo.after_of_writes_sub hostOps1 _ hostOps1_writes (by decide)
    _ = W3 m ρ c (Proc.devRef .tc main_v21) := W4_of_ne m ρ c main_v21 (by decide)

theorem W8_v34 : W8 (F := Ideal) m ρ c (Proc.devRef .tc main_v34) = W6 (F := Ideal) m ρ c (Proc.devRef .tc main_v34) :=
  calc W8 (F := Ideal) m ρ c (Proc.devRef .tc main_v34)
    _ = W7 m ρ c (Proc.devRef .tc main_v34) := StableHlo.after_of_writes_sub hostOps1_3 _ hostOps1_3_writes (by decide)
    _ = W6 m ρ c (Proc.devRef .tc main_v34) := StableHlo.after_of_writes_sub hostOps1_2 _ hostOps1_2_writes (by decide)

/-- One entry of the scaled weight the host computes is the specification's. -/
theorem ws_eq (hscale : ScaleHyp m ρ c) (o : Fin 128) (k : Fin 576) :
    wsVec (W8 (F := Ideal) m ρ c (Proc.devRef .tc main_v21)) (W8 (F := Ideal) m ρ c (Proc.devRef .tc main_v34)) (ix2 o k)
      = Cert.Spec.Wt (Win m ρ c) o k * Cert.Spec.scale (Cin m ρ c) (Win m ρ c) k := by
  rw [wsVec_apply, W8_v21, W8_v34, ← W15_v34, hscale k]
  unfold Cert.Spec.Wt
  exact Eq.refl _

/-- The weight step after the two stretches that compute it. -/
theorem stepW10_eq (hscale : ScaleHyp m ρ c) :
    (W10 (F := Ideal) m ρ c (Proc.devRef .tc main_v49) : S_.Idx → EReal) ix0 = Cert.Spec.stepW (Cin m ρ c) (Win m ρ c) := by
  refine (congrFun (after5_v49 (StableHlo.after hostOps1_4 (W8 (F := Ideal) m ρ c))) ix0).trans ?_
  rw [select_apply, congrFun (after_v47 (W8 (F := Ideal) m ρ c)) ix0, congrFun (after_v48 (W8 (F := Ideal) m ρ c)) ix0,
    congrFun (after_c12 (W8 (F := Ideal) m ρ c)) ix0, cmpf_at, hdivf_apply, const_at, const_at, const_at,
    congrFun (after_v46 (W8 (F := Ideal) m ρ c)) ix0, absMax_apply, select_step]
  unfold Cert.Spec.stepW
  refine congrArg Cert.Spec.step (Finset.sup_congr rfl fun p _ => ?_)
  rw [ws_eq m ρ c hscale p.1 p.2]

theorem W15_v49 : W15 (F := Ideal) m ρ c (Proc.devRef .tc main_v49) = W10 (F := Ideal) m ρ c (Proc.devRef .tc main_v49) :=
  calc W15 (F := Ideal) m ρ c (Proc.devRef .tc main_v49)
    _ = W14 m ρ c (Proc.devRef .tc main_v49) := StableHlo.after_of_writes_sub hostOps1_10 _ hostOps1_10_writes (by decide)
    _ = W13 m ρ c (Proc.devRef .tc main_v49) := StableHlo.after_of_writes_sub hostOps1_9 _ hostOps1_9_writes (by decide)
    _ = W12 m ρ c (Proc.devRef .tc main_v49) := StableHlo.after_of_writes_sub hostOps1_8 _ hostOps1_8_writes (by decide)
    _ = W11 m ρ c (Proc.devRef .tc main_v49) := StableHlo.after_of_writes_sub hostOps1_7 _ hostOps1_7_writes (by decide)
    _ = W10 m ρ c (Proc.devRef .tc main_v49) := StableHlo.after_of_writes_sub hostOps1_6 _ hostOps1_6_writes (by decide)

/-- The program's weight step, as the second region's operand is computed from it, is the specification's. -/
theorem stepW_eq (hscale : ScaleHyp m ρ c) :
    (W15 (F := Ideal) m ρ c (Proc.devRef .tc main_v49) : S_.Idx → EReal) ix0 = Cert.Spec.stepW (Cin m ρ c) (Win m ρ c) := by
  rw [W15_v49]; exact stepW10_eq m ρ c hscale

/-! ## The quantized weight -/

/-- Divide by the step, round to even, clip between two words, multiply by the step, narrow. -/
abbrev qVecG (bhi blo : BitVec 32) (X : S128x576.Idx → EReal) (T : S_.Idx → EReal) : S128x576.Idx → EReal :=
  truncf (F := Ideal) (φ := .f32) .bf16
    (mulf (F := Ideal) (φ := .f32)
      (minimumf (F := Ideal) (φ := .f32)
        (broadcastInDim S128x576 ![] bcast_S_S128x576 (constant (F := Ideal) S_ .f32 bhi))
        (maximumf (F := Ideal) (φ := .f32)
          (broadcastInDim S128x576 ![] bcast_S_S128x576 (constant (F := Ideal) S_ .f32 blo))
          (Host.roundeven (F := Ideal) (φ := .f32)
            (Host.divf (F := Ideal) (φ := .f32) X (broadcastInDim S128x576 ![] bcast_S_S128x576 T)))))
      (broadcastInDim S128x576 ![] bcast_S_S128x576 T))
    bitsLt_bf16_f32

/-- The five stretches after the step compute the quantized weight from the scaled weight and the step. -/
theorem after_v56 (V : Valuation τ sig (Elt Ideal)) :
    (StableHlo.after hostOps1_10 (StableHlo.after hostOps1_9 (StableHlo.after hostOps1_8 (StableHlo.after hostOps1_7
        (StableHlo.after hostOps1_6 V)))) (Proc.devRef .tc main_v56) : S128x576.Idx → EReal)
      = qVecG 0x42FE0000#32 0xC2FE0000#32 (V (Proc.devRef .tc main_v44)) (V (Proc.devRef .tc main_v49)) := by
  unfold qVecG
  after_results_simp
  simp only [cast_eq, id]

theorem qVecG_apply (bhi blo : BitVec 32) (X : S128x576.Idx → EReal) (T : S_.Idx → EReal) (i : S128x576.Idx) :
    qVecG bhi blo X T i
      = min (Ideal.ofBits .f32 bhi) (max (Ideal.ofBits .f32 blo) (Ideal.liftRound Ideal.roundHalfEven (Ideal.div (X i) (T ix0)))) * T ix0 := by
  show min (Ideal.ofBits .f32 bhi) (max (Ideal.ofBits .f32 blo) (Ideal.liftRound Ideal.roundHalfEven
      (Ideal.div (X i) (broadcastInDim S128x576 ![] bcast_S_S128x576 T i)))) * broadcastInDim S128x576 ![] bcast_S_S128x576 T i = _
  rw [bcast0_apply]

theorem qVec_apply (X : S128x576.Idx → EReal) (T : S_.Idx → EReal) (i : S128x576.Idx) :
    qVecG 0x42FE0000#32 0xC2FE0000#32 X T i = Cert.Spec.q (X i) (T ix0) := by
  rw [qVecG_apply, Cert.Consts.ofBits_127, Cert.Consts.ofBits_neg127]
  unfold Cert.Spec.q Cert.LibSmoothQuant.quant
  rfl

theorem W10_v44 : W10 (F := Ideal) m ρ c (Proc.devRef .tc main_v44) = W9 (F := Ideal) m ρ c (Proc.devRef .tc main_v44) :=
  calc W10 (F := Ideal) m ρ c (Proc.devRef .tc main_v44)
    _ = W9 m ρ c (Proc.devRef .tc main_v44) := StableHlo.after_of_writes_sub hostOps1_5 _ hostOps1_5_writes (by decide)

/-- The quantized weight the second region is handed is the specification's, entry by entry. -/
theorem qW_eq (hscale : ScaleHyp m ρ c) (o : Fin 128) (k : Fin 576) :
    (W15 (F := Ideal) m ρ c (Proc.devRef .tc main_v56) : S128x576.Idx → EReal) (ix2 o k)
      = Cert.Spec.qW (Cin m ρ c) (Win m ρ c) o k := by
  refine (congrFun (after_v56 (W10 (F := Ideal) m ρ c)) (ix2 o k)).trans ?_
  rw [qVec_apply, stepW10_eq m ρ c hscale, W10_v44]
  refine (congrArg (fun v => Cert.Spec.q v (Cert.Spec.stepW (Cin m ρ c) (Win m ρ c)))
    ((congrFun (after_v44 (W8 (F := Ideal) m ρ c)) (ix2 o k)).trans (ws_eq m ρ c hscale o k))).trans ?_
  unfold Cert.Spec.qW
  exact Eq.refl _

end Cert.KernelIdeal.KernelWeight

end
-- ==== Proof.Ideal.KernelResult.lean ====
/- The kernel program's result as the target function of its two arguments.

   The column-maximum region leaves, at entry (core, k, 0) of its output array, the supremum of |C| over the 8 x 16384
   entries of the im2col array C that belong to that row; from there the host steps between the regions compute the
   smoothing scale, the activation step and the quantized weight, and the second region and the last host steps compute the output. -/
import proofs.«122551_j65360812311363_2_alg».proof.Proof.Ideal.Run
import proofs.«122551_j65360812311363_2_alg».proof.Proof.Ideal.ColMaxValue
import proofs.«122551_j65360812311363_2_alg».proof.Proof.Spec
import proofs.«122551_j65360812311363_2_alg».proof.Proof.Ideal.KernelSteps
import proofs.«122551_j65360812311363_2_alg».proof.Proof.Ideal.KernelOut
import proofs.«122551_j65360812311363_2_alg».proof.Proof.Ideal.KernelWeight

set_option maxRecDepth 16384

noncomputable section

namespace Cert.KernelIdeal.KernelResult

open Cert.KernelIdeal Cert.KernelIdeal.Gen Cert.KernelIdeal.Run
open Idealize.ShloMosaic Idealize.ShloMosaic.TcCoe Idealize.ShloMosaic.ValueIdx

variable (m : (ℓ : Loc nD τ sig) → Buf (Elt Ideal) ℓ) (ρ : Dev nD → PrngReg) (c : Dev nD)

/-- The column-maximum region's result, in the form the host steps after it are stated over: entry (core, k, 0)
    of the region's output array is the supremum of |C| over the entries (core * 8 + b, k, q) of the im2col array.
    The output array after the region is what the region's write-backs leave, and |x| is max x (-x). -/
theorem col_hyp : KernelSteps.ColHyp m ρ c := by
  intro core k
  have e : W4 (F := Ideal) m ρ c (Proc.devRef .tc main_v24) = (ColMax.dat (V3 (F := Ideal) m ρ) c).arrAt 1 cfg0.N :=
    W4_arr m ρ c 1
  rw [e]
  exact ColMaxValue.out_apply (V3 (F := Ideal) m ρ) c core k

/-- THE KERNEL'S RESULT: entry (b, o, y, z) of the result array is the target function of the two arguments at
    image b, output channel o and output position 128 * y + z. -/
theorem result (b : Fin 16) (o : Fin 128) (y z : Fin 128) :
    (W17 (F := Ideal) m ρ c (Proc.devRef .tc main_v58) : S16x128x128x128.Idx → EReal) (ix4 b o y z)
      = Cert.Spec.out (KernelSteps.Cin m ρ c) (KernelSteps.Win m ρ c) b o
          ⟨y.val * 128 + z.val, by have := y.isLt; have := z.isLt; omega⟩ :=
  KernelOut.out_eq m ρ c (fun k => KernelSteps.scale_eq m ρ c (col_hyp m ρ c) k)
    (KernelSteps.stepX_eq m ρ c (col_hyp m ρ c))
    (fun o k => KernelWeight.qW_eq m ρ c (fun k => KernelSteps.scale_eq m ρ c (col_hyp m ρ c) k) o k) b o y z

end Cert.KernelIdeal.KernelResult

end
-- ==== Proof.RefSteps.lean ====
/-
  The reference's per-column and whole-tensor quantities are the specification's.

  With C the im2col array [16, 576, 16384] and Wf the flattened weight [128, 576] (both arrays of real numbers):
  the reference's column maxima of |x| over the 262144 rows n = b·16384 + l and of |w| over the 128 rows are
  a_k and m_k; its power / quotient / compare-with-zero / select is the smoothing scale s_k; its maximum of
  |x / s_k| over the whole [262144, 576] matrix is the maximum over the columns of a_k / s_k (each s_k divides
  like a non-negative real factor), whence its activation step is the specification's; and its maximum of
  |w · s_k| over the whole [128, 576] matrix, re-indexed by (o, k), gives the weight step.
-/
import proofs.«122551_j65360812311363_2_alg».proof.Proof.RefReadP
import proofs.«122551_j65360812311363_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.RefSteps

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx Cert.LibFakeQuant Cert.LibSmoothQuant

variable (x0 : (⟨S16x64x128x128, .f32⟩ : BufTy).Contents (Elt Ideal)) (x1 : (⟨S128x64x3x3, .f32⟩ : BufTy).Contents (Elt Ideal))

/-- The im2col array and the flattened weight, as the reference computes them. -/
abbrev C : Cert.Spec.SC.Idx → EReal := val_main_v20 (F := Ideal) x0
abbrev Wf : Cert.Spec.SW.Idx → EReal := val_main_v23 (F := Ideal) x1

/-! ## Maxima -/

/-- A fold of the maximum from −∞ is the supremum. -/
theorem fold_eq_sup {ι : Type*} (s : Finset ι) (f : ι → EReal) (op : EReal → EReal → EReal) [Std.Commutative op]
    [Std.Associative op] (hop : ∀ x y, op x y = max x y) : s.fold op ⊥ f = s.sup f := by
  induction s using Finset.cons_induction with
  | empty => simp
  | cons a s ha ih => rw [Finset.fold_cons, Finset.sup_cons, ih, hop]

/-- Two families with the same values have the same maximum. -/
theorem sup_reindex {ι κ : Type*} [Fintype ι] [Fintype κ] (f : ι → EReal) (g : κ → EReal) (φ : ι → κ) (ψ : κ → ι)
    (h1 : ∀ i, f i = g (φ i)) (h2 : ∀ j, g j = f (ψ j)) : Finset.univ.sup f = Finset.univ.sup g := by
  apply le_antisymm
  · exact Finset.sup_le fun i _ => (h1 i).le.trans (Finset.le_sup (f := g) (Finset.mem_univ _))
  · exact Finset.sup_le fun j _ => (h2 j).le.trans (Finset.le_sup (f := f) (Finset.mem_univ _))

/-! ## The column maxima -/

theorem hostAbsf_eq (x : EReal) : FloatOps.hostAbsf (F := Ideal) (φ := .f32) x = absE x := rfl
theorem X_apply (C : Cert.Spec.SC.Idx → EReal) (b : Fin 16) (k : Fin 576) (l : Fin 16384) : Cert.Spec.X C b k l = C (ix3 b k l) := rfl
theorem Wt_apply (Wf : Cert.Spec.SW.Idx → EReal) (o : Fin 128) (k : Fin 576) : Cert.Spec.Wt Wf o k = Wf (ix2 o k) := rfl

/-- The image and the position of row n of the [262144, 576] matrix. -/
abbrev rowB (n : Fin 262144) : Fin 16 := ⟨n.val / 16384, by have := n.isLt; omega⟩
abbrev rowL (n : Fin 262144) : Fin 16384 := ⟨n.val % 16384, Nat.mod_lt _ (by norm_num)⟩
/-- The row of image b, position l. -/
abbrev rowOf (b : Fin 16) (l : Fin 16384) : Fin 262144 := ⟨b.val * 16384 + l.val, by have := b.isLt; have := l.isLt; omega⟩

theorem rowB_rowOf (b : Fin 16) (l : Fin 16384) : rowB (rowOf b l) = b :=
  Fin.ext (by have := b.isLt; have := l.isLt; show (b.val * 16384 + l.val) / 16384 = b.val; omega)
theorem rowL_rowOf (b : Fin 16) (l : Fin 16384) : rowL (rowOf b l) = l :=
  Fin.ext (by have := b.isLt; have := l.isLt; show (b.val * 16384 + l.val) % 16384 = l.val; omega)

/-- Row n of the [262144, 576] matrix, column k, is the im2col array at image n / 16384, position n % 16384. -/
theorem v22_apply (n : Fin 262144) (k : Fin 576) :
    val_main_v22 (F := Ideal) x0 (ix2 n k) = C x0 (ix3 (rowB n) k (rowL n)) := by
  rw [val_main_v22_apply, val_main_v21_apply]
  show val_main_v20 (F := Ideal) x0 _ = val_main_v20 (F := Ideal) x0 _
  congr 1
  funext a
  have hn := n.isLt
  have hk := k.isLt
  match a with
  | ⟨0, _⟩ => exact Fin.ext (by show (n.val * 576 + k.val) / 9437184 = n.val / 16384; omega)
  | ⟨1, _⟩ => exact Fin.ext (by show (n.val * 576 + k.val) % 576 = k.val; omega)
  | ⟨2, _⟩ => exact Fin.ext (by show (n.val * 576 + k.val) / 576 % 16384 = n.val % 16384; omega)

/-- Over result index k, the source index with row n inserted is (n, k). -/
theorem lift_x (hR : S262144x576.Reduces [0] S576) (k : Fin 576) (n : Fin 262144) : hR.lift (ix1 k) n = ix2 n k := by
  funext a
  match a with
  | ⟨0, _⟩ => rfl
  | ⟨1, _⟩ => rfl

theorem act_term (hR : S262144x576.Reduces [0] S576) (k : Fin 576) (n : Fin 262144) :
    val_main_v24 (F := Ideal) x0 (hR.lift (ix1 k) n) = absE (Cert.Spec.X (C x0) (rowB n) k (rowL n)) := by
  rw [lift_x, val_main_v24_apply, v22_apply, hostAbsf_eq, X_apply]

theorem act_term' (hR : S262144x576.Reduces [0] S576) (k : Fin 576) (b : Fin 16) (l : Fin 16384) :
    val_main_v24 (F := Ideal) x0 (hR.lift (ix1 k) (rowOf b l)) = absE (Cert.Spec.X (C x0) b k l) := by
  rw [act_term, rowB_rowOf, rowL_rowOf]

theorem act_eq (k : Fin 576) : val_main_v25 (F := Ideal) x0 (ix1 k) = actOf (Cert.Spec.X (C x0)) k := by
  have hR : S262144x576.Reduces [0] S576 := by decide
  unfold val_main_v25
  rw [Host.reduce_eq_fold_single _ _ _ reducesTo_S262144x576_S576_d0 hR h_S_, val_main_cst_apply, Ideal.ofBits_def,
    Cert.Consts.ofBits_neg_inf, fold_eq_sup _ _ (FloatOps.maximumf (F := Ideal) (φ := .f32)) (fun _ _ => rfl),
    Function.comp_def]
  unfold actOf
  refine sup_reindex _ _ (fun n : Fin 262144 => (rowB n, rowL n)) (fun p : Fin 16 × Fin 16384 => rowOf p.1 p.2) ?_ ?_
  · intro n
    exact act_term x0 hR k n
  · intro p
    exact (act_term' x0 hR k p.1 p.2).symm

/-- Over result index k, the source index with row o inserted is (o, k). -/
theorem lift_w (hR : S128x576.Reduces [0] S576) (k : Fin 576) (o : Fin 128) : hR.lift (ix1 k) o = ix2 o k := by
  funext a
  match a with
  | ⟨0, _⟩ => rfl
  | ⟨1, _⟩ => rfl

theorem wmax_term (hR : S128x576.Reduces [0] S576) (k : Fin 576) (o : Fin 128) :
    val_main_v26 (F := Ideal) x1 (hR.lift (ix1 k) o) = absE (Cert.Spec.Wt (Wf x1) o k) := by
  rw [lift_w, val_main_v26_apply, hostAbsf_eq, Wt_apply]

theorem wmax_eq (k : Fin 576) : val_main_v27 (F := Ideal) x1 (ix1 k) = wmaxOf (Cert.Spec.Wt (Wf x1)) k := by
  have hR : S128x576.Reduces [0] S576 := by decide
  unfold val_main_v27
  rw [Host.reduce_eq_fold_single _ _ _ reducesTo_S128x576_S576_d0 hR h_S_, val_main_cst_0_apply, Ideal.ofBits_def,
    Cert.Consts.ofBits_neg_inf, fold_eq_sup _ _ (FloatOps.maximumf (F := Ideal) (φ := .f32)) (fun _ _ => rfl),
    Function.comp_def]
  unfold wmaxOf
  refine sup_reindex _ _ (fun o : Fin 128 => o) (fun o : Fin 128 => o) ?_ ?_
  · intro o
    exact wmax_term x1 hR k o
  · intro o
    exact (wmax_term x1 hR k o).symm

/-! ## The smoothing scale -/

/-- A select on "equal to zero" is the if-then-else. -/
theorem select_cmp_oeq (q a b : EReal) : Scalar.select (Ideal.cmp .oeq q 0) a b = if q = 0 then a else b := by
  unfold Scalar.select Ideal.cmp
  by_cases h : q = 0 <;> simp [h]

/-- A select on "greater than zero" is the if-then-else. -/
theorem select_cmp_ogt (A a b : EReal) : Scalar.select (Ideal.cmp .ogt A 0) a b = if 0 < A then a else b := by
  unfold Scalar.select Ideal.cmp
  by_cases h : 0 < A <;> simp [h]

theorem scale_eq (k : Fin 576) : val_main_v35 (F := Ideal) x0 x1 (ix1 k) = Cert.Spec.scale (C x0) (Wf x1) k := by
  rw [val_main_v35_apply, val_main_v34_apply, val_main_v32_apply, val_main_v29_apply, val_main_v31_apply,
    val_main_v28_apply, val_main_v30_apply, val_main_v33_apply, val_main_call1_v1_apply, val_main_call1_v0_apply,
    val_main_cst_1_apply, val_main_cst_2_apply, val_main_cst_3_apply, val_main_cst_4_apply, act_eq, wmax_eq]
  simp only [Ideal.ofBits_def, Ideal.hostDivf_def, Ideal.hostPowf_def, Ideal.cmpf_def, Cert.Consts.ofBits_half,
    Cert.Consts.ofBits_zero, Cert.Consts.ofBits_one]
  rw [select_cmp_oeq, EReal.coe_one]
  unfold Cert.Spec.scale scaleV scaleOf
  rfl

/-! ## The activation step -/

/-- A maximum over a flat index set is the iterated maximum over its two coordinates' ranges. -/
theorem sup_reindex2 {ι κ μ : Type*} [Fintype ι] [Fintype κ] [Fintype μ] (f : ι → EReal) (g : κ → μ → EReal)
    (φ : ι → κ) (φ' : ι → μ) (ψ : κ → μ → ι) (h1 : ∀ i, f i = g (φ i) (φ' i)) (h2 : ∀ p k, g p k = f (ψ p k)) :
    Finset.univ.sup f = Finset.univ.sup fun p => Finset.univ.sup fun k => g p k := by
  apply le_antisymm
  · exact Finset.sup_le fun i _ => (h1 i).le.trans
      ((Finset.le_sup (f := g (φ i)) (Finset.mem_univ (φ' i))).trans
        (Finset.le_sup (f := fun p => Finset.univ.sup fun k => g p k) (Finset.mem_univ (φ i))))
  · exact Finset.sup_le fun p _ => Finset.sup_le fun k _ => (h2 p k).le.trans (Finset.le_sup (f := f) (Finset.mem_univ _))

/-- A reduction to a scalar runs over every index of its operand. -/
theorem filter_drop_scalar {s : Shape} {axes : List (Fin s.rank)} (h : s.ReducesTo axes S_) (j : S_.Idx)
    [DecidablePred fun i : s.Idx => h.drop i = j] :
    (Finset.univ.filter fun i => h.drop i = j) = Finset.univ :=
  Finset.filter_true_of_mem fun i _ => (eq_ix0 _).trans (eq_ix0 _).symm

/-- |x / s_k| at row n, column k of the [262144, 576] matrix. -/
theorem v39_apply (n : Fin 262144) (k : Fin 576) :
    val_main_v39 (F := Ideal) x0 x1 (ix2 n k)
      = absE (Ideal.div (Cert.Spec.X (C x0) (rowB n) k (rowL n)) (Cert.Spec.scale (C x0) (Wf x1) k)) := by
  rw [val_main_v39_apply, val_main_v38_apply, val_main_v37_apply, val_main_v36_apply, v22_apply,
    show idx_main_v36 (idx_main_v37 (ix2 n k)) = ix1 k from by funext a; match a with | ⟨0, _⟩ => rfl, scale_eq,
    hostAbsf_eq, Ideal.hostDivf_def, X_apply]

theorem v39_apply' (b : Fin 16) (l : Fin 16384) (k : Fin 576) :
    val_main_v39 (F := Ideal) x0 x1 (ix2 (rowOf b l) k)
      = absE (Ideal.div (Cert.Spec.X (C x0) b k l) (Cert.Spec.scale (C x0) (Wf x1) k)) := by
  rw [v39_apply, rowB_rowOf, rowL_rowOf]

/-- The reference's maximum of |x / s_k| over the whole matrix, by image, position and patch entry. -/
theorem v40_eq : val_main_v40 (F := Ideal) x0 x1 ix0
    = Finset.univ.sup fun p : Fin 16 × Fin 16384 => Finset.univ.sup fun k : Fin 576 =>
        absE (Ideal.div (Cert.Spec.X (C x0) p.1 k p.2) (Cert.Spec.scale (C x0) (Wf x1) k)) := by
  unfold val_main_v40
  rw [Host.reduce_eq_fold, filter_drop_scalar, val_main_cst_5_apply, Ideal.ofBits_def, Cert.Consts.ofBits_neg_inf,
    fold_eq_sup _ _ (FloatOps.maximumf (F := Ideal) (φ := .f32)) (fun _ _ => rfl)]
  refine sup_reindex2 _ _ (fun i : S262144x576.Idx => (rowB (i 0), rowL (i 0))) (fun i : S262144x576.Idx => (i 1 : Fin 576))
    (fun (p : Fin 16 × Fin 16384) (k : Fin 576) => ix2 (rowOf p.1 p.2) k) ?_ ?_
  · intro i
    obtain ⟨n, k, rfl⟩ : ∃ (n : Fin 262144) (k : Fin 576), i = ix2 n k := ⟨i 0, i 1, eq_ix2 i⟩
    exact v39_apply x0 x1 n k
  · intro p k
    exact (v39_apply' x0 x1 p.1 p.2 k).symm

/-- On arrays of real numbers the maximum of |x / s_k| over the whole tensor is the maximum over the patch entries of
    a_k / s_k. -/
theorem amax_spec (C : Cert.Spec.SC.Idx → EReal) (Wf : Cert.Spec.SW.Idx → EReal)
    (hC : ∀ i, ∃ r : ℝ, C i = (r : EReal)) (hW : ∀ i, ∃ r : ℝ, Wf i = (r : EReal)) :
    (Finset.univ.sup fun p : Fin 16 × Fin 16384 => Finset.univ.sup fun k : Fin 576 =>
        absE (Ideal.div (Cert.Spec.X C p.1 k p.2) (Cert.Spec.scale C Wf k)))
      = Finset.univ.sup fun k : Fin 576 => Ideal.div (actOf (Cert.Spec.X C) k) (Cert.Spec.scale C Wf k) := by
  choose rC hrC using hC
  choose rW hrW using hW
  have hX : Cert.Spec.X C = fun b k l => ((rC (ix3 b k l) : ℝ) : EReal) :=
    funext fun b => funext fun k => funext fun l => hrC _
  have hWt : Cert.Spec.Wt Wf = fun o k => ((rW (ix2 o k) : ℝ) : EReal) := funext fun o => funext fun k => hrW _
  unfold Cert.Spec.scale
  rw [hX, hWt]
  exact amax_eq (fun b k l => rC (ix3 b k l)) (fun o k => rW (ix2 o k)) (by norm_num)

theorem stepX_eq (hC : ∀ i, ∃ r : ℝ, C x0 i = (r : EReal)) (hW : ∀ i, ∃ r : ℝ, Wf x1 i = (r : EReal)) :
    val_main_v43 (F := Ideal) x0 x1 ix0 = Cert.Spec.stepX (C x0) (Wf x1) := by
  rw [val_main_v43_apply, val_main_v41_apply, val_main_v42_apply, val_main_call2_v0_apply, val_main_cst_6_apply,
    val_main_cst_7_apply, val_main_cst_8_apply, v40_eq, amax_spec _ _ hC hW]
  simp only [Ideal.ofBits_def, Ideal.hostDivf_def, Ideal.cmpf_def, Cert.Consts.ofBits_zero, Cert.Consts.ofBits_127,
    Cert.Consts.ofBits_one]
  rw [select_cmp_ogt]
  unfold Cert.Spec.stepX Cert.Spec.step stepOf
  rfl

/-! ## The weight step -/

/-- |w · s_k| at row o, column k of the weight matrix. -/
theorem v55_apply (o : Fin 128) (k : Fin 576) :
    val_main_v55 (F := Ideal) x0 x1 (ix2 o k) = absE (Cert.Spec.Wt (Wf x1) o k * Cert.Spec.scale (C x0) (Wf x1) k) := by
  rw [val_main_v55_apply, val_main_v54_apply, val_main_v53_apply, val_main_v52_apply,
    show idx_main_v52 (idx_main_v53 (ix2 o k)) = ix1 k from by funext a; match a with | ⟨0, _⟩ => rfl, scale_eq,
    hostAbsf_eq, Ideal.mulf_def, Wt_apply]

/-- The reference's maximum of |w · s_k| over the whole weight matrix, by output channel and patch entry. -/
theorem v56_eq : val_main_v56 (F := Ideal) x0 x1 ix0
    = Finset.univ.sup fun p : Fin 128 × Fin 576 =>
        absE (Cert.Spec.Wt (Wf x1) p.1 p.2 * Cert.Spec.scale (C x0) (Wf x1) p.2) := by
  unfold val_main_v56
  rw [Host.reduce_eq_fold, filter_drop_scalar, val_main_cst_11_apply, Ideal.ofBits_def, Cert.Consts.ofBits_neg_inf,
    fold_eq_sup _ _ (FloatOps.maximumf (F := Ideal) (φ := .f32)) (fun _ _ => rfl)]
  refine sup_reindex _ _ (fun i : S128x576.Idx => ((i 0 : Fin 128), (i 1 : Fin 576)))
    (fun p : Fin 128 × Fin 576 => ix2 p.1 p.2) ?_ ?_
  · intro i
    obtain ⟨o, k, rfl⟩ : ∃ (o : Fin 128) (k : Fin 576), i = ix2 o k := ⟨i 0, i 1, eq_ix2 i⟩
    exact v55_apply x0 x1 o k
  · intro p
    exact (v55_apply x0 x1 p.1 p.2).symm

theorem stepW_eq : val_main_v59 (F := Ideal) x0 x1 ix0 = Cert.Spec.stepW (C x0) (Wf x1) := by
  rw [val_main_v59_apply, val_main_v57_apply, val_main_v58_apply, val_main_call5_v0_apply, val_main_cst_12_apply,
    val_main_cst_13_apply, val_main_cst_14_apply, v56_eq]
  simp only [Ideal.ofBits_def, Ideal.hostDivf_def, Ideal.cmpf_def, Cert.Consts.ofBits_zero, Cert.Consts.ofBits_127,
    Cert.Consts.ofBits_one]
  rw [select_cmp_ogt]
  unfold Cert.Spec.stepW Cert.Spec.step stepOf
  rfl

end Cert.RefSteps

end
-- ==== Proof.RefProduct.lean ====
/-
  The reference's result, entry by entry, is the specification's product.

  The reference divides each activation by its column's smoothing scale and multiplies each weight by it, fake-quantizes
  both (each written as v + (q − v)), and contracts the two along the patch axis. Given that its scale and its two
  steps are the specification's, every factor is the specification's quantized value, because v + (q − v) = q on real
  numbers, and the contraction is the specification's sum with the factors exchanged.
-/
import proofs.«122551_j65360812311363_2_alg».proof.Proof.RefReadP
import proofs.«122551_j65360812311363_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.RefProduct

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx Cert.LibFakeQuant Cert.LibSmoothQuant

/-- The two argument arrays' types. -/
abbrev A0 := (⟨S16x64x128x128, .f32⟩ : BufTy).Contents (Elt Ideal)
abbrev A1 := (⟨S128x64x3x3, .f32⟩ : BufTy).Contents (Elt Ideal)

/-- The im2col array and the flattened weight, as the specification's arguments. -/
abbrev Cof (x0 : A0) : Cert.Spec.SC.Idx → EReal := val_main_v20 (F := Ideal) x0
abbrev Wof (x1 : A1) : Cert.Spec.SW.Idx → EReal := val_main_v23 (F := Ideal) x1

/-- Row (b, l) of the [262144, 576] matrix of patches. -/
abbrev row (b : Fin 16) (l : Fin 16384) : Fin 262144 := ⟨b.val * 16384 + l.val, by omega⟩

/-! ## Index equations: the layout operations' composed indices, by coordinates -/

theorem idx71 (b : Fin 16) (o y z : Fin 128) :
    idx_main_v71 (ix4 b o y z) = ix3 b o (⟨y.val * 128 + z.val, by omega⟩ : Fin 16384) := by
  funext a; apply Fin.ext
  match a with
  | ⟨0, _⟩ => show (((b.val * 128 + o.val) * 128 + y.val) * 128 + z.val) / 2097152 = b.val; omega
  | ⟨1, _⟩ => show (((b.val * 128 + o.val) * 128 + y.val) * 128 + z.val) / 16384 % 128 = o.val; omega
  | ⟨2, _⟩ => show (((b.val * 128 + o.val) * 128 + y.val) * 128 + z.val) % 16384 = y.val * 128 + z.val; omega

theorem idx70 (b : Fin 16) (o : Fin 128) (l : Fin 16384) : idx_main_v70 (ix3 b o l) = ix3 b l o := by
  funext a; apply Fin.ext
  match a with
  | ⟨0, _⟩ => rfl
  | ⟨1, _⟩ => rfl
  | ⟨2, _⟩ => rfl

theorem idx69 (b : Fin 16) (l : Fin 16384) (o : Fin 128) : idx_main_v69 (ix3 b l o) = ix2 (row b l) o := by
  funext a; apply Fin.ext
  match a with
  | ⟨0, _⟩ => show ((b.val * 16384 + l.val) * 128 + o.val) / 128 = b.val * 16384 + l.val; omega
  | ⟨1, _⟩ => show ((b.val * 16384 + l.val) * 128 + o.val) % 128 = o.val; omega

theorem lidx68 (n : Fin 262144) (o : Fin 128) (k : Fin 576) : lidx_main_v68 (ix2 n o) k = ix2 n k := by
  funext a; apply Fin.ext
  match a with
  | ⟨0, _⟩ => rfl
  | ⟨1, _⟩ => rfl

theorem ridx68 (n : Fin 262144) (o : Fin 128) (k : Fin 576) : ridx_main_v68 (ix2 n o) k = ix2 o k := by
  funext a; apply Fin.ext
  match a with
  | ⟨0, _⟩ => rfl
  | ⟨1, _⟩ => rfl

theorem idx22 (b : Fin 16) (l : Fin 16384) (k : Fin 576) : idx_main_v22 (ix2 (row b l) k) = ix3 b l k := by
  funext a; apply Fin.ext
  match a with
  | ⟨0, _⟩ => show ((b.val * 16384 + l.val) * 576 + k.val) / 9437184 = b.val; omega
  | ⟨1, _⟩ => show ((b.val * 16384 + l.val) * 576 + k.val) / 576 % 16384 = l.val; omega
  | ⟨2, _⟩ => show ((b.val * 16384 + l.val) * 576 + k.val) % 576 = k.val; omega

theorem idx21 (b : Fin 16) (l : Fin 16384) (k : Fin 576) : idx_main_v21 (ix3 b l k) = ix3 b k l := by
  funext a; apply Fin.ext
  match a with
  | ⟨0, _⟩ => rfl
  | ⟨1, _⟩ => rfl
  | ⟨2, _⟩ => rfl

theorem idx37 (n : Fin 262144) (k : Fin 576) : idx_main_v36 (idx_main_v37 (ix2 n k)) = ix1 k := by
  funext a; apply Fin.ext
  match a with
  | ⟨0, _⟩ => rfl

theorem idx53 (o : Fin 128) (k : Fin 576) : idx_main_v52 (idx_main_v53 (ix2 o k)) = ix1 k := by
  funext a; apply Fin.ext
  match a with
  | ⟨0, _⟩ => rfl

/-! ## The stages the two entries are made of, at an index by coordinates -/

/-- A patch entry of the [262144, 576] matrix is the im2col array's. -/
theorem v22_at (x0 : A0) (b : Fin 16) (l : Fin 16384) (k : Fin 576) :
    val_main_v22 (F := Ideal) x0 (ix2 (row b l) k) = Cert.Spec.X (Cof x0) b k l := by
  rw [val_main_v22_apply, idx22, val_main_v21_apply, idx21, Cert.Spec.X]

/-- The scale, broadcast along the rows of the patch matrix. -/
theorem v37_at (x0 : A0) (x1 : A1) (n : Fin 262144) (k : Fin 576) :
    val_main_v37 (F := Ideal) x0 x1 (ix2 n k) = val_main_v35 (F := Ideal) x0 x1 (ix1 k) := by
  rw [val_main_v37_apply, val_main_v36_apply, idx37]

/-- The scale, broadcast along the rows of the weight matrix. -/
theorem v53_at (x0 : A0) (x1 : A1) (o : Fin 128) (k : Fin 576) :
    val_main_v53 (F := Ideal) x0 x1 (ix2 o k) = val_main_v35 (F := Ideal) x0 x1 (ix1 k) := by
  rw [val_main_v53_apply, val_main_v52_apply, idx53]

/-- The scaled activation: a patch entry divided by its column's scale. -/
theorem v38_at (x0 : A0) (x1 : A1)
    (hscale : ∀ k : Fin 576, val_main_v35 (F := Ideal) x0 x1 (ix1 k) = Cert.Spec.scale (Cof x0) (Wof x1) k)
    (b : Fin 16) (l : Fin 16384) (k : Fin 576) :
    val_main_v38 (F := Ideal) x0 x1 (ix2 (row b l) k)
      = Ideal.div (Cert.Spec.X (Cof x0) b k l) (Cert.Spec.scale (Cof x0) (Wof x1) k) := by
  rw [val_main_v38_apply, v22_at, v37_at, hscale, Ideal.hostDivf_def]

/-- The scaled weight: a weight entry times its column's scale. -/
theorem v54_at (x0 : A0) (x1 : A1)
    (hscale : ∀ k : Fin 576, val_main_v35 (F := Ideal) x0 x1 (ix1 k) = Cert.Spec.scale (Cof x0) (Wof x1) k)
    (o : Fin 128) (k : Fin 576) :
    val_main_v54 (F := Ideal) x0 x1 (ix2 o k)
      = Cert.Spec.Wt (Wof x1) o k * Cert.Spec.scale (Cof x0) (Wof x1) k := by
  rw [val_main_v54_apply, v53_at, hscale, Ideal.mulf_def, Cert.Spec.Wt]

/-- The fake-quantized activation as the reference spells it: v + (q − v), over the scaled activation and the step. -/
theorem v51_form (x0 : A0) (x1 : A1) (i : S262144x576.Idx) :
    val_main_v51 (F := Ideal) x0 x1 i
      = val_main_v38 (F := Ideal) x0 x1 i
        + (min ((127 : ℝ) : EReal) (max ((-127 : ℝ) : EReal)
              (Cert.Spec.rnd (Ideal.div (val_main_v38 (F := Ideal) x0 x1 i) (val_main_v43 (F := Ideal) x0 x1 ix0))))
            * val_main_v43 (F := Ideal) x0 x1 ix0
          - val_main_v38 (F := Ideal) x0 x1 i) := by
  rw [val_main_v51_apply, val_main_v50_apply, val_main_v49_apply, val_main_v47_apply, val_main_call4_v4_apply,
    val_main_call4_v3_apply, val_main_cst_10_apply, val_main_call4_v2_apply, val_main_call4_v1_apply,
    val_main_call4_v0_apply, val_main_cst_9_apply, val_main_v46_apply, val_main_v45_apply, val_main_v44_apply,
    val_main_v48_apply, eq_ix0 (idx_main_v44 i), eq_ix0 (idx_main_v48 i)]
  simp only [Ideal.addf_def, Ideal.subf_def, Ideal.mulf_def, Ideal.minimumf_def, Ideal.maximumf_def, Ideal.ofBits_def,
    Ideal.hostUnary_roundeven_def, Ideal.hostDivf_def, Cert.Consts.ofBits_127, Cert.Consts.ofBits_neg127]

/-- The fake-quantized weight as the reference spells it: v + (q − v), over the scaled weight and the step. -/
theorem v67_form (x0 : A0) (x1 : A1) (i : S128x576.Idx) :
    val_main_v67 (F := Ideal) x0 x1 i
      = val_main_v54 (F := Ideal) x0 x1 i
        + (min ((127 : ℝ) : EReal) (max ((-127 : ℝ) : EReal)
              (Cert.Spec.rnd (Ideal.div (val_main_v54 (F := Ideal) x0 x1 i) (val_main_v59 (F := Ideal) x0 x1 ix0))))
            * val_main_v59 (F := Ideal) x0 x1 ix0
          - val_main_v54 (F := Ideal) x0 x1 i) := by
  rw [val_main_v67_apply, val_main_v66_apply, val_main_v65_apply, val_main_v63_apply, val_main_call7_v4_apply,
    val_main_call7_v3_apply, val_main_cst_16_apply, val_main_call7_v2_apply, val_main_call7_v1_apply,
    val_main_call7_v0_apply, val_main_cst_15_apply, val_main_v62_apply, val_main_v61_apply, val_main_v60_apply,
    val_main_v64_apply, eq_ix0 (idx_main_v60 i), eq_ix0 (idx_main_v64 i)]
  simp only [Ideal.addf_def, Ideal.subf_def, Ideal.mulf_def, Ideal.minimumf_def, Ideal.maximumf_def, Ideal.ofBits_def,
    Ideal.hostUnary_roundeven_def, Ideal.hostDivf_def, Cert.Consts.ofBits_127, Cert.Consts.ofBits_neg127]

/-! ## Real numbers

  Over real arrays every scaled value, both steps and every quantized value are real numbers, so the spelling
  v + (q − v) is q. -/

/-- On real numbers, v + (q − v) with q the quantized value is the quantized value. -/
theorem ste_q {v t : EReal} (hv : IsReal v) (ht : IsReal t) :
    v + (min ((127 : ℝ) : EReal) (max ((-127 : ℝ) : EReal) (Cert.Spec.rnd (Ideal.div v t))) * t - v) = Cert.Spec.q v t := by
  have hq : IsReal (Cert.Spec.q v t) :=
    isReal_quant (lo' := -127) (hi' := 127) rfl rfl (by norm_num) Cert.Spec.rnd v ht
  unfold Cert.Spec.q quant at hq ⊢
  exact ste hv hq

section reals

variable (C : Cert.Spec.SC.Idx → EReal) (Wf : Cert.Spec.SW.Idx → EReal)

/-- Real arrays are the coercions of real-valued functions of the coordinates. -/
theorem exists_real (hC : ∀ i, ∃ r : ℝ, C i = (r : EReal)) (hW : ∀ i, ∃ r : ℝ, Wf i = (r : EReal)) :
    ∃ (x : Fin 16 → Fin 576 → Fin 16384 → ℝ) (w : Fin 128 → Fin 576 → ℝ),
      Cert.Spec.X C = (fun b k l => ((x b k l : ℝ) : EReal)) ∧ Cert.Spec.Wt Wf = (fun o k => ((w o k : ℝ) : EReal)) := by
  choose xr hxr using hC
  choose wr hwr using hW
  refine ⟨fun b k l => xr (ix3 b k l), fun o k => wr (ix2 o k), ?_, ?_⟩
  · funext b k l; unfold Cert.Spec.X; exact hxr _
  · funext o k; unfold Cert.Spec.Wt; exact hwr _

/-- Each column's scale divides like a non-negative real factor. -/
theorem scale_divBy (hC : ∀ i, ∃ r : ℝ, C i = (r : EReal)) (hW : ∀ i, ∃ r : ℝ, Wf i = (r : EReal)) (k : Fin 576) :
    ∃ r : ℝ, 0 ≤ r ∧ DivBy (Cert.Spec.scale C Wf k) r := by
  obtain ⟨x, w, hX, hWt⟩ := exists_real C Wf hC hW
  unfold Cert.Spec.scale
  rw [hX, hWt]
  exact scaleV_divBy x w (by norm_num) k

/-- A scaled activation is a real number. -/
theorem isReal_vX (hC : ∀ i, ∃ r : ℝ, C i = (r : EReal)) (hW : ∀ i, ∃ r : ℝ, Wf i = (r : EReal))
    (b : Fin 16) (k : Fin 576) (l : Fin 16384) : IsReal (Ideal.div (Cert.Spec.X C b k l) (Cert.Spec.scale C Wf k)) := by
  obtain ⟨r, -, hr⟩ := scale_divBy C Wf hC hW k
  obtain ⟨a, ha⟩ := hC (ix3 b k l)
  unfold Cert.Spec.X
  rw [ha, hr.isReal]
  exact isReal_coe _

/-- A scaled weight is a real number. -/
theorem isReal_vW (hC : ∀ i, ∃ r : ℝ, C i = (r : EReal)) (hW : ∀ i, ∃ r : ℝ, Wf i = (r : EReal))
    (o : Fin 128) (k : Fin 576) : IsReal (Cert.Spec.Wt Wf o k * Cert.Spec.scale C Wf k) := by
  obtain ⟨x, w, hX, hWt⟩ := exists_real C Wf hC hW
  unfold Cert.Spec.scale
  rw [hX, hWt]
  exact isReal_w_scale x w (by norm_num) o k

/-- The activation step is a real number. -/
theorem isReal_stepX (hC : ∀ i, ∃ r : ℝ, C i = (r : EReal)) (hW : ∀ i, ∃ r : ℝ, Wf i = (r : EReal)) :
    IsReal (Cert.Spec.stepX C Wf) := by
  have h : ∀ k : Fin 576, ∃ r : ℝ, Ideal.div (actOf (Cert.Spec.X C) k) (Cert.Spec.scale C Wf k) = (r : EReal) := by
    intro k
    obtain ⟨x, w, hX, hWt⟩ := exists_real C Wf hC hW
    obtain ⟨r, -, hr⟩ := scale_divBy C Wf hC hW k
    obtain ⟨a, -, ha⟩ := actOf_coe x k
    rw [hX, ha]
    exact ⟨_, hr.isReal a⟩
  choose f hf using h
  unfold Cert.Spec.stepX Cert.Spec.step
  refine isReal_stepOf (c' := 127) rfl (by norm_num) (isReal_coe 1) ?_
  rw [show (fun k : Fin 576 => Ideal.div (actOf (Cert.Spec.X C) k) (Cert.Spec.scale C Wf k)) = fun k => ((f k : ℝ) : EReal)
    from funext hf]
  exact isReal_sup f

/-- The weight step is a real number. -/
theorem isReal_stepW (hC : ∀ i, ∃ r : ℝ, C i = (r : EReal)) (hW : ∀ i, ∃ r : ℝ, Wf i = (r : EReal)) :
    IsReal (Cert.Spec.stepW C Wf) := by
  have h : ∀ p : Fin 128 × Fin 576, ∃ r : ℝ, absE (Cert.Spec.Wt Wf p.1 p.2 * Cert.Spec.scale C Wf p.2) = (r : EReal) := by
    intro p
    obtain ⟨a, ha⟩ := isReal_vW C Wf hC hW p.1 p.2
    rw [ha, absE_coe]
    exact ⟨_, rfl⟩
  choose f hf using h
  unfold Cert.Spec.stepW Cert.Spec.step
  refine isReal_stepOf (c' := 127) rfl (by norm_num) (isReal_coe 1) ?_
  rw [show (fun p : Fin 128 × Fin 576 => absE (Cert.Spec.Wt Wf p.1 p.2 * Cert.Spec.scale C Wf p.2)) = fun p => ((f p : ℝ) : EReal)
    from funext hf]
  exact isReal_sup f

end reals

/-! ## The two factors and the product -/

/-- The reference's quantized activation at row (b, l), column k is the specification's. -/
theorem x_entry (x0 : A0) (x1 : A1) (hC : ∀ i, ∃ r : ℝ, Cof x0 i = (r : EReal)) (hW : ∀ i, ∃ r : ℝ, Wof x1 i = (r : EReal))
    (hscale : ∀ k : Fin 576, val_main_v35 (F := Ideal) x0 x1 (ix1 k) = Cert.Spec.scale (Cof x0) (Wof x1) k)
    (hstepX : val_main_v43 (F := Ideal) x0 x1 ix0 = Cert.Spec.stepX (Cof x0) (Wof x1))
    (b : Fin 16) (k : Fin 576) (l : Fin 16384) :
    val_main_v51 (F := Ideal) x0 x1 (ix2 (row b l) k) = Cert.Spec.qX (Cof x0) (Wof x1) b k l := by
  rw [v51_form, v38_at x0 x1 hscale, hstepX,
    ste_q (isReal_vX (Cof x0) (Wof x1) hC hW b k l) (isReal_stepX (Cof x0) (Wof x1) hC hW), Cert.Spec.qX]

/-- The reference's quantized weight at output channel o, column k is the specification's. -/
theorem w_entry (x0 : A0) (x1 : A1) (hC : ∀ i, ∃ r : ℝ, Cof x0 i = (r : EReal)) (hW : ∀ i, ∃ r : ℝ, Wof x1 i = (r : EReal))
    (hscale : ∀ k : Fin 576, val_main_v35 (F := Ideal) x0 x1 (ix1 k) = Cert.Spec.scale (Cof x0) (Wof x1) k)
    (hstepW : val_main_v59 (F := Ideal) x0 x1 ix0 = Cert.Spec.stepW (Cof x0) (Wof x1))
    (o : Fin 128) (k : Fin 576) :
    val_main_v67 (F := Ideal) x0 x1 (ix2 o k) = Cert.Spec.qW (Cof x0) (Wof x1) o k := by
  rw [v67_form, v54_at x0 x1 hscale, hstepW,
    ste_q (isReal_vW (Cof x0) (Wof x1) hC hW o k) (isReal_stepW (Cof x0) (Wof x1) hC hW), Cert.Spec.qW]

/-- The reference's result at image b, output channel o, output position (y, z) is the specification's product. -/
theorem out_eq (x0 : A0) (x1 : A1) (hC : ∀ i, ∃ r : ℝ, Cof x0 i = (r : EReal)) (hW : ∀ i, ∃ r : ℝ, Wof x1 i = (r : EReal))
    (hscale : ∀ k : Fin 576, val_main_v35 (F := Ideal) x0 x1 (ix1 k) = Cert.Spec.scale (Cof x0) (Wof x1) k)
    (hstepX : val_main_v43 (F := Ideal) x0 x1 ix0 = Cert.Spec.stepX (Cof x0) (Wof x1))
    (hstepW : val_main_v59 (F := Ideal) x0 x1 ix0 = Cert.Spec.stepW (Cof x0) (Wof x1))
    (b : Fin 16) (o : Fin 128) (y z : Fin 128) :
    val_main_v71 (F := Ideal) x0 x1 (ix4 b o y z) = Cert.Spec.out (Cof x0) (Wof x1) b o ⟨y.val * 128 + z.val, by omega⟩ := by
  rw [val_main_v71_apply, idx71, val_main_v70_apply, idx70, val_main_v69_apply, idx69, val_main_v68_apply, Cert.Spec.out]
  refine Finset.sum_congr rfl fun k _ => ?_
  rw [lidx68, ridx68, x_entry x0 x1 hC hW hscale hstepX, w_entry x0 x1 hC hW hscale hstepW, mul_comm]

end Cert.RefProduct

end
-- ==== Proof.ColsEq.lean ====
/-
  The two programs build the same im2col array and the same flattened weight: the host operations that make them
  are the same operations on the same arguments.
-/
import proofs.«122551_j65360812311363_2_alg».proof.Proof.Ideal.Run
import proofs.«122551_j65360812311363_2_alg».proof.Proof.RefReadP
import proofs.«122551_j65360812311363_2_alg».proof.Proof.Spec

set_option maxRecDepth 16384

noncomputable section

namespace Cert.ColsEq

open Cert.KernelIdeal Cert.KernelIdeal.Gen Cert.KernelIdeal.Run
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The kernel's im2col array, as it stands when the first region starts. -/
def colsK : Cert.Spec.SC.Idx → EReal := W3 (F := Ideal) m ρ c (Proc.devRef .tc main_v20)
/-- The kernel's flattened weight. -/
def wflatK : Cert.Spec.SW.Idx → EReal := W3 (F := Ideal) m ρ c (Proc.devRef .tc main_v21)

theorem colsK_eq : colsK m ρ c = Cert.ReferenceIdeal.ReadP.val_main_v20 (F := Ideal) (m ((c.tc : Thread nD τ).loc main_arg0)) := by
  unfold colsK
  show StableHlo.after hostOps0_2 (StableHlo.after hostOps0_1 (StableHlo.after hostOps0 (W0 m ρ c))) (Proc.devRef .tc main_v20) = _
  after_results_simp
  rfl

theorem wflatK_eq : wflatK m ρ c = Cert.ReferenceIdeal.ReadP.val_main_v23 (F := Ideal) (m ((c.tc : Thread nD τ).loc main_arg1)) := by
  unfold wflatK
  show StableHlo.after hostOps0_2 (StableHlo.after hostOps0_1 (StableHlo.after hostOps0 (W0 m ρ c))) (Proc.devRef .tc main_v21) = _
  after_results_simp
  rfl

end Cert.ColsEq

end
-- ==== Proof.AllReal.lean ====
/-
  Arrays of real numbers stay arrays of real numbers under re-layout: a broadcast, a reshape, a slice, a transpose
  and a concatenation only move entries around, and a padding adds copies of the padding value.
-/
import Idealize.ShloMosaic.PureOps
import proofs.«122551_j65360812311363_2_alg».proof.Proof.LibFakeQuant

namespace Cert.AllReal

open Idealize.ShloMosaic Cert.LibFakeQuant

/-- Every entry is a real number. -/
def AllReal {s : Shape} (x : s.Idx → EReal) : Prop := ∀ i, IsReal (x i)

variable {s : Shape}

theorem of_broadcastInDim (t : Shape) (dims : Fin s.rank → Fin t.rank) (h : s.BroadcastsInDim t dims) {x : s.Idx → EReal}
    (hx : AllReal x) : AllReal (broadcastInDim t dims h x) := fun _ => hx _

theorem of_shapeCast (t : Shape) {x : s.Idx → EReal} (h : s.ShapeCasts t) (hx : AllReal x) : AllReal (shapeCast t x h) :=
  fun _ => hx _

theorem of_slice (t : Shape) (off : Fin s.rank → Nat) {x : s.Idx → EReal} (h : s.Slices off t) (hx : AllReal x) :
    AllReal (extractStridedSlice t off x h) := fun _ => hx _

theorem of_transpose (t : Shape) (perm : List (Fin s.rank)) {x : s.Idx → EReal} (h : s.Transposes perm t) (hx : AllReal x) :
    AllReal (transpose t perm x h) := fun _ => hx _

theorem of_pad (t : Shape) (lo hi interior : Fin s.rank → Nat) {x : s.Idx → EReal} {u : Shape} {v : u.Idx → EReal}
    (h : s.Pads lo hi interior t) (hu : 0 < u.numel) (hx : AllReal x) (hv : AllReal v) :
    AllReal (pad t lo hi interior x v h hu) := fun j => by
  unfold pad
  split
  · exact hx _
  · exact hv _

theorem of_concatenate (t : Shape) (a : Fin t.rank) (xs : List ((s : Shape) × (s.Idx → EReal)))
    (h : Shape.Concatenates (xs.map (·.1)) t a) (hxs : ∀ p ∈ xs, AllReal p.2) : AllReal (concatenate t a xs h) := fun j => by
  unfold concatenate
  exact hxs _ (List.getElem_mem _) _

end Cert.AllReal
-- ==== Proof.ColsReal.lean ====
/-
  The im2col array and the flattened weight of real inputs are arrays of real numbers: the im2col array is a reshape of
  nine shifted windows of the zero-padded input stacked along a new axis, so each of its entries is an entry of the
  input or the padding zero; the flattened weight is a reshape of the weight.
-/
import proofs.«122551_j65360812311363_2_alg».proof.Proof.RefReadP
import proofs.«122551_j65360812311363_2_alg».proof.Proof.AllReal

noncomputable section

namespace Cert.ColsReal

open Cert.ReferenceIdeal Cert.ReferenceIdeal.Gen Cert.ReferenceIdeal.ReadP Idealize.ShloMosaic Cert.LibFakeQuant Cert.AllReal

/-- The padding value is the real number zero. -/
theorem pad_value_real : AllReal (val_main_call0_v0 (F := Ideal)) := fun _ => ⟨_, rfl⟩

variable (x0 : (⟨S16x64x128x128, .f32⟩ : BufTy).Contents (Elt Ideal)) (hx0 : AllReal (s := S16x64x128x128) x0)

include hx0 in
theorem padded_real : AllReal (val_main_v0 (F := Ideal) x0) := by
  unfold val_main_v0; exact of_pad _ _ _ _ _ _ hx0 pad_value_real

include hx0 in
/-- The im2col array of a real input. -/
theorem cols_real : AllReal (val_main_v20 (F := Ideal) x0) := by
  have hp := padded_real x0 hx0
  have h10 : AllReal (val_main_v10 (F := Ideal) x0) := by
    unfold val_main_v10 val_main_v1; exact of_broadcastInDim _ _ _ (of_slice _ _ _ hp)
  have h11 : AllReal (val_main_v11 (F := Ideal) x0) := by
    unfold val_main_v11 val_main_v2; exact of_broadcastInDim _ _ _ (of_slice _ _ _ hp)
  have h12 : AllReal (val_main_v12 (F := Ideal) x0) := by
    unfold val_main_v12 val_main_v3; exact of_broadcastInDim _ _ _ (of_slice _ _ _ hp)
  have h13 : AllReal (val_main_v13 (F := Ideal) x0) := by
    unfold val_main_v13 val_main_v4; exact of_broadcastInDim _ _ _ (of_slice _ _ _ hp)
  have h14 : AllReal (val_main_v14 (F := Ideal) x0) := by
    unfold val_main_v14 val_main_v5; exact of_broadcastInDim _ _ _ (of_slice _ _ _ hp)
  have h15 : AllReal (val_main_v15 (F := Ideal) x0) := by
    unfold val_main_v15 val_main_v6; exact of_broadcastInDim _ _ _ (of_slice _ _ _ hp)
  have h16 : AllReal (val_main_v16 (F := Ideal) x0) := by
    unfold val_main_v16 val_main_v7; exact of_broadcastInDim _ _ _ (of_slice _ _ _ hp)
  have h17 : AllReal (val_main_v17 (F := Ideal) x0) := by
    unfold val_main_v17 val_main_v8; exact of_broadcastInDim _ _ _ (of_slice _ _ _ hp)
  have h18 : AllReal (val_main_v18 (F := Ideal) x0) := by
    unfold val_main_v18 val_main_v9; exact of_broadcastInDim _ _ _ (of_slice _ _ _ hp)
  unfold val_main_v20 val_main_v19
  refine of_shapeCast _ _ (of_concatenate _ _ _ _ fun p hp' => ?_)
  simp only [List.mem_cons, List.not_mem_nil, or_false] at hp'
  rcases hp' with rfl | rfl | rfl | rfl | rfl | rfl | rfl | rfl | rfl
  exacts [h10, h11, h12, h13, h14, h15, h16, h17, h18]

/-- The flattened weight of a real weight. -/
theorem wflat_real (x1 : (⟨S128x64x3x3, .f32⟩ : BufTy).Contents (Elt Ideal)) (hx1 : AllReal (s := S128x64x3x3) x1) :
    AllReal (val_main_v23 (F := Ideal) x1) := by
  unfold val_main_v23; exact of_shapeCast _ _ hx1

end Cert.ColsReal

end
-- ==== Proof.Finite.lean ====
/-
  From the stated precondition to real entries. The precondition is the conjunction of two
  all-reductions, each of the elementwise comparison |x| < +inf over one argument array. At the
  extended-real reading every entry is an extended real, |x| is max x (-x), and the pattern
  0x7F800000 denotes the top element; so the comparison holds exactly at the entries that are
  neither top nor bottom, which are the real numbers.
-/
import proofs.«122551_j65360812311363_2_alg».proof.Pre_finite_inputs
import proofs.«122551_j65360812311363_2_alg».proof.Proof.Gen.Pre_finite_inputs
import Idealize.ShloMosaic.PureOps.Ideal
import Idealize.ShloMosaic.Lib.ReduceAll
import Idealize.ShloMosaic.Lib.ValueIdx

namespace Cert.Finite

open Idealize.ShloMosaic

/-- The rank-0 shape has exactly one index. -/
instance : Subsingleton Cert.Pre_finite_inputs.S_.Idx := ⟨fun a b => funext fun d => d.elim0⟩

/-- The binary32 pattern of +inf denotes the top extended real. -/
theorem ofBits_inf : Ideal.ofBits .f32 0x7F800000#32 = (⊤ : EReal) := by
  simp [Ideal.ofBits, Ideal.ieee]

/-- An extended real whose absolute value max x (-x) is strictly below top is a real number:
    at top the maximum is top, at bottom -x is top. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One elementwise comparison |x| < +inf answering 1 says the entry is real. -/
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [ofBits_inf] at h'
  apply real_of_abs_lt_top
  by_contra hn
  simp [hn] at h'

theorem real_of_pre (a0 : FVec Ideal Cert.Pre_finite_inputs.S16x64x128x128 .f32) (a1 : FVec Ideal Cert.Pre_finite_inputs.S128x64x3x3 .f32)
    (h : @Cert.Pre_finite_inputs.fn Cert.Pre_finite_inputs.Gen.facts Ideal _ a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨e0, e1⟩ := IntOp.andi_eq_one.1 h0
  refine ⟨fun i => ?_, fun i => ?_⟩
  · exact real_of_cmp (a0 i) (Host.reduce_andi_all _ _ _ _ _ e0 i)
  · exact real_of_cmp (a1 i) (Host.reduce_andi_all _ _ _ _ _ e1 i)

end Cert.Finite
-- ==== Proof.Bridge.lean ====
/-
  The two results are one array.

  Under the precondition both arguments are arrays of real numbers, hence so are the im2col array and the flattened
  weight. The kernel's result at (b, o, y, z) is the specification's value at (b, o, y·128 + z) of its own im2col array
  and flattened weight; the reference's result is the specification's value of its own; and the two programs build
  those two arrays by the same operations from the same arguments.
-/
import proofs.«122551_j65360812311363_2_alg».proof.Proof.Ideal.KernelResult
import proofs.«122551_j65360812311363_2_alg».proof.Proof.RefSteps
import proofs.«122551_j65360812311363_2_alg».proof.Proof.RefProduct
import proofs.«122551_j65360812311363_2_alg».proof.Proof.ColsEq
import proofs.«122551_j65360812311363_2_alg».proof.Proof.ColsReal
import proofs.«122551_j65360812311363_2_alg».proof.Proof.Finite

set_option maxRecDepth 16384

noncomputable section

namespace Cert.Bridge

open Cert.KernelIdeal Cert.KernelIdeal.Gen Cert.KernelIdeal.Run
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Under the precondition, what the kernel leaves in its result buffer is the reference's last stage at the same
    arguments. -/
theorem result_eq
    (hpre : @Cert.Pre_finite_inputs.fn Cert.Pre_finite_inputs.Gen.facts Ideal _
      (m ((c.tc : Thread nD τ).loc main_arg0)) (m ((c.tc : Thread nD τ).loc main_arg1)) = fun _ => 1#1) :
    (W17 (F := Ideal) m ρ c (Proc.devRef .tc main_v58) : S16x128x128x128.Idx → EReal)
      = Cert.ReferenceIdeal.ReadP.val_main_v71 (F := Ideal) (m ((c.tc : Thread nD τ).loc main_arg0)) (m ((c.tc : Thread nD τ).loc main_arg1)) := by
  funext i
  obtain ⟨b, o, y, z, rfl⟩ : ∃ (b : Fin 16) (o : Fin 128) (y z : Fin 128), (i : S16x128x128x128.Idx) = ix4 b o y z :=
    ⟨i 0, i 1, i 2, i 3, eq_ix4 i⟩
  obtain ⟨hx0, hx1⟩ := Cert.Finite.real_of_pre _ _ hpre
  have hC := Cert.ColsReal.cols_real _ hx0
  have hW := Cert.ColsReal.wflat_real _ hx1
  refine (Cert.KernelIdeal.KernelResult.result m ρ c b o y z).trans ?_
  refine Eq.trans ?_ (Cert.RefProduct.out_eq _ _ hC hW (Cert.RefSteps.scale_eq _ _) (Cert.RefSteps.stepX_eq _ _ hC hW)
    (Cert.RefSteps.stepW_eq _ _) b o y z).symm
  have e1 : Cert.KernelIdeal.KernelSteps.Cin m ρ c = Cert.RefProduct.Cof (m ((c.tc : Thread nD τ).loc main_arg0)) :=
    Cert.ColsEq.colsK_eq m ρ c
  have e2 : Cert.KernelIdeal.KernelSteps.Win m ρ c = Cert.RefProduct.Wof (m ((c.tc : Thread nD τ).loc main_arg1)) :=
    Cert.ColsEq.wflatK_eq m ρ c
  rw [e1, e2]

end Cert.Bridge

end
-- ==== Proof.lean ====
/-
  The certificate of a smooth-quantized 3×3 convolution: im2col, a per-patch-entry smoothing scale from the column
  maxima of |activation| and |weight|, 8-bit fake quantization of both sides with one step per tensor, and a product.

  The kernel program computes the column maxima of the im2col array in a first kernel region (a running maximum per
  core over its grid points, the two cores joined on the host), takes the activation step from the maximum over the
  columns of (column maximum / scale), quantizes the weight on the host, and quantizes the activations and multiplies
  in a second region. The reference takes the activation step from the maximum of |activation / scale| over the whole
  tensor and spells each quantized value q as v + (q − v). Read at the ideal instance, on finite inputs, the two are
  one function: a scale divides like a non-negative real factor (its inverse is 0 where it is an infinity), so the
  two maxima agree; v + (q − v) = q on real numbers; a product read with either factor first is the same sum.

  The three frames: the kernel program, as printed and idealized, is run item by item — host stretches and the two
  regions, each region's body run by the executor at every grid point (Bits/ and Ideal/); the reference is a straight
  line of host operations (RefFrame). No rewrite was applied by the ideal pass, so the idealization claim is trivial.
-/
import proofs.«122551_j65360812311363_2_alg».proof.Defs
import proofs.«122551_j65360812311363_2_alg».proof.Proof.Gen.Kernel
import proofs.«122551_j65360812311363_2_alg».proof.Proof.Gen.KernelIdeal
import proofs.«122551_j65360812311363_2_alg».proof.Proof.Gen.ReferenceIdeal
import proofs.«122551_j65360812311363_2_alg».proof.Proof.Gen.Pre_finite_inputs
import proofs.«122551_j65360812311363_2_alg».proof.Proof.Bits.Run
import proofs.«122551_j65360812311363_2_alg».proof.Proof.Ideal.Run
import proofs.«122551_j65360812311363_2_alg».proof.Proof.RefFrame
import proofs.«122551_j65360812311363_2_alg».proof.Proof.RefRunEq
import proofs.«122551_j65360812311363_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments as they were. -/
theorem frame_k : Cert.frame_Kernel (hKernel := Cert.Kernel.Gen.facts) (hPre_finite_inputs := Cert.Pre_finite_inputs.Gen.facts) :=
  fun m ρ _ => Cert.Kernel.Run.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The ideal pass rewrote nothing. -/
theorem preserves : Cert.preserves_Kernel_KernelIdeal := trivial

/-- From memories that agree on the arguments, under the precondition, both idealized programs end with the same result
    array: the kernel's result buffer at the end of its run, which is the reference's last stage at the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Run.W17 (F := Ideal) m ρ c (Proc.devRef .tc Cert.KernelIdeal.main_v58), ?_, ?_⟩
  · exact (θ_run Cert.KernelIdeal.defs _ _).mono (fun r h c =>
      ⟨h c _ (Cert.KernelIdeal.Run.mem_uc Cert.KernelIdeal.main_v58 (by decide)),
       (h c _ (Cert.KernelIdeal.Run.mem_uc Cert.KernelIdeal.main_arg0 (by decide))).trans (Cert.KernelIdeal.Run.W17_main_arg0 m ρ c),
       (h c _ (Cert.KernelIdeal.Run.mem_uc Cert.KernelIdeal.main_arg1 (by decide))).trans (Cert.KernelIdeal.Run.W17_main_arg1 m ρ c)⟩)
      (Cert.KernelIdeal.Run.run_all (F := Ideal) m ρ)
  · refine (θ_run Cert.ReferenceIdeal.defs _ _).mono (fun r h c => ⟨(h c).1.trans ?_, (h c).2⟩)
      (Cert.ReferenceIdeal.ValueP.run (F := Ideal) m' ρ')
    rw [Cert.RefRunEq.res_eq, (hagree c).1, (hagree c).2]
    exact (Cert.Bridge.result_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
